-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x63 : Shape := ⟨2, ![262144, 63]⟩
abbrev S262144x27 : Shape := ⟨2, ![262144, 27]⟩
abbrev S256x63 : Shape := ⟨2, ![256, 63]⟩
abbrev S256 : Shape := ⟨1, ![256]⟩
abbrev S256x256 : Shape := ⟨2, ![256, 256]⟩
abbrev S256x319 : Shape := ⟨2, ![256, 319]⟩
abbrev S1x256 : Shape := ⟨2, ![1, 256]⟩
abbrev S1 : Shape := ⟨1, ![1]⟩
abbrev S128x283 : Shape := ⟨2, ![128, 283]⟩
abbrev S128 : Shape := ⟨1, ![128]⟩
abbrev S128x128 : Shape := ⟨2, ![128, 128]⟩
abbrev S3x128 : Shape := ⟨2, ![3, 128]⟩
abbrev S3 : Shape := ⟨1, ![3]⟩
abbrev S_ : Shape := ⟨0, ![]⟩

class Facts : Prop where
  bcast_S_S262144x63 : S_.BroadcastsInDim S262144x63 (![] : Fin 0 → Fin S262144x63.rank)
  reducesTo_S262144x63_S_d0_1 : S262144x63.ReducesTo [0, 1] S_
  h_S_ : 0 < S_.numel
  bcast_S_S262144x27 : S_.BroadcastsInDim S262144x27 (![] : Fin 0 → Fin S262144x27.rank)
  reducesTo_S262144x27_S_d0_1 : S262144x27.ReducesTo [0, 1] S_
  bcast_S_S256x63 : S_.BroadcastsInDim S256x63 (![] : Fin 0 → Fin S256x63.rank)
  reducesTo_S256x63_S_d0_1 : S256x63.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x319 : S_.BroadcastsInDim S256x319 (![] : Fin 0 → Fin S256x319.rank)
  reducesTo_S256x319_S_d0_1 : S256x319.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S128x283 : S_.BroadcastsInDim S128x283 (![] : Fin 0 → Fin S128x283.rank)
  reducesTo_S128x283_S_d0_1 : S128x283.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part9 {F : FTy → Type} [FloatOps F] (main_arg31 : FVec F S3 .f32) (main_v153 : IVec S_ 1) : IVec S_ 1 :=
  let main_v154 : FVec F S3 .f32 := Host.absf main_arg31
  let main_cst_60 : FVec F S_ .f32 := constant S_ .f32 0x7F800000#32
  let main_v155 : FVec F S3 .f32 := broadcastInDim S3 ![] bcast_S_S3 main_cst_60
  let main_v156 : IVec S3 1 := cmpf .olt main_v154 main_v155
  let main_c_61 : IVec S_ 1 := constantI S_ 1 1#1
  let main_v157 : IVec S_ 1 := (fun x v => Host.reduce IntOp.andi x v reducesTo_S3_S_d0 h_S_) main_v156 main_c_61
  let main_v158 : IVec S_ 1 := andi main_v153 main_v157
  main_v158

def fn_part8 {F : FTy → Type} [FloatOps F] (main_arg28 : FVec F S128x128 .f32) (main_arg29 : FVec F S128 .f32) (main_arg30 : FVec F S3x128 .f32) (main_arg31 : FVec F S3 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128x128 .f32 := Host.absf main_arg28
  let main_cst_54 : FVec F S_ .f32 := constant S_ .f32 0x7F800000#32
  let main_v140 : FVec F S128x128 .f32 := broadcastInDim S128x128 ![] bcast_S_S128x128 main_cst_54
  let main_v141 : IVec S128x128 1 := cmpf .olt main_v139 main_v140
  let main_c_55 : IVec S_ 1 := constantI S_ 1 1#1
  let main_v142 : IVec S_ 1 := (fun x v => Host.reduce IntOp.andi x v reducesTo_S128x128_S_d0_1 h_S_) main_v141 main_c_55
  let main_v143 : IVec S_ 1 := andi main_v138 main_v142
  let main_v144 : FVec F S128 .f32 := Host.absf main_arg29
  let main_cst_56 : FVec F S_ .f32 := constant S_ .f32 0x7F800000#32
  let main_v145 : FVec F S128 .f32 := broadcastInDim S128 ![] bcast_S_S128 main_cst_56
  let main_v146 : IVec S128 1 := cmpf .olt main_v144 main_v145
  let main_c_57 : IVec S_ 1 := constantI S_ 1 1#1
  let main_v147 : IVec S_ 1 := (fun x v => Host.reduce IntOp.andi x v reducesTo_S128_S_d0 h_S_) main_v146 main_c_57
  let main_v148 : IVec S_ 1 := andi main_v143 main_v147
  let main_v149 : FVec F S3x128 .f32 := Host.absf main_arg30
  let main_cst_58 : FVec F S_ .f32 := constant S_ .f32 0x7F800000#32
  let main_v150 : FVec F S3x128 .f32 := broadcastInDim S3x128 ![] bcast_S_S3x128 main_cst_58
  let main_v151 : IVec S3x128 1 := cmpf .olt main_v149 main_v150
  let main_c_59 : IVec S_ 1 := constantI S_ 1 1#1
  let main_v152 : IVec S_ 1 := (fun x v => Host.reduce IntOp.andi x v reducesTo_S3x128_S_d0_1 h_S_) main_v151 main_c_59
  let main_v153 : IVec S_ 1 := andi main_v148 main_v152
  fn_part9 (F := F) main_arg31 main_v153

def fn_part7 {F : FTy → Type} [FloatOps F] (main_arg25 : FVec F S128 .f32) (main_arg26 : FVec F S128x128 .f32) (main_arg27 : FVec F S128 .f32) (main_arg28 : FVec F S128x128 .f32) (main_arg29 : FVec F S128 .f32) (main_arg30 : FVec F S3x128 .f32) (main_arg31 : FVec F S3 .f32) (main_v118 : IVec S_ 1) (main_v119 : FVec F S128x128 .f32) : IVec S_ 1 :=
  let main_cst_46 : FVec F S_ .f32 := constant S_ .f32 0x7F800000#32
  let main_v120 : FVec F S128x128 .f32 := broadcastInDim S128x128 ![] bcast_S_S128x128 main_cst_46
  let main_v121 : IVec S128x128 1 := cmpf .olt main_v119 main_v120
  let main_c_47 : IVec S_ 1 := constantI S_ 1 1#1
  let main_v122 : IVec S_ 1 := (fun x v => Host.reduce IntOp.andi x v reducesTo_S128x128_S_d0_1 h_S_) main_v121 main_c_47
  let main_v123 : IVec S_ 1 := andi main_v118 main_v122
  let main_v124 : FVec F S128 .f32 := Host.absf main_arg25
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128x128 .f32 := Host.absf main_arg26
  let main_cst_50 : FVec F S_ .f32 := constant S_ .f32 0x7F800000#32
  let main_v130 : FVec F S128x128 .f32 := broadcastInDim S128x128 ![] bcast_S_S128x128 main_cst_50
  let main_v131 : IVec S128x128 1 := cmpf .olt main_v129 main_v130
  let main_c_51 : IVec S_ 1 := constantI S_ 1 1#1
  let main_v132 : IVec S_ 1 := (fun x v => Host.reduce IntOp.andi x v reducesTo_S128x128_S_d0_1 h_S_) main_v131 main_c_51
  let main_v133 : IVec S_ 1 := andi main_v128 main_v132
  let main_v134 : FVec F S128 .f32 := Host.absf main_arg27
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg28 main_arg29 main_arg30 main_arg31 main_v133 main_v136

def fn_part6 {F : FTy → Type} [FloatOps F] (main_arg21 : FVec F S256 .f32) (main_arg22 : FVec F S128x283 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_arg30 : FVec F S3x128 .f32) (main_arg31 : FVec F S3 .f32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S128x283 .f32 := Host.absf main_arg22
  let main_cst_42 : FVec F S_ .f32 := constant S_ .f32 0x7F800000#32
  let main_v110 : FVec F S128x283 .f32 := broadcastInDim S128x283 ![] bcast_S_S128x283 main_cst_42
  let main_v111 : IVec S128x283 1 := cmpf .olt main_v109 main_v110
  let main_c_43 : IVec S_ 1 := constantI S_ 1 1#1
  let main_v112 : IVec S_ 1 := (fun x v => Host.reduce IntOp.andi x v reducesTo_S128x283_S_d0_1 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x128 .f32 := Host.absf main_arg24
  fn_part7 (F := F) main_arg25 main_arg26 main_arg27 main_arg28 main_arg29 main_arg30 main_arg31 main_v118 main_v119

def fn_part5 {F : FTy → Type} [FloatOps F] (main_arg18 : FVec F S1x256 .f32) (main_arg19 : FVec F S1 .f32) (main_arg20 : FVec F S256x256 .f32) (main_arg21 : FVec F S256 .f32) (main_arg22 : FVec F S128x283 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_arg30 : FVec F S3x128 .f32) (main_arg31 : FVec F S3 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S1x256 .f32 := Host.absf main_arg18
  let main_cst_34 : FVec F S_ .f32 := constant S_ .f32 0x7F800000#32
  let main_v90 : FVec F S1x256 .f32 := broadcastInDim S1x256 ![] bcast_S_S1x256 main_cst_34
  let main_v91 : IVec S1x256 1 := cmpf .olt main_v89 main_v90
  let main_c_35 : IVec S_ 1 := constantI S_ 1 1#1
  let main_v92 : IVec S_ 1 := (fun x v => Host.reduce IntOp.andi x v reducesTo_S1x256_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S256x256 .f32 := Host.absf main_arg20
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_v98 main_v101 main_c_39

def fn_part4 {F : FTy → Type} [FloatOps F] (main_arg14 : FVec F S256x256 .f32) (main_arg15 : FVec F S256 .f32) (main_arg16 : FVec F S256x256 .f32) (main_arg17 : FVec F S256 .f32) (main_arg18 : FVec F S1x256 .f32) (main_arg19 : FVec F S1 .f32) (main_arg20 : FVec F S256x256 .f32) (main_arg21 : FVec F S256 .f32) (main_arg22 : FVec F S128x283 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_arg30 : FVec F S3x128 .f32) (main_arg31 : FVec F S3 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_v83 main_v84 main_cst_32

def fn_part3 {F : FTy → Type} [FloatOps F] (main_arg11 : FVec F S256 .f32) (main_arg12 : FVec F S256x319 .f32) (main_arg13 : FVec F S256 .f32) (main_arg14 : FVec F S256x256 .f32) (main_arg15 : FVec F S256 .f32) (main_arg16 : FVec F S256x256 .f32) (main_arg17 : FVec F S256 .f32) (main_arg18 : FVec F S1x256 .f32) (main_arg19 : FVec F S1 .f32) (main_arg20 : FVec F S256x256 .f32) (main_arg21 : FVec F S256 .f32) (main_arg22 : FVec F S128x283 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_arg30 : FVec F S3x128 .f32) (main_arg31 : FVec F S3 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x319 .f32 := Host.absf main_arg12
  let main_cst_22 : FVec F S_ .f32 := constant S_ .f32 0x7F800000#32
  let main_v60 : FVec F S256x319 .f32 := broadcastInDim S256x319 ![] bcast_S_S256x319 main_cst_22
  let main_v61 : IVec S256x319 1 := cmpf .olt main_v59 main_v60
  let main_c_23 : IVec S_ 1 := constantI S_ 1 1#1
  let main_v62 : IVec S_ 1 := (fun x v => Host.reduce IntOp.andi x v reducesTo_S256x319_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S256x319 .f32) (main_arg13 : FVec F S256 .f32) (main_arg14 : FVec F S256x256 .f32) (main_arg15 : FVec F S256 .f32) (main_arg16 : FVec F S256x256 .f32) (main_arg17 : FVec F S256 .f32) (main_arg18 : FVec F S1x256 .f32) (main_arg19 : FVec F S1 .f32) (main_arg20 : FVec F S256x256 .f32) (main_arg21 : FVec F S256 .f32) (main_arg22 : FVec F S128x283 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_arg30 : FVec F S3x128 .f32) (main_arg31 : FVec F S3 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x319 .f32) (main_arg13 : FVec F S256 .f32) (main_arg14 : FVec F S256x256 .f32) (main_arg15 : FVec F S256 .f32) (main_arg16 : FVec F S256x256 .f32) (main_arg17 : FVec F S256 .f32) (main_arg18 : FVec F S1x256 .f32) (main_arg19 : FVec F S1 .f32) (main_arg20 : FVec F S256x256 .f32) (main_arg21 : FVec F S256 .f32) (main_arg22 : FVec F S128x283 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_arg30 : FVec F S3x128 .f32) (main_arg31 : FVec F S3 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S262144x63 .f32) (main_arg1 : FVec F S262144x27 .f32) (main_arg2 : FVec F S256x63 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x319 .f32) (main_arg13 : FVec F S256 .f32) (main_arg14 : FVec F S256x256 .f32) (main_arg15 : FVec F S256 .f32) (main_arg16 : FVec F S256x256 .f32) (main_arg17 : FVec F S256 .f32) (main_arg18 : FVec F S1x256 .f32) (main_arg19 : FVec F S1 .f32) (main_arg20 : FVec F S256x256 .f32) (main_arg21 : FVec F S256 .f32) (main_arg22 : FVec F S128x283 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_arg30 : FVec F S3x128 .f32) (main_arg31 : FVec F S3 .f32) : IVec S_ 1 :=
  let main_v0 : FVec F S262144x63 .f32 := Host.absf main_arg0
  let main_cst : FVec F S_ .f32 := constant S_ .f32 0x7F800000#32
  let main_v1 : FVec F S262144x63 .f32 := broadcastInDim S262144x63 ![] bcast_S_S262144x63 main_cst
  let main_v2 : IVec S262144x63 1 := cmpf .olt main_v0 main_v1
  let main_c : IVec S_ 1 := constantI S_ 1 1#1
  let main_v3 : IVec S_ 1 := (fun x v => Host.reduce IntOp.andi x v reducesTo_S262144x63_S_d0_1 h_S_) main_v2 main_c
  let main_v4 : FVec F S262144x27 .f32 := Host.absf main_arg1
  let main_cst_0 : FVec F S_ .f32 := constant S_ .f32 0x7F800000#32
  let main_v5 : FVec F S262144x27 .f32 := broadcastInDim S262144x27 ![] bcast_S_S262144x27 main_cst_0
  let main_v6 : IVec S262144x27 1 := cmpf .olt main_v4 main_v5
  let main_c_1 : IVec S_ 1 := constantI S_ 1 1#1
  let main_v7 : IVec S_ 1 := (fun x v => Host.reduce IntOp.andi x v reducesTo_S262144x27_S_d0_1 h_S_) main_v6 main_c_1
  let main_v8 : IVec S_ 1 := andi main_v3 main_v7
  let main_v9 : FVec F S256x63 .f32 := Host.absf main_arg2
  let main_cst_2 : FVec F S_ .f32 := constant S_ .f32 0x7F800000#32
  let main_v10 : FVec F S256x63 .f32 := broadcastInDim S256x63 ![] bcast_S_S256x63 main_cst_2
  let main_v11 : IVec S256x63 1 := cmpf .olt main_v9 main_v10
  let main_c_3 : IVec S_ 1 := constantI S_ 1 1#1
  let main_v12 : IVec S_ 1 := (fun x v => Host.reduce IntOp.andi x v reducesTo_S256x63_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S262144x63 : Shape := ⟨2, ![262144, 63]⟩
abbrev S262144x27 : Shape := ⟨2, ![262144, 27]⟩
abbrev S256x63 : Shape := ⟨2, ![256, 63]⟩
abbrev S256 : Shape := ⟨1, ![256]⟩
abbrev S256x256 : Shape := ⟨2, ![256, 256]⟩
abbrev S256x319 : Shape := ⟨2, ![256, 319]⟩
abbrev S1x256 : Shape := ⟨2, ![1, 256]⟩
abbrev S1 : Shape := ⟨1, ![1]⟩
abbrev S128x283 : Shape := ⟨2, ![128, 283]⟩
abbrev S128 : Shape := ⟨1, ![128]⟩
abbrev S128x128 : Shape := ⟨2, ![128, 128]⟩
abbrev S3x128 : Shape := ⟨2, ![3, 128]⟩
abbrev S3 : Shape := ⟨1, ![3]⟩
abbrev S63x256 : Shape := ⟨2, ![63, 256]⟩
abbrev S128x256 : Shape := ⟨2, ![128, 256]⟩
abbrev S256x128 : Shape := ⟨2, ![256, 128]⟩
abbrev S128x27 : Shape := ⟨2, ![128, 27]⟩
abbrev S27x128 : Shape := ⟨2, ![27, 128]⟩
abbrev S1x1 : Shape := ⟨2, ![1, 1]⟩
abbrev S1x128 : Shape := ⟨2, ![1, 128]⟩
abbrev S1x3 : Shape := ⟨2, ![1, 3]⟩
abbrev S262144x4 : Shape := ⟨2, ![262144, 4]⟩
abbrev S2048x63 : Shape := ⟨2, ![2048, 63]⟩
abbrev S2048x27 : Shape := ⟨2, ![2048, 27]⟩
abbrev S2048x4 : Shape := ⟨2, ![2048, 4]⟩
abbrev S2048x256 : Shape := ⟨2, ![2048, 256]⟩
abbrev S2048 : Shape := ⟨1, ![2048]⟩
abbrev S2048x1 : Shape := ⟨2, ![2048, 1]⟩
abbrev S2048x128 : Shape := ⟨2, ![2048, 128]⟩
abbrev S262144x3 : Shape := ⟨2, ![262144, 3]⟩
abbrev S262144x1 : Shape := ⟨2, ![262144, 1]⟩

abbrev nBuf : Space → Nat
  | .hbm => 86
  | .vmem => 38
  | .smem => 0
  | _ => 0

abbrev bufTy : (tb : Table) → Fin (tcTables nBuf tb) → BufTy
  | .hbm, ⟨0, _⟩ => ⟨S262144x63, .f32⟩
  | .hbm, ⟨1, _⟩ => ⟨S262144x27, .f32⟩
  | .hbm, ⟨2, _⟩ => ⟨S256x63, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x319, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S1x256, .f32⟩
  | .hbm, ⟨19, _⟩ => ⟨S1, .f32⟩
  | .hbm, ⟨20, _⟩ => ⟨S256x256, .f32⟩
  | .hbm, ⟨21, _⟩ => ⟨S256, .f32⟩
  | .hbm, ⟨22, _⟩ => ⟨S128x283, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S128x128, .f32⟩
  | .hbm, ⟨27, _⟩ => ⟨S128, .f32⟩
  | .hbm, ⟨28, _⟩ => ⟨S128x128, .f32⟩
  | .hbm, ⟨29, _⟩ => ⟨S128, .f32⟩
  | .hbm, ⟨30, _⟩ => ⟨S3x128, .f32⟩
  | .hbm, ⟨31, _⟩ => ⟨S3, .f32⟩
  | .hbm, ⟨32, _⟩ => ⟨S262144x63, .bf16⟩
  | .hbm, ⟨33, _⟩ => ⟨S262144x27, .bf16⟩
  | .hbm, ⟨34, _⟩ => ⟨S63x256, .f32⟩
  | .hbm, ⟨35, _⟩ => ⟨S63x256, .bf16⟩
  | .hbm, ⟨36, _⟩ => ⟨S256x256, .f32⟩
  | .hbm, ⟨37, _⟩ => ⟨S256x256, .bf16⟩
  | .hbm, ⟨38, _⟩ => ⟨S256x256, .f32⟩
  | .hbm, ⟨39, _⟩ => ⟨S256x256, .bf16⟩
  | .hbm, ⟨40, _⟩ => ⟨S256x256, .f32⟩
  | .hbm, ⟨41, _⟩ => ⟨S256x256, .bf16⟩
  | .hbm, ⟨42, _⟩ => ⟨S256x256, .f32⟩
  | .hbm, ⟨43, _⟩ => ⟨S256x256, .bf16⟩
  | .hbm, ⟨44, _⟩ => ⟨S256x256, .f32⟩
  | .hbm, ⟨45, _⟩ => ⟨S256x256, .f32⟩
  | .hbm, ⟨46, _⟩ => ⟨S256x256, .bf16⟩
  | .hbm, ⟨47, _⟩ => ⟨S256x63, .f32⟩
  | .hbm, ⟨48, _⟩ => ⟨S63x256, .f32⟩
  | .hbm, ⟨49, _⟩ => ⟨S63x256, .bf16⟩
  | .hbm, ⟨50, _⟩ => ⟨S256x256, .f32⟩
  | .hbm, ⟨51, _⟩ => ⟨S256x256, .bf16⟩
  | .hbm, ⟨52, _⟩ => ⟨S256x256, .f32⟩
  | .hbm, ⟨53, _⟩ => ⟨S256x256, .bf16⟩
  | .hbm, ⟨54, _⟩ => ⟨S256x256, .f32⟩
  | .hbm, ⟨55, _⟩ => ⟨S256x256, .bf16⟩
  | .hbm, ⟨56, _⟩ => ⟨S128x256, .f32⟩
  | .hbm, ⟨57, _⟩ => ⟨S256x128, .f32⟩
  | .hbm, ⟨58, _⟩ => ⟨S256x128, .bf16⟩
  | .hbm, ⟨59, _⟩ => ⟨S128x27, .f32⟩
  | .hbm, ⟨60, _⟩ => ⟨S27x128, .f32⟩
  | .hbm, ⟨61, _⟩ => ⟨S27x128, .bf16⟩
  | .hbm, ⟨62, _⟩ => ⟨S128x128, .f32⟩
  | .hbm, ⟨63, _⟩ => ⟨S128x128, .bf16⟩
  | .hbm, ⟨64, _⟩ => ⟨S128x128, .f32⟩
  | .hbm, ⟨65, _⟩ => ⟨S128x128, .bf16⟩
  | .hbm, ⟨66, _⟩ => ⟨S128x128, .f32⟩
  | .hbm, ⟨67, _⟩ => ⟨S128x128, .bf16⟩
  | .hbm, ⟨68, _⟩ => ⟨S1x256, .f32⟩
  | .hbm, ⟨69, _⟩ => ⟨S1x256, .f32⟩
  | .hbm, ⟨70, _⟩ => ⟨S1x256, .f32⟩
  | .hbm, ⟨71, _⟩ => ⟨S1x256, .f32⟩
  | .hbm, ⟨72, _⟩ => ⟨S1x256, .f32⟩
  | .hbm, ⟨73, _⟩ => ⟨S1x256, .f32⟩
  | .hbm, ⟨74, _⟩ => ⟨S1x256, .f32⟩
  | .hbm, ⟨75, _⟩ => ⟨S1x256, .f32⟩
  | .hbm, ⟨76, _⟩ => ⟨S1x1, .f32⟩
  | .hbm, ⟨77, _⟩ => ⟨S1x256, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x3, .f32⟩
  | .hbm, ⟨83, _⟩ => ⟨S262144x4, .f32⟩
  | .hbm, ⟨84, _⟩ => ⟨S262144x3, .f32⟩
  | .hbm, ⟨85, _⟩ => ⟨S262144x1, .f32⟩
  | .local _ .vmem, ⟨0, _⟩ => ⟨S2048x63, .bf16⟩
  | .local _ .vmem, ⟨1, _⟩ => ⟨S2048x63, .bf16⟩
  | .local _ .vmem, ⟨2, _⟩ => ⟨S2048x27, .bf16⟩
  | .local _ .vmem, ⟨3, _⟩ => ⟨S2048x27, .bf16⟩
  | .local _ .vmem, ⟨4, _⟩ => ⟨S63x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S256x256, .bf16⟩
  | .local _ .vmem, ⟨15, _⟩ => ⟨S63x256, .bf16⟩
  | .local _ .vmem, ⟨16, _⟩ => ⟨S1x256, .f32⟩
  | .local _ .vmem, ⟨17, _⟩ => ⟨S256x256, .bf16⟩
  | .local _ .vmem, ⟨18, _⟩ => ⟨S1x256, .f32⟩
  | .local _ .vmem, ⟨19, _⟩ => ⟨S256x256, .bf16⟩
  | .local _ .vmem, ⟨20, _⟩ => ⟨S1x256, .f32⟩
  | .local _ .vmem, ⟨21, _⟩ => ⟨S1x256, .f32⟩
  | .local _ .vmem, ⟨22, _⟩ => ⟨S1x1, .f32⟩
  | .local _ .vmem, ⟨23, _⟩ => ⟨S256x256, .bf16⟩
  | .local _ .vmem, ⟨24, _⟩ => ⟨S1x256, .f32⟩
  | .local _ .vmem, ⟨25, _⟩ => ⟨S256x128, .bf16⟩
  | .local _ .vmem, ⟨26, _⟩ => ⟨S27x128, .bf16⟩
  | .local _ .vmem, ⟨27, _⟩ => ⟨S1x128, .f32⟩
  | .local _ .vmem, ⟨28, _⟩ => ⟨S128x128, .bf16⟩
  | .local _ .vmem, ⟨29, _⟩ => ⟨S1x128, .f32⟩
  | .local _ .vmem, ⟨30, _⟩ => ⟨S128x128, .bf16⟩
  | .local _ .vmem, ⟨31, _⟩ => ⟨S1x128, .f32⟩
  | .local _ .vmem, ⟨32, _⟩ => ⟨S128x128, .bf16⟩
  | .local _ .vmem, ⟨33, _⟩ => ⟨S1x128, .f32⟩
  | .local _ .vmem, ⟨34, _⟩ => ⟨S3x128, .f32⟩
  | .local _ .vmem, ⟨35, _⟩ => ⟨S1x3, .f32⟩
  | .local _ .vmem, ⟨36, _⟩ => ⟨S2048x4, .f32⟩
  | .local _ .vmem, ⟨37, _⟩ => ⟨S2048x4, .f32⟩
  | _, _ => ⟨S262144x63, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_stg29_0 : Ref sig .tc := ⟨.vmem, 31, rfl⟩
abbrev cc0_stg30_0 : Ref sig .tc := ⟨.vmem, 32, rfl⟩
abbrev cc0_stg31_0 : Ref sig .tc := ⟨.vmem, 33, rfl⟩
abbrev cc0_stg32_0 : Ref sig .tc := ⟨.vmem, 34, rfl⟩
abbrev cc0_stg33_0 : Ref sig .tc := ⟨.vmem, 35, rfl⟩
abbrev cc0_stg34_0 : Ref sig .tc := ⟨.vmem, 36, rfl⟩
abbrev cc0_stg34_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30
abbrev cc0_sem29_0 : DmaSem sig := 31
abbrev cc0_sem30_0 : DmaSem sig := 32
abbrev cc0_sem31_0 : DmaSem sig := 33
abbrev cc0_sem32_0 : DmaSem sig := 34
abbrev cc0_sem33_0 : DmaSem sig := 35
abbrev cc0_sem34_0 : DmaSem sig := 36
abbrev cc0_sem34_1 : DmaSem sig := 37

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x63 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x27 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S63x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S63x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x128 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S27x128 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S128x128 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S128x128 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S128x128 .bf16 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S3x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x3 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 2 → Memref sig .tc .vmem S2048x4 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

class Facts₀ : Prop where
  bitsLt_bf16_f32 : FTy.bits .bf16 < FTy.bits .f32
  transposes_S256x63_S63x256_1_0 : S256x63.Transposes [1, 0] S63x256
  transposes_S256x256_S256x256_1_0 : S256x256.Transposes [1, 0] S256x256
  slices_S256x319_S256x256_0_0 : S256x319.Slices ![0, 0] S256x256
  slices_S256x319_S256x63_0_256 : S256x319.Slices ![0, 256] S256x63
  slices_S128x283_S128x256_0_0 : S128x283.Slices ![0, 0] S128x256
  transposes_S128x256_S256x128_1_0 : S128x256.Transposes [1, 0] S256x128
  slices_S128x283_S128x27_0_256 : S128x283.Slices ![0, 256] S128x27
  transposes_S128x27_S27x128_1_0 : S128x27.Transposes [1, 0] S27x128
  transposes_S128x128_S128x128_1_0 : S128x128.Transposes [1, 0] S128x128
  shapeCasts_S256_S1x256 : S256.ShapeCasts S1x256
  shapeCasts_S1_S1x1 : S1.ShapeCasts S1x1
  shapeCasts_S128_S1x128 : S128.ShapeCasts S1x128
  shapeCasts_S3_S1x3 : S3.ShapeCasts S1x3
  inb_S2048x63_S2048x63_0_0 : ∀ a, (![0, 0] : Fin 2 → Nat) a + S2048x63.size a ≤ S2048x63.size a
  h_S2048x63 : 0 < S2048x63.numel
  shapeCasts_S2048x63_S2048x63 : S2048x63.ShapeCasts S2048x63
  inb_S63x256_S63x256_0_0 : ∀ a, (![0, 0] : Fin 2 → Nat) a + S63x256.size a ≤ S63x256.size a
  h_S63x256 : 0 < S63x256.numel
  shapeCasts_S63x256_S63x256 : S63x256.ShapeCasts S63x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S2048x256_S2048 : S2048x256.Reduces [1] S2048
  shapeCasts_S2048_S2048x1 : S2048.ShapeCasts S2048x1
  broadcasts_S1x1_S2048x1 : S1x1.Broadcasts S2048x1
  inb_S2048x4_S2048x1_0_3 : ∀ a, (![0, 3] : Fin 2 → Nat) a + S2048x1.size a ≤ S2048x4.size a
  h_S2048x1 : 0 < S2048x1.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x27_S2048x27_0_0 : ∀ a, (![0, 0] : Fin 2 → Nat) a + S2048x27.size a ≤ S2048x27.size a
  h_S2048x27 : 0 < S2048x27.numel
  shapeCasts_S2048x27_S2048x27 : S2048x27.ShapeCasts S2048x27
  inb_S27x128_S27x128_0_0 : ∀ a, (![0, 0] : Fin 2 → Nat) a + S27x128.size a ≤ S27x128.size a
  h_S27x128 : 0 < S27x128.numel
  shapeCasts_S27x128_S27x128 : S27x128.ShapeCasts S27x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x3_S1x3_0_0 : ∀ a, (![0, 0] : Fin 2 → Nat) a + S1x3.size a ≤ S1x3.size a
  h_S1x3 : 0 < S1x3.numel
  shapeCasts_S1x3_S1x3 : S1x3.ShapeCasts S1x3
  inb_S3x128_S1x128_0_0 : ∀ a, (![0, 0] : Fin 2 → Nat) a + S1x128.size a ≤ S3x128.size a
  reduces_S2048x128_S2048 : S2048x128.Reduces [1] S2048
  slices_S1x3_o0_0_S1x1 : S1x3.Slices ![0, 0] S1x1
  inb_S2048x4_S2048x1_0_0 : ∀ a, (![0, 0] : Fin 2 → Nat) a + S2048x1.size a ≤ S2048x4.size a
  inb_S3x128_S1x128_1_0 : ∀ a, (![1, 0] : Fin 2 → Nat) a + S1x128.size a ≤ S3x128.size a
  slices_S1x3_o0_1_S1x1 : S1x3.Slices ![0, 1] S1x1
  inb_S2048x4_S2048x1_0_1 : ∀ a, (![0, 1] : Fin 2 → Nat) a + S2048x1.size a ≤ S2048x4.size a
  inb_S3x128_S1x128_2_0 : ∀ a, (![2, 0] : Fin 2 → Nat) a + S1x128.size a ≤ S3x128.size a
  slices_S1x3_o0_2_S1x1 : S1x3.Slices ![0, 2] S1x1
  inb_S2048x4_S2048x1_0_2 : ∀ a, (![0, 2] : Fin 2 → Nat) a + S2048x1.size a ≤ S2048x4.size a
  slices_S262144x4_S262144x3_0_0 : S262144x4.Slices ![0, 0] S262144x3
  slices_S262144x4_S262144x1_0_3 : S262144x4.Slices ![0, 3] S262144x1
  dot_S2048x63_S63x256_S2048x256_1_0_0_1_n_n_wf : DotDims.WF S2048x63 S63x256 S2048x256 [1] [0] [0] [1] [] []
  dot_S2048x256_S256x256_S2048x256_1_0_0_1_n_n_wf : DotDims.WF S2048x256 S256x256 S2048x256 [1] [0] [0] [1] [] []
  dot_S2048x256_S256x128_S2048x128_1_0_0_1_n_n_wf : DotDims.WF S2048x256 S256x128 S2048x128 [1] [0] [0] [1] [] []
  dot_S2048x27_S27x128_S2048x128_1_0_0_1_n_n_wf : DotDims.WF S2048x27 S27x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x63.size a ≤ S262144x63.size a
  hwx0_0 : ∀ i : grid0.Coords, EltTy.bits .bf16 = 32 ∨ (Rect.block (s := S262144x63) S2048x63.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x27.size a ≤ S262144x27.size a
  hwx0_1 : ∀ i : grid0.Coords, EltTy.bits .bf16 = 32 ∨ (Rect.block (s := S262144x27) S2048x27.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S63x256.size a ≤ S63x256.size a
  hwx0_2 : ∀ i : grid0.Coords, EltTy.bits .bf16 = 32 ∨ (Rect.block (s := S63x256) S63x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .bf16 = 32 ∨ (Rect.block (s := S256x256) S256x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S63x256.size a ≤ S63x256.size a
  hwx0_13 : ∀ i : grid0.Coords, EltTy.bits .bf16 = 32 ∨ (Rect.block (s := S63x256) S63x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S256x256.size a
  hwx0_15 : ∀ i : grid0.Coords, EltTy.bits .bf16 = 32 ∨ (Rect.block (s := S256x256) S256x256.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x256.size a ≤ S256x256.size a
  hwx0_17 : ∀ i : grid0.Coords, EltTy.bits .bf16 = 32 ∨ (Rect.block (s := S256x256) S256x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x256.size a ≤ S1x256.size a
  hwx0_18 : ∀ i : grid0.Coords, EltTy.bits .f32 = 32 ∨ (Rect.block (s := S1x256) S1x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x256.size a ≤ S1x256.size a
  hwx0_19 : ∀ i : grid0.Coords, EltTy.bits .f32 = 32 ∨ (Rect.block (s := S1x256) S1x256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x1.size a ≤ S1x1.size a
  hwx0_20 : ∀ i : grid0.Coords, EltTy.bits .f32 = 32 ∨ (Rect.block (s := S1x1) S1x1.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256x256.size a ≤ S256x256.size a
  hwx0_21 : ∀ i : grid0.Coords, EltTy.bits .bf16 = 32 ∨ (Rect.block (s := S256x256) S256x256.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x256.size a ≤ S1x256.size a
  hwx0_22 : ∀ i : grid0.Coords, EltTy.bits .f32 = 32 ∨ (Rect.block (s := S1x256) S1x256.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S256x128.size a ≤ S256x128.size a
  hwx0_23 : ∀ i : grid0.Coords, EltTy.bits .bf16 = 32 ∨ (Rect.block (s := S256x128) S256x128.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S27x128.size a ≤ S27x128.size a
  hwx0_24 : ∀ i : grid0.Coords, EltTy.bits .bf16 = 32 ∨ (Rect.block (s := S27x128) S27x128.size (cc0_transform_24 i) (hinb0_24 i)).WholeWords (EltTy.packing .bf16)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x128.size a ≤ S1x128.size a
  hwx0_25 : ∀ i : grid0.Coords, EltTy.bits .f32 = 32 ∨ (Rect.block (s := S1x128) S1x128.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S128x128.size a ≤ S128x128.size a
  hwx0_26 : ∀ i : grid0.Coords, EltTy.bits .bf16 = 32 ∨ (Rect.block (s := S128x128) S128x128.size (cc0_transform_26 i) (hinb0_26 i)).WholeWords (EltTy.packing .bf16)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S1x128.size a ≤ S1x128.size a
  hwx0_27 : ∀ i : grid0.Coords, EltTy.bits .f32 = 32 ∨ (Rect.block (s := S1x128) S1x128.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S128x128.size a ≤ S128x128.size a
  hwx0_28 : ∀ i : grid0.Coords, EltTy.bits .bf16 = 32 ∨ (Rect.block (s := S128x128) S128x128.size (cc0_transform_28 i) (hinb0_28 i)).WholeWords (EltTy.packing .bf16)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S1x128.size a ≤ S1x128.size a
  hwx0_29 : ∀ i : grid0.Coords, EltTy.bits .f32 = 32 ∨ (Rect.block (s := S1x128) S1x128.size (cc0_transform_29 i) (hinb0_29 i)).WholeWords (EltTy.packing .f32)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S128x128.size a ≤ S128x128.size a
  hwx0_30 : ∀ i : grid0.Coords, EltTy.bits .bf16 = 32 ∨ (Rect.block (s := S128x128) S128x128.size (cc0_transform_30 i) (hinb0_30 i)).WholeWords (EltTy.packing .bf16)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S1x128.size a ≤ S1x128.size a
  hwx0_31 : ∀ i : grid0.Coords, EltTy.bits .f32 = 32 ∨ (Rect.block (s := S1x128) S1x128.size (cc0_transform_31 i) (hinb0_31 i)).WholeWords (EltTy.packing .f32)
  hstage0_32 : ∀ j, (stage0_32 j).IsWhole
  nbuf0_32 : grid0.bufCount reads0_32 true = 1
  hreads0_32 : ∀ i i' : grid0.Coords, (∀ a, reads0_32 a = true → i a = i' a) → cc0_transform_32 i = cc0_transform_32 i'
  hinb0_32 : ∀ (i : grid0.Coords) a, (cc0_transform_32 i a + 1) * S3x128.size a ≤ S3x128.size a
  hwx0_32 : ∀ i : grid0.Coords, EltTy.bits .f32 = 32 ∨ (Rect.block (s := S3x128) S3x128.size (cc0_transform_32 i) (hinb0_32 i)).WholeWords (EltTy.packing .f32)
  hstage0_33 : ∀ j, (stage0_33 j).IsWhole
  nbuf0_33 : grid0.bufCount reads0_33 true = 1
  hreads0_33 : ∀ i i' : grid0.Coords, (∀ a, reads0_33 a = true → i a = i' a) → cc0_transform_33 i = cc0_transform_33 i'
  hinb0_33 : ∀ (i : grid0.Coords) a, (cc0_transform_33 i a + 1) * S1x3.size a ≤ S1x3.size a
  hwx0_33 : ∀ i : grid0.Coords, EltTy.bits .f32 = 32 ∨ (Rect.block (s := S1x3) S1x3.size (cc0_transform_33 i) (hinb0_33 i)).WholeWords (EltTy.packing .f32)
  hstage0_34 : ∀ j, (stage0_34 j).IsWhole
  nbuf0_34 : grid0.bufCount reads0_34 false = 2
  hreads0_34 : ∀ i i' : grid0.Coords, (∀ a, reads0_34 a = true → i a = i' a) → cc0_transform_34 i = cc0_transform_34 i'
  hinb0_34 : ∀ (i : grid0.Coords) a, (cc0_transform_34 i a + 1) * S2048x4.size a ≤ S262144x4.size a
  hwx0_34 : ∀ i : grid0.Coords, EltTy.bits .f32 = 32 ∨ (Rect.block (s := S262144x4) S2048x4.size (cc0_transform_34 i) (hinb0_34 i)).WholeWords (EltTy.packing .f32)

variable [Facts₀]

def dot_S2048x63_S63x256_S2048x256_1_0_0_1_n_n : DotDims S2048x63 S63x256 S2048x256 where
  lhsContracting := [1]
  rhsContracting := [0]
  lhsNonContracting := [0]
  rhsNonContracting := [1]
  lhsBatch := []
  rhsBatch := []
  wf := dot_S2048x63_S63x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x27_S27x128_S2048x128_1_0_0_1_n_n : DotDims S2048x27 S27x128 S2048x128 where
  lhsContracting := [1]
  rhsContracting := [0]
  lhsNonContracting := [0]
  rhsNonContracting := [1]
  lhsBatch := []
  rhsBatch := []
  wf := dot_S2048x27_S27x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v0) S2048x63.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x27.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S63x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v38) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v39) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v40) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S63x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v41) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v19) S256x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v42) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v21) S256x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v43) S1x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg18) S1x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v44) S1x1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v23) S256x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v45) S1x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v26) S256x128.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v29) S27x128.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v46) S1x128.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v31) S128x128.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v47) S1x128.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v33) S128x128.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v48) S1x128.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_v35) S128x128.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_v49) S1x128.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_arg30) S3x128.size cc0_transform_32 reads0_32 false true 1 stage0_32 sem0_32
    hrank0 hreads0_32 hinb0_32 nbuf0_32 (Memref.isWhole_whole _) hwx0_32 hstage0_32

abbrev win0_33 : Pipeline.Window sig grid0 :=
  Pipeline.Window.ofSpec (Memref.whole main_v50) S1x3.size cc0_transform_33 reads0_33 false true 1 stage0_33 sem0_33
    hrank0 hreads0_33 hinb0_33 nbuf0_33 (Memref.isWhole_whole _) hwx0_33 hstage0_33

abbrev win0_34 : Pipeline.Window sig grid0 :=
  Pipeline.Window.ofSpec (Memref.whole main_v51) S2048x4.size cc0_transform_34 reads0_34 true false 2 stage0_34 sem0_34
    hrank0 hreads0_34 hinb0_34 nbuf0_34 (Memref.isWhole_whole _) hwx0_34 hstage0_34

abbrev win0 : Fin 35 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | ⟨_ + 35, h⟩ => absurd h (Nat.not_lt.2 (Nat.le_add_left _ _))
abbrev spec0 : Fin 35 → Pipeline.WinSpec sig grid0.rank := fun w => (win0 w).toWinSpec

class Facts : Prop extends Facts₀ where

variable [Facts]
-- ==== ReferenceIdeal.lean ====
abbrev S262144x63 : Shape := ⟨2, ![262144, 63]⟩
abbrev S262144x27 : Shape := ⟨2, ![262144, 27]⟩
abbrev S256x63 : Shape := ⟨2, ![256, 63]⟩
abbrev S256 : Shape := ⟨1, ![256]⟩
abbrev S256x256 : Shape := ⟨2, ![256, 256]⟩
abbrev S256x319 : Shape := ⟨2, ![256, 319]⟩
abbrev S1x256 : Shape := ⟨2, ![1, 256]⟩
abbrev S1 : Shape := ⟨1, ![1]⟩
abbrev S128x283 : Shape := ⟨2, ![128, 283]⟩
abbrev S128 : Shape := ⟨1, ![128]⟩
abbrev S128x128 : Shape := ⟨2, ![128, 128]⟩
abbrev S3x128 : Shape := ⟨2, ![3, 128]⟩
abbrev S3 : Shape := ⟨1, ![3]⟩
abbrev S63x256 : Shape := ⟨2, ![63, 256]⟩
abbrev S262144x256 : Shape := ⟨2, ![262144, 256]⟩
abbrev S_ : Shape := ⟨0, ![]⟩
abbrev S262144x319 : Shape := ⟨2, ![262144, 319]⟩
abbrev S319x256 : Shape := ⟨2, ![319, 256]⟩
abbrev S256x1 : Shape := ⟨2, ![256, 1]⟩
abbrev S262144x1 : Shape := ⟨2, ![262144, 1]⟩
abbrev S1x1 : Shape := ⟨2, ![1, 1]⟩
abbrev S262144x283 : Shape := ⟨2, ![262144, 283]⟩
abbrev S283x128 : Shape := ⟨2, ![283, 128]⟩
abbrev S262144x128 : Shape := ⟨2, ![262144, 128]⟩
abbrev S1x128 : Shape := ⟨2, ![1, 128]⟩
abbrev S128x3 : Shape := ⟨2, ![128, 3]⟩
abbrev S262144x3 : Shape := ⟨2, ![262144, 3]⟩
abbrev S1x3 : Shape := ⟨2, ![1, 3]⟩

abbrev nBuf : Space → Nat
  | .hbm => 167
  | .vmem => 0
  | .smem => 0
  | _ => 0

abbrev hbmTy0_0 (i : Nat) : BufTy := match i % 128 with
  | 0 => ⟨S262144x63, .f32⟩
  | 1 => ⟨S262144x27, .f32⟩
  | 2 => ⟨S256x63, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x319, .f32⟩
  | 13 => ⟨S256, .f32⟩
  | 14 => ⟨S256x256, .f32⟩
  | 15 => ⟨S256, .f32⟩
  | 16 => ⟨S256x256, .f32⟩
  | 17 => ⟨S256, .f32⟩
  | 18 => ⟨S1x256, .f32⟩
  | 19 => ⟨S1, .f32⟩
  | 20 => ⟨S256x256, .f32⟩
  | 21 => ⟨S256, .f32⟩
  | 22 => ⟨S128x283, .f32⟩
  | 23 => ⟨S128, .f32⟩
  | 24 => ⟨S128x128, .f32⟩
  | 25 => ⟨S128, .f32⟩
  | 26 => ⟨S128x128, .f32⟩
  | 27 => ⟨S128, .f32⟩
  | 28 => ⟨S128x128, .f32⟩
  | 29 => ⟨S128, .f32⟩
  | 30 => ⟨S3x128, .f32⟩
  | 31 => ⟨S3, .f32⟩
  | 32 => ⟨S63x256, .f32⟩
  | 33 => ⟨S262144x256, .f32⟩
  | 34 => ⟨S1x256, .f32⟩
  | 35 => ⟨S262144x256, .f32⟩
  | 36 => ⟨S262144x256, .f32⟩
  | 37 => ⟨S_, .f32⟩
  | 38 => ⟨S262144x256, .f32⟩
  | 39 => ⟨S262144x256, .f32⟩
  | 40 => ⟨S256x256, .f32⟩
  | 41 => ⟨S262144x256, .f32⟩
  | 42 => ⟨S1x256, .f32⟩
  | 43 => ⟨S262144x256, .f32⟩
  | 44 => ⟨S262144x256, .f32⟩
  | 45 => ⟨S_, .f32⟩
  | 46 => ⟨S262144x256, .f32⟩
  | 47 => ⟨S262144x256, .f32⟩
  | 48 => ⟨S256x256, .f32⟩
  | 49 => ⟨S262144x256, .f32⟩
  | 50 => ⟨S1x256, .f32⟩
  | 51 => ⟨S262144x256, .f32⟩
  | 52 => ⟨S262144x256, .f32⟩
  | 53 => ⟨S_, .f32⟩
  | 54 => ⟨S262144x256, .f32⟩
  | 55 => ⟨S262144x256, .f32⟩
  | 56 => ⟨S256x256, .f32⟩
  | 57 => ⟨S262144x256, .f32⟩
  | 58 => ⟨S1x256, .f32⟩
  | 59 => ⟨S262144x256, .f32⟩
  | 60 => ⟨S262144x256, .f32⟩
  | 61 => ⟨S_, .f32⟩
  | 62 => ⟨S262144x256, .f32⟩
  | 63 => ⟨S262144x256, .f32⟩
  | 64 => ⟨S256x256, .f32⟩
  | 65 => ⟨S262144x256, .f32⟩
  | 66 => ⟨S1x256, .f32⟩
  | 67 => ⟨S262144x256, .f32⟩
  | 68 => ⟨S262144x256, .f32⟩
  | 69 => ⟨S_, .f32⟩
  | 70 => ⟨S262144x256, .f32⟩
  | 71 => ⟨S262144x256, .f32⟩
  | 72 => ⟨S262144x319, .f32⟩
  | 73 => ⟨S319x256, .f32⟩
  | 74 => ⟨S262144x256, .f32⟩
  | 75 => ⟨S1x256, .f32⟩
  | 76 => ⟨S262144x256, .f32⟩
  | 77 => ⟨S262144x256, .f32⟩
  | 78 => ⟨S_, .f32⟩
  | 79 => ⟨S262144x256, .f32⟩
  | 80 => ⟨S262144x256, .f32⟩
  | 81 => ⟨S256x256, .f32⟩
  | 82 => ⟨S262144x256, .f32⟩
  | 83 => ⟨S1x256, .f32⟩
  | 84 => ⟨S262144x256, .f32⟩
  | 85 => ⟨S262144x256, .f32⟩
  | 86 => ⟨S_, .f32⟩
  | 87 => ⟨S262144x256, .f32⟩
  | 88 => ⟨S262144x256, .f32⟩
  | 89 => ⟨S256x256, .f32⟩
  | 90 => ⟨S262144x256, .f32⟩
  | 91 => ⟨S1x256, .f32⟩
  | 92 => ⟨S262144x256, .f32⟩
  | 93 => ⟨S262144x256, .f32⟩
  | 94 => ⟨S_, .f32⟩
  | 95 => ⟨S262144x256, .f32⟩
  | 96 => ⟨S262144x256, .f32⟩
  | 97 => ⟨S256x1, .f32⟩
  | 98 => ⟨S262144x1, .f32⟩
  | 99 => ⟨S1x1, .f32⟩
  | 100 => ⟨S262144x1, .f32⟩
  | 101 => ⟨S262144x1, .f32⟩
  | 102 => ⟨S_, .f32⟩
  | 103 => ⟨S262144x1, .f32⟩
  | 104 => ⟨S262144x1, .f32⟩
  | 105 => ⟨S262144x1, .f32⟩
  | 106 => ⟨S262144x1, .f32⟩
  | 107 => ⟨S262144x1, .i1⟩
  | 108 => ⟨S262144x1, .f32⟩
  | 109 => ⟨S262144x1, .f32⟩
  | 110 => ⟨S262144x1, .f32⟩
  | 111 => ⟨S262144x1, .f32⟩
  | 112 => ⟨S262144x1, .f32⟩
  | 113 => ⟨S262144x1, .f32⟩
  | 114 => ⟨S262144x1, .f32⟩
  | 115 => ⟨S262144x1, .f32⟩
  | 116 => ⟨S256x256, .f32⟩
  | 117 => ⟨S262144x256, .f32⟩
  | 118 => ⟨S1x256, .f32⟩
  | 119 => ⟨S262144x256, .f32⟩
  | 120 => ⟨S262144x256, .f32⟩
  | 121 => ⟨S262144x283, .f32⟩
  | 122 => ⟨S283x128, .f32⟩
  | 123 => ⟨S262144x128, .f32⟩
  | 124 => ⟨S1x128, .f32⟩
  | 125 => ⟨S262144x128, .f32⟩
  | 126 => ⟨S262144x128, .f32⟩
  | 127 => ⟨S_, .f32⟩
  | _ => ⟨S262144x63, .f32⟩

abbrev hbmTy0_1 (i : Nat) : BufTy := match i % 128 with
  | 0 => ⟨S262144x128, .f32⟩
  | 1 => ⟨S262144x128, .f32⟩
  | 2 => ⟨S128x128, .f32⟩
  | 3 => ⟨S262144x128, .f32⟩
  | 4 => ⟨S1x128, .f32⟩
  | 5 => ⟨S262144x128, .f32⟩
  | 6 => ⟨S262144x128, .f32⟩
  | 7 => ⟨S_, .f32⟩
  | 8 => ⟨S262144x128, .f32⟩
  | 9 => ⟨S262144x128, .f32⟩
  | 10 => ⟨S128x128, .f32⟩
  | 11 => ⟨S262144x128, .f32⟩
  | 12 => ⟨S1x128, .f32⟩
  | 13 => ⟨S262144x128, .f32⟩
  | 14 => ⟨S262144x128, .f32⟩
  | 15 => ⟨S_, .f32⟩
  | 16 => ⟨S262144x128, .f32⟩
  | 17 => ⟨S262144x128, .f32⟩
  | 18 => ⟨S128x128, .f32⟩
  | 19 => ⟨S262144x128, .f32⟩
  | 20 => ⟨S1x128, .f32⟩
  | 21 => ⟨S262144x128, .f32⟩
  | 22 => ⟨S262144x128, .f32⟩
  | 23 => ⟨S_, .f32⟩
  | 24 => ⟨S262144x128, .f32⟩
  | 25 => ⟨S262144x128, .f32⟩
  | 26 => ⟨S128x3, .f32⟩
  | 27 => ⟨S262144x3, .f32⟩
  | 28 => ⟨S1x3, .f32⟩
  | 29 => ⟨S262144x3, .f32⟩
  | 30 => ⟨S262144x3, .f32⟩
  | 31 => ⟨S262144x3, .f32⟩
  | 32 => ⟨S262144x3, .f32⟩
  | 33 => ⟨S_, .f32⟩
  | 34 => ⟨S262144x3, .f32⟩
  | 35 => ⟨S262144x3, .f32⟩
  | 36 => ⟨S_, .f32⟩
  | 37 => ⟨S262144x3, .f32⟩
  | 38 => ⟨S262144x3, .f32⟩
  | _ => ⟨S262144x63, .f32⟩

abbrev hbmTy (i : Nat) : BufTy := match i / 128 with
  | 0 => hbmTy0_0 i
  | 1 => hbmTy0_1 i
  | _ => ⟨S262144x63, .f32⟩

abbrev bufTy : (tb : Table) → Fin (tcTables nBuf tb) → BufTy
  | .hbm, ⟨i, _⟩ => hbmTy i
  | _, _ => ⟨S262144x63, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_call0_cst : Ref sig .tc := ⟨.hbm, 37, rfl⟩
abbrev main_call0_v0 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_call1_cst : Ref sig .tc := ⟨.hbm, 45, rfl⟩
abbrev main_call1_v0 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_call2_cst : Ref sig .tc := ⟨.hbm, 53, rfl⟩
abbrev main_call2_v0 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_call3_cst : Ref sig .tc := ⟨.hbm, 61, rfl⟩
abbrev main_call3_v0 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_call4_cst : Ref sig .tc := ⟨.hbm, 69, rfl⟩
abbrev main_call4_v0 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_call5_cst : Ref sig .tc := ⟨.hbm, 78, rfl⟩
abbrev main_call5_v0 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_call6_cst : Ref sig .tc := ⟨.hbm, 86, rfl⟩
abbrev main_call6_v0 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_call7_cst : Ref sig .tc := ⟨.hbm, 94, rfl⟩
abbrev main_call7_v0 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_call8_cst : Ref sig .tc := ⟨.hbm, 102, rfl⟩
abbrev main_call8_v0 : Ref sig .tc := ⟨.hbm, 103, rfl⟩
abbrev main_call8_v1 : Ref sig .tc := ⟨.hbm, 104, rfl⟩
abbrev main_call8_v2 : Ref sig .tc := ⟨.hbm, 105, rfl⟩
abbrev main_call8_v3 : Ref sig .tc := ⟨.hbm, 106, rfl⟩
abbrev main_call8_v4 : Ref sig .tc := ⟨.hbm, 107, rfl⟩
abbrev main_call8_v5 : Ref sig .tc := ⟨.hbm, 108, rfl⟩
abbrev main_call8_v6 : Ref sig .tc := ⟨.hbm, 109, rfl⟩
abbrev main_call8_v7 : Ref sig .tc := ⟨.hbm, 110, rfl⟩
abbrev main_call8_v8 : Ref sig .tc := ⟨.hbm, 111, rfl⟩
abbrev main_call8_v9 : Ref sig .tc := ⟨.hbm, 112, rfl⟩
abbrev main_call8_v10 : Ref sig .tc := ⟨.hbm, 113, rfl⟩
abbrev main_call8_v11 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_call9_cst : Ref sig .tc := ⟨.hbm, 127, rfl⟩
abbrev main_call9_v0 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_call10_cst : Ref sig .tc := ⟨.hbm, 135, rfl⟩
abbrev main_call10_v0 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_call11_cst : Ref sig .tc := ⟨.hbm, 143, rfl⟩
abbrev main_call11_v0 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_call12_cst : Ref sig .tc := ⟨.hbm, 151, rfl⟩
abbrev main_call12_v0 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_cst : Ref sig .tc := ⟨.hbm, 161, rfl⟩
abbrev main_v92 : Ref sig .tc := ⟨.hbm, 162, rfl⟩
abbrev main_v93 : Ref sig .tc := ⟨.hbm, 163, rfl⟩
abbrev main_cst_0 : Ref sig .tc := ⟨.hbm, 164, rfl⟩
abbrev main_v94 : Ref sig .tc := ⟨.hbm, 165, rfl⟩
abbrev main_v95 : Ref sig .tc := ⟨.hbm, 166, rfl⟩

abbrev nD : Nat := 1
abbrev τ : Topo := Topo.v7x

variable {F : FTy → Type} [FloatOps F]

class Facts₀ : Prop where
  transposes_S256x63_S63x256_1_0 : S256x63.Transposes [1, 0] S63x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  transposes_S256x256_S256x256_1_0 : S256x256.Transposes [1, 0] S256x256
  concatenates_S262144x256_S262144x63_S262144x319_d1 : Shape.Concatenates [S262144x256, S262144x63] S262144x319 1
  transposes_S256x319_S319x256_1_0 : S256x319.Transposes [1, 0] S319x256
  transposes_S1x256_S256x1_1_0 : S1x256.Transposes [1, 0] S256x1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  bcast_S_S262144x1 : S_.BroadcastsInDim S262144x1 (![] : Fin 0 → Fin S262144x1.rank)
  concatenates_S262144x256_S262144x27_S262144x283_d1 : Shape.Concatenates [S262144x256, S262144x27] S262144x283 1
  transposes_S128x283_S283x128_1_0 : S128x283.Transposes [1, 0] S283x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  transposes_S128x128_S128x128_1_0 : S128x128.Transposes [1, 0] S128x128
  transposes_S3x128_S128x3_1_0 : S3x128.Transposes [1, 0] S128x3
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  bcast_S_S262144x3 : S_.BroadcastsInDim S262144x3 (![] : Fin 0 → Fin S262144x3.rank)
  dot_S262144x63_S63x256_S262144x256_1_0_0_1_n_n_wf : DotDims.WF S262144x63 S63x256 S262144x256 [1] [0] [0] [1] [] []
  dot_S262144x256_S256x256_S262144x256_1_0_0_1_n_n_wf : DotDims.WF S262144x256 S256x256 S262144x256 [1] [0] [0] [1] [] []
  dot_S262144x319_S319x256_S262144x256_1_0_0_1_n_n_wf : DotDims.WF S262144x319 S319x256 S262144x256 [1] [0] [0] [1] [] []
  dot_S262144x256_S256x1_S262144x1_1_0_0_1_n_n_wf : DotDims.WF S262144x256 S256x1 S262144x1 [1] [0] [0] [1] [] []
  dot_S262144x283_S283x128_S262144x128_1_0_0_1_n_n_wf : DotDims.WF S262144x283 S283x128 S262144x128 [1] [0] [0] [1] [] []
  dot_S262144x128_S128x128_S262144x128_1_0_0_1_n_n_wf : DotDims.WF S262144x128 S128x128 S262144x128 [1] [0] [0] [1] [] []
  dot_S262144x128_S128x3_S262144x3_1_0_0_1_n_n_wf : DotDims.WF S262144x128 S128x3 S262144x3 [1] [0] [0] [1] [] []

variable [Facts₀]

def dot_S262144x63_S63x256_S262144x256_1_0_0_1_n_n : DotDims S262144x63 S63x256 S262144x256 where
  lhsContracting := [1]
  rhsContracting := [0]
  lhsNonContracting := [0]
  rhsNonContracting := [1]
  lhsBatch := []
  rhsBatch := []
  wf := dot_S262144x63_S63x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x319_S319x256_S262144x256_1_0_0_1_n_n : DotDims S262144x319 S319x256 S262144x256 where
  lhsContracting := [1]
  rhsContracting := [0]
  lhsNonContracting := [0]
  rhsNonContracting := [1]
  lhsBatch := []
  rhsBatch := []
  wf := dot_S262144x319_S319x256_S262144x256_1_0_0_1_n_n_wf
def dot_S262144x256_S256x1_S262144x1_1_0_0_1_n_n : DotDims S262144x256 S256x1 S262144x1 where
  lhsContracting := [1]
  rhsContracting := [0]
  lhsNonContracting := [0]
  rhsNonContracting := [1]
  lhsBatch := []
  rhsBatch := []
  wf := dot_S262144x256_S256x1_S262144x1_1_0_0_1_n_n_wf
def dot_S262144x283_S283x128_S262144x128_1_0_0_1_n_n : DotDims S262144x283 S283x128 S262144x128 where
  lhsContracting := [1]
  rhsContracting := [0]
  lhsNonContracting := [0]
  rhsNonContracting := [1]
  lhsBatch := []
  rhsBatch := []
  wf := dot_S262144x283_S283x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x3_S262144x3_1_0_0_1_n_n : DotDims S262144x128 S128x3 S262144x3 where
  lhsContracting := [1]
  rhsContracting := [0]
  lhsNonContracting := [0]
  rhsNonContracting := [1]
  lhsBatch := []
  rhsBatch := []
  wf := dot_S262144x128_S128x3_S262144x3_1_0_0_1_n_n_wf

class Facts : Prop extends Facts₀ where

variable [Facts]
-- ==== Proof.KMat.lean ====
/-
  The kernel body's matrix products read at an index. At the exact values a `tpu.matmul` into a zero accumulator is,
  at output row `p` and column `n`, the sum over the contracted coordinate `k` of the left operand at `(p, k)` times
  the right operand at `(k, n)`: one lemma per pair of operand shapes the body multiplies. After them the small reads the layers need: a bias or weight row
  broadcast down the rows, a lane sum kept as a column, the pointwise transcendental operations. The contracted index of the
  dimension record is carried to `Fin K` by the bijection of a one-axis contraction, and the two operand indices are
  identified coordinate by coordinate.
-/
import proofs.«102540_j48447231098895_2_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

noncomputable section

namespace Cert.KNet

open Cert.KernelIdeal Cert.KernelIdeal.Gen Idealize.ShloMosaic Idealize.ShloMosaic.ValueIdx

/-- The [2048, 63] × [63, 256] product into a zero accumulator, at row `p` and column `n`: `∑ k, l (p, k) · r (k, n)`. -/
theorem mm_63_256 {φ₁ φ₂ : FTy} (l : FVec Ideal S2048x63 φ₁) (r : FVec Ideal S63x256 φ₂) (p : Fin 2048) (n : Fin 256) :
    matmul dot_S2048x63_S63x256_S2048x256_1_0_0_1_n_n none l r (constant S2048x256 .f32 0x00000000#32) (ix2 p n)
      = ∑ k : Fin 63, l (ix2 p k) * r (ix2 k n) := by
  simp only [matmul]
  rw [Ideal.matmul_constant_zero_apply, ← Equiv.sum_comp (contrEquiv1 dot_S2048x63_S63x256_S2048x256_1_0_0_1_n_n 63 rfl rfl).symm]
  refine Finset.sum_congr rfl fun k _ => ?_
  have hk := contrEquiv1_symm_val dot_S2048x63_S63x256_S2048x256_1_0_0_1_n_n 63 rfl rfl k
  have el : dot_S2048x63_S63x256_S2048x256_1_0_0_1_n_n.lhsIdx (ix2 p n) ((contrEquiv1 dot_S2048x63_S63x256_S2048x256_1_0_0_1_n_n 63 rfl rfl).symm k) = ix2 p k := funext fun a => Fin.ext (by
    match a with
    | ⟨0, _⟩ =>
      show (dot_S2048x63_S63x256_S2048x256_1_0_0_1_n_n.lhsIdx (ix2 p n) _ 0).val = p.val
      unfold DotDims.lhsIdx
      rw [dif_neg (show ¬(0 : Fin S2048x63.rank) ∈ dot_S2048x63_S63x256_S2048x256_1_0_0_1_n_n.lhsBatch by decide), dif_pos (show (0 : Fin S2048x63.rank) ∈ dot_S2048x63_S63x256_S2048x256_1_0_0_1_n_n.lhsNonContracting by decide)]
      rfl
    | ⟨1, _⟩ => exact (dot_S2048x63_S63x256_S2048x256_1_0_0_1_n_n.lhsIdx_val_of_single rfl (ix2 p n) _).trans hk)
  have er : dot_S2048x63_S63x256_S2048x256_1_0_0_1_n_n.rhsIdx (ix2 p n) ((contrEquiv1 dot_S2048x63_S63x256_S2048x256_1_0_0_1_n_n 63 rfl rfl).symm k) = ix2 k n := funext fun a => Fin.ext (by
    match a with
    | ⟨0, _⟩ => exact (dot_S2048x63_S63x256_S2048x256_1_0_0_1_n_n.rhsIdx_val_of_single rfl (ix2 p n) _).trans hk
    | ⟨1, _⟩ =>
      show (dot_S2048x63_S63x256_S2048x256_1_0_0_1_n_n.rhsIdx (ix2 p n) _ 1).val = n.val
      unfold DotDims.rhsIdx
      rw [dif_neg (show ¬(1 : Fin S63x256.rank) ∈ dot_S2048x63_S63x256_S2048x256_1_0_0_1_n_n.rhsBatch by decide), dif_pos (show (1 : Fin S63x256.rank) ∈ dot_S2048x63_S63x256_S2048x256_1_0_0_1_n_n.rhsNonContracting by decide)]
      rfl)
  rw [el, er]

/-- The [2048, 256] × [256, 256] product into a zero accumulator, at row `p` and column `n`: `∑ k, l (p, k) · r (k, n)`. -/
theorem mm_256_256 {φ₁ φ₂ : FTy} (l : FVec Ideal S2048x256 φ₁) (r : FVec Ideal S256x256 φ₂) (p : Fin 2048) (n : Fin 256) :
    matmul dot_S2048x256_S256x256_S2048x256_1_0_0_1_n_n none l r (constant S2048x256 .f32 0x00000000#32) (ix2 p n)
      = ∑ k : Fin 256, l (ix2 p k) * r (ix2 k n) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p n) ((contrEquiv1 dot_S2048x256_S256x256_S2048x256_1_0_0_1_n_n 256 rfl rfl).symm k) = ix2 p k := funext fun a => Fin.ext (by
    match a with
    | ⟨0, _⟩ =>
      show (dot_S2048x256_S256x256_S2048x256_1_0_0_1_n_n.lhsIdx (ix2 p n) _ 0).val = p.val
      unfold DotDims.lhsIdx
      rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
      rfl
    | ⟨1, _⟩ => exact (dot_S2048x256_S256x256_S2048x256_1_0_0_1_n_n.lhsIdx_val_of_single rfl (ix2 p n) _).trans hk)
  have er : dot_S2048x256_S256x256_S2048x256_1_0_0_1_n_n.rhsIdx (ix2 p n) ((contrEquiv1 dot_S2048x256_S256x256_S2048x256_1_0_0_1_n_n 256 rfl rfl).symm k) = ix2 k n := funext fun a => Fin.ext (by
    match a with
    | ⟨0, _⟩ => exact (dot_S2048x256_S256x256_S2048x256_1_0_0_1_n_n.rhsIdx_val_of_single rfl (ix2 p n) _).trans hk
    | ⟨1, _⟩ =>
      show (dot_S2048x256_S256x256_S2048x256_1_0_0_1_n_n.rhsIdx (ix2 p n) _ 1).val = n.val
      unfold DotDims.rhsIdx
      rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
      rfl)
  rw [el, er]

/-- The [2048, 256] × [256, 128] product into a zero accumulator, at row `p` and column `n`: `∑ k, l (p, k) · r (k, n)`. -/
theorem mm_256_128 {φ₁ φ₂ : FTy} (l : FVec Ideal S2048x256 φ₁) (r : FVec Ideal S256x128 φ₂) (p : Fin 2048) (n : Fin 128) :
    matmul dot_S2048x256_S256x128_S2048x128_1_0_0_1_n_n none l r (constant S2048x128 .f32 0x00000000#32) (ix2 p n)
      = ∑ k : Fin 256, l (ix2 p k) * r (ix2 k n) := by
  simp only [matmul]
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 p n) ((contrEquiv1 dot_S2048x256_S256x128_S2048x128_1_0_0_1_n_n 256 rfl rfl).symm k) = ix2 p k := funext fun a => Fin.ext (by
    match a with
    | ⟨0, _⟩ =>
      show (dot_S2048x256_S256x128_S2048x128_1_0_0_1_n_n.lhsIdx (ix2 p n) _ 0).val = p.val
      unfold DotDims.lhsIdx
      rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
      rfl
    | ⟨1, _⟩ => exact (dot_S2048x256_S256x128_S2048x128_1_0_0_1_n_n.lhsIdx_val_of_single rfl (ix2 p n) _).trans hk)
  have er : dot_S2048x256_S256x128_S2048x128_1_0_0_1_n_n.rhsIdx (ix2 p n) ((contrEquiv1 dot_S2048x256_S256x128_S2048x128_1_0_0_1_n_n 256 rfl rfl).symm k) = ix2 k n := funext fun a => Fin.ext (by
    match a with
    | ⟨0, _⟩ => exact (dot_S2048x256_S256x128_S2048x128_1_0_0_1_n_n.rhsIdx_val_of_single rfl (ix2 p n) _).trans hk
    | ⟨1, _⟩ =>
      show (dot_S2048x256_S256x128_S2048x128_1_0_0_1_n_n.rhsIdx (ix2 p n) _ 1).val = n.val
      unfold DotDims.rhsIdx
      rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
      rfl)
  rw [el, er]

/-- The [2048, 27] × [27, 128] product into a zero accumulator, at row `p` and column `n`: `∑ k, l (p, k) · r (k, n)`. -/
theorem mm_27_128 {φ₁ φ₂ : FTy} (l : FVec Ideal S2048x27 φ₁) (r : FVec Ideal S27x128 φ₂) (p : Fin 2048) (n : Fin 128) :
    matmul dot_S2048x27_S27x128_S2048x128_1_0_0_1_n_n none l r (constant S2048x128 .f32 0x00000000#32) (ix2 p n)
      = ∑ k : Fin 27, l (ix2 p k) * r (ix2 k n) := by
  simp only [matmul]
  rw [Ideal.matmul_constant_zero_apply, ← Equiv.sum_comp (contrEquiv1 dot_S2048x27_S27x128_S2048x128_1_0_0_1_n_n 27 rfl rfl).symm]
  refine Finset.sum_congr rfl fun k _ => ?_
  have hk := contrEquiv1_symm_val dot_S2048x27_S27x128_S2048x128_1_0_0_1_n_n 27 rfl rfl k
  have el : dot_S2048x27_S27x128_S2048x128_1_0_0_1_n_n.lhsIdx (ix2 p n) ((contrEquiv1 dot_S2048x27_S27x128_S2048x128_1_0_0_1_n_n 27 rfl rfl).symm k) = ix2 p k := funext fun a => Fin.ext (by
    match a with
    | ⟨0, _⟩ =>
      show (dot_S2048x27_S27x128_S2048x128_1_0_0_1_n_n.lhsIdx (ix2 p n) _ 0).val = p.val
      unfold DotDims.lhsIdx
      rw [dif_neg (show ¬(0 : Fin S2048x27.rank) ∈ dot_S2048x27_S27x128_S2048x128_1_0_0_1_n_n.lhsBatch by decide), dif_pos (show (0 : Fin S2048x27.rank) ∈ dot_S2048x27_S27x128_S2048x128_1_0_0_1_n_n.lhsNonContracting by decide)]
      rfl
    | ⟨1, _⟩ => exact (dot_S2048x27_S27x128_S2048x128_1_0_0_1_n_n.lhsIdx_val_of_single rfl (ix2 p n) _).trans hk)
  have er : dot_S2048x27_S27x128_S2048x128_1_0_0_1_n_n.rhsIdx (ix2 p n) ((contrEquiv1 dot_S2048x27_S27x128_S2048x128_1_0_0_1_n_n 27 rfl rfl).symm k) = ix2 k n := funext fun a => Fin.ext (by
    match a with
    | ⟨0, _⟩ => exact (dot_S2048x27_S27x128_S2048x128_1_0_0_1_n_n.rhsIdx_val_of_single rfl (ix2 p n) _).trans hk
    | ⟨1, _⟩ =>
      show (dot_S2048x27_S27x128_S2048x128_1_0_0_1_n_n.rhsIdx (ix2 p n) _ 1).val = n.val
      unfold DotDims.rhsIdx
      rw [dif_neg (show ¬(1 : Fin S27x128.rank) ∈ dot_S2048x27_S27x128_S2048x128_1_0_0_1_n_n.rhsBatch by decide), dif_pos (show (1 : Fin S27x128.rank) ∈ dot_S2048x27_S27x128_S2048x128_1_0_0_1_n_n.rhsNonContracting by decide)]
      rfl)
  rw [el, er]

/-- The [2048, 128] × [128, 128] product into a zero accumulator, at row `p` and column `n`: `∑ k, l (p, k) · r (k, n)`. -/
theorem mm_128_128 {φ₁ φ₂ : FTy} (l : FVec Ideal S2048x128 φ₁) (r : FVec Ideal S128x128 φ₂) (p : Fin 2048) (n : Fin 128) :
    matmul dot_S2048x128_S128x128_S2048x128_1_0_0_1_n_n none l r (constant S2048x128 .f32 0x00000000#32) (ix2 p n)
      = ∑ k : Fin 128, l (ix2 p k) * r (ix2 k n) := by
  simp only [matmul]
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p n) ((contrEquiv1 dot_S2048x128_S128x128_S2048x128_1_0_0_1_n_n 128 rfl rfl).symm k) = ix2 p k := funext fun a => Fin.ext (by
    match a with
    | ⟨0, _⟩ =>
      show (dot_S2048x128_S128x128_S2048x128_1_0_0_1_n_n.lhsIdx (ix2 p n) _ 0).val = p.val
      unfold DotDims.lhsIdx
      rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
      rfl
    | ⟨1, _⟩ => exact (dot_S2048x128_S128x128_S2048x128_1_0_0_1_n_n.lhsIdx_val_of_single rfl (ix2 p n) _).trans hk)
  have er : dot_S2048x128_S128x128_S2048x128_1_0_0_1_n_n.rhsIdx (ix2 p n) ((contrEquiv1 dot_S2048x128_S128x128_S2048x128_1_0_0_1_n_n 128 rfl rfl).symm k) = ix2 k n := funext fun a => Fin.ext (by
    match a with
    | ⟨0, _⟩ => exact (dot_S2048x128_S128x128_S2048x128_1_0_0_1_n_n.rhsIdx_val_of_single rfl (ix2 p n) _).trans hk
    | ⟨1, _⟩ =>
      show (dot_S2048x128_S128x128_S2048x128_1_0_0_1_n_n.rhsIdx (ix2 p n) _ 1).val = n.val
      unfold DotDims.rhsIdx
      rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
      rfl)
  rw [el, er]

/-! ## The small reads around the products -/

/-- A bias row `[1, N]` (cast to its own shape) broadcast over the 2048 rows reads, at `(p, n)`, the bias at `n`. -/
theorem bias_apply {N : ℕ} (b : (⟨2, ![1, N]⟩ : Shape).Idx → Ideal .f32)
    (sc : (⟨2, ![1, N]⟩ : Shape).ShapeCasts ⟨2, ![1, N]⟩) (bc : (⟨2, ![1, N]⟩ : Shape).Broadcasts ⟨2, ![2048, N]⟩)
    (p : Fin 2048) (n : Fin N) :
    broadcastTo ⟨2, ![2048, N]⟩ (shapeCast ⟨2, ![1, N]⟩ b sc) bc (ix2 p n) = b (ix2 (0 : Fin 1) n) := by
  rw [broadcastTo_1b_ab_apply, shapeCast_self]

/-- A weight row `[1, K]` broadcast over the 2048 rows reads, at `(p, k)`, the weight at `k`. -/
theorem wrow_apply {K : ℕ} (w : (⟨2, ![1, K]⟩ : Shape).Idx → Ideal .f32) (bc : (⟨2, ![1, K]⟩ : Shape).Broadcasts ⟨2, ![2048, K]⟩)
    (p : Fin 2048) (k : Fin K) : broadcastTo ⟨2, ![2048, K]⟩ w bc (ix2 p k) = w (ix2 (0 : Fin 1) k) :=
  broadcastTo_1b_ab_apply w bc p k

/-- Entry `j` of the `[1, 3]` colour bias, cut out as a `[1, 1]` piece at column offset `o = j` and broadcast down the rows. -/
theorem bslice_apply (b : (⟨2, ![1, 3]⟩ : Shape).Idx → Ideal .f32) (o : ℕ)
    (sl : (⟨2, ![1, 3]⟩ : Shape).Slices ![0, o] ⟨2, ![1, 1]⟩) (bc : (⟨2, ![1, 1]⟩ : Shape).Broadcasts ⟨2, ![2048, 1]⟩)
    (p : Fin 2048) (u : Fin 1) (j : Fin 3) (hj : j.val = o) :
    broadcastTo ⟨2, ![2048, 1]⟩ (extractStridedSlice ⟨2, ![1, 1]⟩ ![0, o] b sl) bc (ix2 p u) = b (ix2 (0 : Fin 1) j) := by
  rw [broadcastTo_1b_ab_apply]
  exact slice2_axis1_apply o b sl (0 : Fin 1) u j (by omega)

/-- The float zero the body splats is the extended real 0. -/
theorem scalar_zero : (Scalar.ofBits .f32 0x00000000#32 : Ideal .f32) = 0 := Ideal.ofBits_zero_f32

/-- A lane sum of a `[2048, K]` vector, kept as a column `[2048, 1]`, reads at row `p` the sum of that row. -/
theorem head_apply {K : ℕ} (v : FVec Ideal ⟨2, ![2048, K]⟩ .f32) (red : (⟨2, ![2048, K]⟩ : Shape).Reduces [1] ⟨1, ![2048]⟩)
    (hφ : FTy.f32 = FTy.f32 ∨ FTy.f32 = FTy.bf16) (hacc : (0x00000000#32 : BitVec FTy.f32.bits) = 0x00000000#32)
    (sc : (⟨1, ![2048]⟩ : Shape).ShapeCasts ⟨2, ![2048, 1]⟩) (p : Fin 2048) (u : Fin 1) :
    shapeCast ⟨2, ![2048, 1]⟩ (multiReduction .add [1] ⟨1, ![2048]⟩ v 0x00000000#32 red hφ hacc) sc (ix2 p u)
      = ∑ k : Fin K, v (ix2 p k) := by
  refine (shapeCast_apply _ sc (ix2 p u) (ix1 p) (by
    have hu : u.val = 0 := by omega
    rw [Shape.rowMajor_val_two, Shape.rowMajor_val_one]
    show p.val = p.val * 1 + u.val
    omega)).trans ?_
  refine (Ideal.multiReduction_add_single v 0x00000000#32 red hφ hacc (ix1 p)).trans ?_
  refine Finset.sum_congr rfl fun k _ => congrArg v (funext fun a => Fin.ext ?_)
  match a with
  | ⟨0, _⟩ => rfl
  | ⟨1, _⟩ => rfl

/-- The elementwise transcendental operations of a vector, at an index. -/
theorem logistic_apply {s : Shape} {φ : FTy} (a : FVec Ideal s φ) (i : s.Idx) : logistic a i = Ideal.logistic (a i) := rfl
theorem exp_apply {s : Shape} {φ : FTy} (a : FVec Ideal s φ) (i : s.Idx) : exp a i = Ideal.exp (a i) := rfl
theorem log1p_apply {s : Shape} {φ : FTy} (a : FVec Ideal s φ) (i : s.Idx) : log1p a i = Ideal.log1p (a i) := rfl
theorem absf_apply {s : Shape} {φ : FTy} (a : FVec Ideal s φ) (i : s.Idx) : absf a i = max (a i) (-(a i)) := rfl

/-- The not-a-number test `a ≠ a` is never true of an extended real. -/
theorem cmp_one_self {φ : FTy} (a : Ideal φ) : FloatOps.cmpf .one a a = 0#1 := by
  show BitVec.ofBool (decide (a ≠ a)) = 0#1
  simp

end Cert.KNet

end
-- ==== Proof.Net.lean ====
/-
  The network both programs compute, one ROW at a time, on the extended reals.

  A row of the position encoding `x : Fin 63 → EReal` goes through eight dense layers with a rectifier (the sixth
  also reads `x` again: its weight matrix has 256 + 63 columns), giving the 256 features `h7`. The density is the
  softplus of one more dot product with them. The colour branch maps `h7` through a dense layer with no rectifier,
  joins the direction encoding `d : Fin 27 → EReal` (a weight matrix of 256 + 27 columns), three more rectified
  layers of width 128, and the logistic function of three dot products.

  Weights are read through accessors (`Acc`): `w k n` is the weight from input feature `k` to output feature `n`.
  A layer over a joined input is the sum of two partial products (`aff2`); that this is the one product over the
  joined axis is `sum_split_319` / `sum_split_283`: a finite sum over `Fin (a + b)` is the sum over the first `a`
  indices plus the sum over the last `b` (no finiteness of the summands is needed: addition of extended reals is
  commutative and associative).
-/
import Idealize.ShloMosaic.PureOps.Ideal
import Idealize.ShloMosaic.PureOps.Ideal.Laws
import Idealize.ShloMosaic.Lib.ValueIdx

noncomputable section

namespace Cert.Net

open Idealize.ShloMosaic

/-- An affine map of a row: `(∑ k, h k · w k n) + b n`. -/
def aff {K N : ℕ} (w : Fin K → Fin N → EReal) (b : Fin N → EReal) (h : Fin K → EReal) : Fin N → EReal :=
  fun n => (∑ k : Fin K, h k * w k n) + b n

/-- An affine map of two rows side by side: the two partial products, added, plus the bias. -/
def aff2 {K₁ K₂ N : ℕ} (w₁ : Fin K₁ → Fin N → EReal) (w₂ : Fin K₂ → Fin N → EReal) (b : Fin N → EReal)
    (h₁ : Fin K₁ → EReal) (h₂ : Fin K₂ → EReal) : Fin N → EReal :=
  fun n => ((∑ k : Fin K₁, h₁ k * w₁ k n) + (∑ k : Fin K₂, h₂ k * w₂ k n)) + b n

/-- The rectifier, feature by feature. -/
def relu {N : ℕ} (v : Fin N → EReal) : Fin N → EReal := fun n => max (v n) 0

/-- One output feature: a dot product plus a bias. -/
def dotb {K : ℕ} (w : Fin K → EReal) (b : EReal) (h : Fin K → EReal) : EReal := (∑ k : Fin K, h k * w k) + b

/-- `log (1 + e^z)` in its overflow-free form `max z 0 + log1p (e^(-|z|))`, with `|z| = max z (-z)`. -/
def softplus (z : EReal) : EReal := max z 0 + Ideal.log1p (Ideal.exp (-(max z (-z))))

/-- The weights, each read as `w (input feature) (output feature)`. -/
structure Acc where
  w0 : Fin 63 → Fin 256 → EReal
  b0 : Fin 256 → EReal
  w1 : Fin 256 → Fin 256 → EReal
  b1 : Fin 256 → EReal
  w2 : Fin 256 → Fin 256 → EReal
  b2 : Fin 256 → EReal
  w3 : Fin 256 → Fin 256 → EReal
  b3 : Fin 256 → EReal
  w4 : Fin 256 → Fin 256 → EReal
  b4 : Fin 256 → EReal
  w5a : Fin 256 → Fin 256 → EReal
  w5b : Fin 63 → Fin 256 → EReal
  b5 : Fin 256 → EReal
  w6 : Fin 256 → Fin 256 → EReal
  b6 : Fin 256 → EReal
  w7 : Fin 256 → Fin 256 → EReal
  b7 : Fin 256 → EReal
  wsig : Fin 256 → EReal
  bsig : EReal
  w8 : Fin 256 → Fin 256 → EReal
  b8 : Fin 256 → EReal
  w9a : Fin 256 → Fin 128 → EReal
  w9b : Fin 27 → Fin 128 → EReal
  b9 : Fin 128 → EReal
  w10 : Fin 128 → Fin 128 → EReal
  b10 : Fin 128 → EReal
  w11 : Fin 128 → Fin 128 → EReal
  b11 : Fin 128 → EReal
  w12 : Fin 128 → Fin 128 → EReal
  b12 : Fin 128 → EReal
  wrgb : Fin 3 → Fin 128 → EReal
  brgb : Fin 3 → EReal

variable (A : Acc)

def h0 (x : Fin 63 → EReal) : Fin 256 → EReal := relu (aff A.w0 A.b0 x)
def h1 (x : Fin 63 → EReal) : Fin 256 → EReal := relu (aff A.w1 A.b1 (h0 A x))
def h2 (x : Fin 63 → EReal) : Fin 256 → EReal := relu (aff A.w2 A.b2 (h1 A x))
def h3 (x : Fin 63 → EReal) : Fin 256 → EReal := relu (aff A.w3 A.b3 (h2 A x))
def h4 (x : Fin 63 → EReal) : Fin 256 → EReal := relu (aff A.w4 A.b4 (h3 A x))
def h5 (x : Fin 63 → EReal) : Fin 256 → EReal := relu (aff2 A.w5a A.w5b A.b5 (h4 A x) x)
def h6 (x : Fin 63 → EReal) : Fin 256 → EReal := relu (aff A.w6 A.b6 (h5 A x))
def h7 (x : Fin 63 → EReal) : Fin 256 → EReal := relu (aff A.w7 A.b7 (h6 A x))
/-- The density of a row. -/
def sig (x : Fin 63 → EReal) : EReal := softplus (dotb A.wsig A.bsig (h7 A x))
def h8 (x : Fin 63 → EReal) : Fin 256 → EReal := aff A.w8 A.b8 (h7 A x)
def h9 (x : Fin 63 → EReal) (d : Fin 27 → EReal) : Fin 128 → EReal := relu (aff2 A.w9a A.w9b A.b9 (h8 A x) d)
def h10 (x : Fin 63 → EReal) (d : Fin 27 → EReal) : Fin 128 → EReal := relu (aff A.w10 A.b10 (h9 A x d))
def h11 (x : Fin 63 → EReal) (d : Fin 27 → EReal) : Fin 128 → EReal := relu (aff A.w11 A.b11 (h10 A x d))
def h12 (x : Fin 63 → EReal) (d : Fin 27 → EReal) : Fin 128 → EReal := relu (aff A.w12 A.b12 (h11 A x d))
/-- Colour channel `j` of a row. -/
def rgb (x : Fin 63 → EReal) (d : Fin 27 → EReal) (j : Fin 3) : EReal :=
  Ideal.logistic (dotb (A.wrgb j) (A.brgb j) (h12 A x d))

/-- A sum over 319 = 256 + 63 indices is the sum over the first 256 plus the sum over the last 63. -/
theorem sum_split_319 (g : Fin 319 → EReal) :
    ∑ k : Fin 319, g k = (∑ k : Fin 256, g ⟨k.val, by omega⟩) + ∑ k : Fin 63, g ⟨256 + k.val, by omega⟩ :=
  Fin.sum_univ_add (a := 256) (b := 63) g

/-- A sum over 283 = 256 + 27 indices is the sum over the first 256 plus the sum over the last 27. -/
theorem sum_split_283 (g : Fin 283 → EReal) :
    ∑ k : Fin 283, g k = (∑ k : Fin 256, g ⟨k.val, by omega⟩) + ∑ k : Fin 27, g ⟨256 + k.val, by omega⟩ :=
  Fin.sum_univ_add (a := 256) (b := 27) g

/-! ## The accessors of the argument arrays -/

/-- A rank-2 array of extended reals. -/
abbrev Mat (a b : ℕ) := (⟨2, ![a, b]⟩ : Shape).Idx → EReal
/-- A rank-1 array of extended reals. -/
abbrev Vc (a : ℕ) := (⟨1, ![a]⟩ : Shape).Idx → EReal

/-- A weight matrix stored `[out, in]`, read as `w (in) (out)`. -/
def wT {N K : ℕ} (W : Mat N K) : Fin K → Fin N → EReal := fun k n => W (ValueIdx.ix2 n k)
/-- A bias vector read feature by feature. -/
def bV {N : ℕ} (b : Vc N) : Fin N → EReal := fun n => b (ValueIdx.ix1 n)

/-- The weights of the argument arrays `W0, b0, …, Wrgb, brgb` (each `W` stored `[out, in]`): the two joined layers
    read the first 256 input columns of their matrix for the features and the remaining ones for the encoding. -/
def accOf (W0 : Mat 256 63) (b0 : Vc 256) (W1 : Mat 256 256) (b1 : Vc 256) (W2 : Mat 256 256) (b2 : Vc 256)
    (W3 : Mat 256 256) (b3 : Vc 256) (W4 : Mat 256 256) (b4 : Vc 256) (W5 : Mat 256 319) (b5 : Vc 256)
    (W6 : Mat 256 256) (b6 : Vc 256) (W7 : Mat 256 256) (b7 : Vc 256) (Wsig : Mat 1 256) (bsig : Vc 1)
    (W8 : Mat 256 256) (b8 : Vc 256) (W9 : Mat 128 283) (b9 : Vc 128) (W10 : Mat 128 128) (b10 : Vc 128)
    (W11 : Mat 128 128) (b11 : Vc 128) (W12 : Mat 128 128) (b12 : Vc 128) (Wrgb : Mat 3 128) (brgb : Vc 3) : Acc where
  w0 := wT W0
  b0 := bV b0
  w1 := wT W1
  b1 := bV b1
  w2 := wT W2
  b2 := bV b2
  w3 := wT W3
  b3 := bV b3
  w4 := wT W4
  b4 := bV b4
  w5a := fun k n => W5 (ValueIdx.ix2 n (⟨k.val, by omega⟩ : Fin 319))
  w5b := fun k n => W5 (ValueIdx.ix2 n (⟨256 + k.val, by omega⟩ : Fin 319))
  b5 := bV b5
  w6 := wT W6
  b6 := bV b6
  w7 := wT W7
  b7 := bV b7
  wsig := fun k => Wsig (ValueIdx.ix2 (0 : Fin 1) k)
  bsig := bsig (ValueIdx.ix1 (0 : Fin 1))
  w8 := wT W8
  b8 := bV b8
  w9a := fun k n => W9 (ValueIdx.ix2 n (⟨k.val, by omega⟩ : Fin 283))
  w9b := fun k n => W9 (ValueIdx.ix2 n (⟨256 + k.val, by omega⟩ : Fin 283))
  b9 := bV b9
  w10 := wT W10
  b10 := bV b10
  w11 := wT W11
  b11 := bV b11
  w12 := wT W12
  b12 := bV b12
  wrgb := fun j k => Wrgb (ValueIdx.ix2 j k)
  brgb := fun j => brgb (ValueIdx.ix1 j)

/-- Row `r` of a rank-2 array. -/
def row {B K : ℕ} (X : Mat B K) (r : Fin B) : Fin K → EReal := fun k => X (ValueIdx.ix2 r k)

end Cert.Net

end
-- ==== Proof.KPay.lean ====
/-
  The kernel body's stored values, one ROW of a block at a time, are the network of `Net`.

  The body is cut into named stages (the generated payloads). Each lemma below reads one stage at row `p` of the
  2048-row block: a stage that ends in a matrix product gives `∑ k, h k · w k n` with `h` the features the network
  has reached, a stage that ends in a rectifier gives those features. The weights enter through hypotheses that say
  what each loaded weight block holds at an index (`hW…`, `hb…`), the row of the encodings through `hx`, `hd`.
  Every proof is the same: unfold the stage, read each vector operation at the index (the products by `mm_…`, the
  biases by `bias_apply`, the lane sums by `head_apply`; a change of float format is the identity), and what is left
  is the network's definition.
-/
import proofs.«102540_j48447231098895_2_alg».proof.Proof.Gen.KernelIdeal.Skeleton
import proofs.«102540_j48447231098895_2_alg».proof.Proof.KMat
import proofs.«102540_j48447231098895_2_alg».proof.Proof.Net

set_option maxHeartbeats 1000000

noncomputable section

namespace Cert.KNet

open Cert.KernelIdeal Cert.KernelIdeal.Gen Idealize.ShloMosaic Idealize.ShloMosaic.ValueIdx

variable (A : Net.Acc) (xr : Fin 63 → EReal) (dr : Fin 27 → EReal) (p : Fin 2048)

/-- Layers 0–2 and the product of layer 3. -/
theorem pay2_row (x : Vec Ideal S2048x63 .bf16) (W0 : Vec Ideal S63x256 .bf16) (b0 : Vec Ideal S1x256 .f32)
    (W1 : Vec Ideal S256x256 .bf16) (b1 : Vec Ideal S1x256 .f32) (W2 : Vec Ideal S256x256 .bf16) (b2 : Vec Ideal S1x256 .f32)
    (W3 : Vec Ideal S256x256 .bf16)
    (hx : ∀ k, x (ix2 p k) = xr k)
    (hW0 : ∀ k n, W0 (ix2 k n) = A.w0 k n) (hb0 : ∀ n, b0 (ix2 (0 : Fin 1) n) = A.b0 n)
    (hW1 : ∀ k n, W1 (ix2 k n) = A.w1 k n) (hb1 : ∀ n, b1 (ix2 (0 : Fin 1) n) = A.b1 n)
    (hW2 : ∀ k n, W2 (ix2 k n) = A.w2 k n) (hb2 : ∀ n, b2 (ix2 (0 : Fin 1) n) = A.b2 n)
    (hW3 : ∀ k n, W3 (ix2 k n) = A.w3 k n) (n : Fin 256) :
    k0_pay2 x W0 b0 W1 b1 W2 b2 W3 (ix2 p n) = ∑ k : Fin 256, Net.h2 A xr k * A.w3 k n := by
  unfold k0_pay2
  simp only [maximumf_apply, addf_apply, mulf_apply, subf_apply, broadcast_apply, select_apply, cmpf_apply, truncf_apply, shapeCast_self, bias_apply, wrow_apply, scalar_zero, mm_63_256, mm_256_256, mm_256_128, mm_27_128, mm_128_128, logistic_apply, exp_apply, log1p_apply, absf_apply, hx, hW0, hb0, hW1, hb1, hW2, hb2, hW3]
  rfl

/-- The rest of layer 3, layer 4, the joined layer 5 and the product of layer 6. -/
theorem pay3_row (v34 : FVec Ideal S2048x256 .f32) (b3 : Vec Ideal S1x256 .f32) (W4 : Vec Ideal S256x256 .bf16)
    (b4 : Vec Ideal S1x256 .f32) (W5a : Vec Ideal S256x256 .bf16) (x : Vec Ideal S2048x63 .bf16) (W5b : Vec Ideal S63x256 .bf16)
    (b5 : Vec Ideal S1x256 .f32) (W6 : Vec Ideal S256x256 .bf16)
    (hv : ∀ n, v34 (ix2 p n) = ∑ k : Fin 256, Net.h2 A xr k * A.w3 k n)
    (hx : ∀ k, x (ix2 p k) = xr k)
    (hb3 : ∀ n, b3 (ix2 (0 : Fin 1) n) = A.b3 n)
    (hW4 : ∀ k n, W4 (ix2 k n) = A.w4 k n) (hb4 : ∀ n, b4 (ix2 (0 : Fin 1) n) = A.b4 n)
    (hW5a : ∀ k n, W5a (ix2 k n) = A.w5a k n) (hW5b : ∀ k n, W5b (ix2 k n) = A.w5b k n)
    (hb5 : ∀ n, b5 (ix2 (0 : Fin 1) n) = A.b5 n)
    (hW6 : ∀ k n, W6 (ix2 k n) = A.w6 k n) (n : Fin 256) :
    k0_pay3 v34 b3 W4 b4 W5a x W5b b5 W6 (ix2 p n) = ∑ k : Fin 256, Net.h5 A xr k * A.w6 k n := by
  unfold k0_pay3
  simp only [maximumf_apply, addf_apply, mulf_apply, subf_apply, broadcast_apply, select_apply, cmpf_apply, truncf_apply, shapeCast_self, bias_apply, wrow_apply, scalar_zero, mm_63_256, mm_256_256, mm_256_128, mm_27_128, mm_128_128, logistic_apply, exp_apply, log1p_apply, absf_apply, hv, hx, hb3, hW4, hb4, hW5a, hW5b, hb5, hW6]
  rfl

/-- The rest of layer 6 and layer 7: the 256 features. -/
theorem pay4_row (v70 : FVec Ideal S2048x256 .f32) (b6 : Vec Ideal S1x256 .f32) (W7 : Vec Ideal S256x256 .bf16)
    (b7 : Vec Ideal S1x256 .f32)
    (hv : ∀ n, v70 (ix2 p n) = ∑ k : Fin 256, Net.h5 A xr k * A.w6 k n)
    (hb6 : ∀ n, b6 (ix2 (0 : Fin 1) n) = A.b6 n)
    (hW7 : ∀ k n, W7 (ix2 k n) = A.w7 k n) (hb7 : ∀ n, b7 (ix2 (0 : Fin 1) n) = A.b7 n) (n : Fin 256) :
    k0_pay4 v70 b6 W7 b7 (ix2 p n) = Net.h7 A xr n := by
  unfold k0_pay4
  simp only [maximumf_apply, addf_apply, mulf_apply, subf_apply, broadcast_apply, select_apply, cmpf_apply, truncf_apply, shapeCast_self, bias_apply, wrow_apply, scalar_zero, mm_63_256, mm_256_256, mm_256_128, mm_27_128, mm_128_128, logistic_apply, exp_apply, log1p_apply, absf_apply, hv, hb6, hW7, hb7]
  rfl

/-- The same features after the change of float format. -/
theorem pay6_row (v70 : FVec Ideal S2048x256 .f32) (b6 : Vec Ideal S1x256 .f32) (W7 : Vec Ideal S256x256 .bf16)
    (b7 : Vec Ideal S1x256 .f32)
    (hv : ∀ n, v70 (ix2 p n) = ∑ k : Fin 256, Net.h5 A xr k * A.w6 k n)
    (hb6 : ∀ n, b6 (ix2 (0 : Fin 1) n) = A.b6 n)
    (hW7 : ∀ k n, W7 (ix2 k n) = A.w7 k n) (hb7 : ∀ n, b7 (ix2 (0 : Fin 1) n) = A.b7 n) (n : Fin 256) :
    k0_pay6 v70 b6 W7 b7 (ix2 p n) = Net.h7 A xr n :=
  pay4_row A xr p v70 b6 W7 b7 hv hb6 hW7 hb7 n

/-- The density: the dot product with the 256 features, its bias, and the softplus; the not-a-number branch of the
    printed softplus is never taken, and subtracting zero or from zero is what it says on the extended reals. -/
theorem pay5_val (v70 : FVec Ideal S2048x256 .f32) (b6 : Vec Ideal S1x256 .f32) (W7 : Vec Ideal S256x256 .bf16)
    (b7 : Vec Ideal S1x256 .f32) (ws : Vec Ideal S1x256 .f32) (bs : Vec Ideal S1x1 .f32)
    (hv : ∀ n, v70 (ix2 p n) = ∑ k : Fin 256, Net.h5 A xr k * A.w6 k n)
    (hb6 : ∀ n, b6 (ix2 (0 : Fin 1) n) = A.b6 n)
    (hW7 : ∀ k n, W7 (ix2 k n) = A.w7 k n) (hb7 : ∀ n, b7 (ix2 (0 : Fin 1) n) = A.b7 n)
    (hws : ∀ k, ws (ix2 (0 : Fin 1) k) = A.wsig k) (hbs : ∀ u : Fin 1, bs (ix2 (0 : Fin 1) u) = A.bsig) (u : Fin 1) :
    k0_pay5 v70 b6 W7 b7 ws bs (ix2 p u) = Net.sig A xr := by
  unfold k0_pay5
  simp only [maximumf_apply, addf_apply, mulf_apply, subf_apply, broadcast_apply, select_apply, cmpf_apply, truncf_apply, shapeCast_self, bias_apply, wrow_apply, scalar_zero, mm_63_256, mm_256_256, mm_256_128, mm_27_128, mm_128_128, logistic_apply, exp_apply, log1p_apply, absf_apply, cmp_one_self, select_zero, hbs, sub_zero, zero_sub]
  generalize hS : shapeCast S2048x1 _ _ (ix2 p u) = S
  have hS' : S = ∑ k : Fin 256, Net.h7 A xr k * A.wsig k := by
    refine hS.symm.trans ((head_apply _ _ _ _ _ p u).trans (Finset.sum_congr rfl fun k _ => ?_))
    rw [mulf_apply, wrow_apply, pay4_row A xr p v70 b6 W7 b7 hv hb6 hW7 hb7, hws]
  rw [hS']
  rfl

/-- The layer with no rectifier, the joined layer 9, layer 10 and the product of layer 11. -/
theorem pay7_row (v111 : FVec Ideal S2048x256 .bf16) (W8 : Vec Ideal S256x256 .bf16) (b8 : Vec Ideal S1x256 .f32)
    (W9a : Vec Ideal S256x128 .bf16) (d : Vec Ideal S2048x27 .bf16) (W9b : Vec Ideal S27x128 .bf16) (b9 : Vec Ideal S1x128 .f32)
    (W10 : Vec Ideal S128x128 .bf16) (b10 : Vec Ideal S1x128 .f32) (W11 : Vec Ideal S128x128 .bf16)
    (hv : ∀ k, v111 (ix2 p k) = Net.h7 A xr k)
    (hd : ∀ k, d (ix2 p k) = dr k)
    (hW8 : ∀ k n, W8 (ix2 k n) = A.w8 k n) (hb8 : ∀ n, b8 (ix2 (0 : Fin 1) n) = A.b8 n)
    (hW9a : ∀ k n, W9a (ix2 k n) = A.w9a k n) (hW9b : ∀ k n, W9b (ix2 k n) = A.w9b k n)
    (hb9 : ∀ n, b9 (ix2 (0 : Fin 1) n) = A.b9 n)
    (hW10 : ∀ k n, W10 (ix2 k n) = A.w10 k n) (hb10 : ∀ n, b10 (ix2 (0 : Fin 1) n) = A.b10 n)
    (hW11 : ∀ k n, W11 (ix2 k n) = A.w11 k n) (n : Fin 128) :
    k0_pay7 v111 W8 b8 W9a d W9b b9 W10 b10 W11 (ix2 p n) = ∑ k : Fin 128, Net.h10 A xr dr k * A.w11 k n := by
  unfold k0_pay7
  simp only [maximumf_apply, addf_apply, mulf_apply, subf_apply, broadcast_apply, select_apply, cmpf_apply, truncf_apply, shapeCast_self, bias_apply, wrow_apply, scalar_zero, mm_63_256, mm_256_256, mm_256_128, mm_27_128, mm_128_128, logistic_apply, exp_apply, log1p_apply, absf_apply, hv, hd, hW8, hb8, hW9a, hW9b, hb9, hW10, hb10, hW11]
  rfl

/-- The rest of layer 11 and layer 12: the 128 features of the colour branch. -/
theorem pay8_row (v148 : FVec Ideal S2048x128 .f32) (b11 : Vec Ideal S1x128 .f32) (W12 : Vec Ideal S128x128 .bf16)
    (b12 : Vec Ideal S1x128 .f32)
    (hv : ∀ n, v148 (ix2 p n) = ∑ k : Fin 128, Net.h10 A xr dr k * A.w11 k n)
    (hb11 : ∀ n, b11 (ix2 (0 : Fin 1) n) = A.b11 n)
    (hW12 : ∀ k n, W12 (ix2 k n) = A.w12 k n) (hb12 : ∀ n, b12 (ix2 (0 : Fin 1) n) = A.b12 n) (n : Fin 128) :
    k0_pay8 v148 b11 W12 b12 (ix2 p n) = Net.h12 A xr dr n := by
  unfold k0_pay8
  simp only [maximumf_apply, addf_apply, mulf_apply, subf_apply, broadcast_apply, select_apply, cmpf_apply, truncf_apply, shapeCast_self, bias_apply, wrow_apply, scalar_zero, mm_63_256, mm_256_256, mm_256_128, mm_27_128, mm_128_128, logistic_apply, exp_apply, log1p_apply, absf_apply, hv, hb11, hW12, hb12]
  rfl

/-- Colour channel 0: the dot product with the 128 features, entry 0 of the bias, the logistic function. -/
theorem pay10_val (v148 : FVec Ideal S2048x128 .f32) (b11 : Vec Ideal S1x128 .f32) (W12 : Vec Ideal S128x128 .bf16)
    (b12 : Vec Ideal S1x128 .f32) (br : Vec Ideal S1x3 .f32) (wr : Vec Ideal S1x128 .f32)
    (hv : ∀ n, v148 (ix2 p n) = ∑ k : Fin 128, Net.h10 A xr dr k * A.w11 k n)
    (hb11 : ∀ n, b11 (ix2 (0 : Fin 1) n) = A.b11 n)
    (hW12 : ∀ k n, W12 (ix2 k n) = A.w12 k n) (hb12 : ∀ n, b12 (ix2 (0 : Fin 1) n) = A.b12 n)
    (hwr : ∀ k, wr (ix2 (0 : Fin 1) k) = A.wrgb 0 k) (hbr : br (ix2 (0 : Fin 1) (0 : Fin 3)) = A.brgb 0) (u : Fin 1) :
    k0_pay10 v148 b11 W12 b12 br wr (ix2 p u) = Net.rgb A xr dr 0 := by
  unfold k0_pay10 k0_pay9
  simp only [maximumf_apply, addf_apply, mulf_apply, subf_apply, broadcast_apply, select_apply, cmpf_apply, truncf_apply, shapeCast_self, bias_apply, wrow_apply, scalar_zero, mm_63_256, mm_256_256, mm_256_128, mm_27_128, mm_128_128, logistic_apply, exp_apply, log1p_apply, absf_apply, bslice_apply br 0 _ _ p u (0 : Fin 3) rfl, hbr]
  generalize hS : shapeCast S2048x1 _ _ (ix2 p u) = S
  have hS' : S = ∑ k : Fin 128, Net.h12 A xr dr k * A.wrgb 0 k := by
    refine hS.symm.trans ((head_apply _ _ _ _ _ p u).trans (Finset.sum_congr rfl fun k _ => ?_))
    rw [mulf_apply, wrow_apply, pay8_row A xr dr p v148 b11 W12 b12 hv hb11 hW12 hb12, hwr]
  rw [hS']
  rfl

/-- Colour channel 1. -/
theorem pay11_val (v148 : FVec Ideal S2048x128 .f32) (b11 : Vec Ideal S1x128 .f32) (W12 : Vec Ideal S128x128 .bf16)
    (b12 : Vec Ideal S1x128 .f32) (br : Vec Ideal S1x3 .f32) (wr : Vec Ideal S1x128 .f32)
    (hv : ∀ n, v148 (ix2 p n) = ∑ k : Fin 128, Net.h10 A xr dr k * A.w11 k n)
    (hb11 : ∀ n, b11 (ix2 (0 : Fin 1) n) = A.b11 n)
    (hW12 : ∀ k n, W12 (ix2 k n) = A.w12 k n) (hb12 : ∀ n, b12 (ix2 (0 : Fin 1) n) = A.b12 n)
    (hwr : ∀ k, wr (ix2 (0 : Fin 1) k) = A.wrgb 1 k) (hbr : br (ix2 (0 : Fin 1) (1 : Fin 3)) = A.brgb 1) (u : Fin 1) :
    k0_pay11 v148 b11 W12 b12 br wr (ix2 p u) = Net.rgb A xr dr 1 := by
  unfold k0_pay11 k0_pay9
  simp only [maximumf_apply, addf_apply, mulf_apply, subf_apply, broadcast_apply, select_apply, cmpf_apply, truncf_apply, shapeCast_self, bias_apply, wrow_apply, scalar_zero, mm_63_256, mm_256_256, mm_256_128, mm_27_128, mm_128_128, logistic_apply, exp_apply, log1p_apply, absf_apply, bslice_apply br 1 _ _ p u (1 : Fin 3) rfl, hbr]
  generalize hS : shapeCast S2048x1 _ _ (ix2 p u) = S
  have hS' : S = ∑ k : Fin 128, Net.h12 A xr dr k * A.wrgb 1 k := by
    refine hS.symm.trans ((head_apply _ _ _ _ _ p u).trans (Finset.sum_congr rfl fun k _ => ?_))
    rw [mulf_apply, wrow_apply, pay8_row A xr dr p v148 b11 W12 b12 hv hb11 hW12 hb12, hwr]
  rw [hS']
  rfl

/-- Colour channel 2 (this stage is handed the 128 features and the bias row as values). -/
theorem pay1_val (v164 : FVec Ideal S2048x128 .f32) (br : FVec Ideal S1x3 .f32) (wr : Vec Ideal S1x128 .f32)
    (hv : ∀ k, v164 (ix2 p k) = Net.h12 A xr dr k)
    (hwr : ∀ k, wr (ix2 (0 : Fin 1) k) = A.wrgb 2 k) (hbr : br (ix2 (0 : Fin 1) (2 : Fin 3)) = A.brgb 2) (u : Fin 1) :
    k0_pay1 v164 br wr (ix2 p u) = Net.rgb A xr dr 2 := by
  unfold k0_pay1
  simp only [maximumf_apply, addf_apply, mulf_apply, subf_apply, broadcast_apply, select_apply, cmpf_apply, truncf_apply, shapeCast_self, bias_apply, wrow_apply, scalar_zero, mm_63_256, mm_256_256, mm_256_128, mm_27_128, mm_128_128, logistic_apply, exp_apply, log1p_apply, absf_apply, bslice_apply br 2 _ _ p u (2 : Fin 3) rfl, hbr]
  generalize hS : shapeCast S2048x1 _ _ (ix2 p u) = S
  have hS' : S = ∑ k : Fin 128, Net.h12 A xr dr k * A.wrgb 2 k := by
    refine hS.symm.trans ((head_apply _ _ _ _ _ p u).trans (Finset.sum_congr rfl fun k _ => ?_))
    rw [mulf_apply, wrow_apply, hv, hwr]
  rw [hS']
  rfl

/-- What the weight blocks hold, against the accessors `A` of the network. -/
structure BlockReads (A : Net.Acc) (x2 : Vec Ideal S63x256 .bf16) (x3 : Vec Ideal S1x256 .f32) (x4 : Vec Ideal S256x256 .bf16) (x5 : Vec Ideal S1x256 .f32) (x6 : Vec Ideal S256x256 .bf16) (x7 : Vec Ideal S1x256 .f32) (x8 : Vec Ideal S256x256 .bf16) (x9 : Vec Ideal S1x256 .f32) (x10 : Vec Ideal S256x256 .bf16) (x11 : Vec Ideal S1x256 .f32) (x12 : Vec Ideal S256x256 .bf16) (x13 : Vec Ideal S63x256 .bf16) (x14 : Vec Ideal S1x256 .f32) (x15 : Vec Ideal S256x256 .bf16) (x16 : Vec Ideal S1x256 .f32) (x17 : Vec Ideal S256x256 .bf16) (x18 : Vec Ideal S1x256 .f32) (x19 : Vec Ideal S1x256 .f32) (x20 : Vec Ideal S1x1 .f32) (x21 : Vec Ideal S256x256 .bf16) (x22 : Vec Ideal S1x256 .f32) (x23 : Vec Ideal S256x128 .bf16) (x24 : Vec Ideal S27x128 .bf16) (x25 : Vec Ideal S1x128 .f32) (x26 : Vec Ideal S128x128 .bf16) (x27 : Vec Ideal S1x128 .f32) (x28 : Vec Ideal S128x128 .bf16) (x29 : Vec Ideal S1x128 .f32) (x30 : Vec Ideal S128x128 .bf16) (x31 : Vec Ideal S1x128 .f32) (x32 : Vec Ideal S3x128 .f32) (x33 : Vec Ideal S1x3 .f32) : Prop where
  hW0 : ∀ k n, x2 (ix2 k n) = A.w0 k n
  hW1 : ∀ k n, x4 (ix2 k n) = A.w1 k n
  hW2 : ∀ k n, x6 (ix2 k n) = A.w2 k n
  hW3 : ∀ k n, x8 (ix2 k n) = A.w3 k n
  hW4 : ∀ k n, x10 (ix2 k n) = A.w4 k n
  hW5a : ∀ k n, x12 (ix2 k n) = A.w5a k n
  hW5b : ∀ k n, x13 (ix2 k n) = A.w5b k n
  hW6 : ∀ k n, x15 (ix2 k n) = A.w6 k n
  hW7 : ∀ k n, x17 (ix2 k n) = A.w7 k n
  hW8 : ∀ k n, x21 (ix2 k n) = A.w8 k n
  hW9a : ∀ k n, x23 (ix2 k n) = A.w9a k n
  hW9b : ∀ k n, x24 (ix2 k n) = A.w9b k n
  hW10 : ∀ k n, x26 (ix2 k n) = A.w10 k n
  hW11 : ∀ k n, x28 (ix2 k n) = A.w11 k n
  hW12 : ∀ k n, x30 (ix2 k n) = A.w12 k n
  hb0 : ∀ n, x3 (ix2 (0 : Fin 1) n) = A.b0 n
  hb1 : ∀ n, x5 (ix2 (0 : Fin 1) n) = A.b1 n
  hb2 : ∀ n, x7 (ix2 (0 : Fin 1) n) = A.b2 n
  hb3 : ∀ n, x9 (ix2 (0 : Fin 1) n) = A.b3 n
  hb4 : ∀ n, x11 (ix2 (0 : Fin 1) n) = A.b4 n
  hb5 : ∀ n, x14 (ix2 (0 : Fin 1) n) = A.b5 n
  hb6 : ∀ n, x16 (ix2 (0 : Fin 1) n) = A.b6 n
  hb7 : ∀ n, x18 (ix2 (0 : Fin 1) n) = A.b7 n
  hb8 : ∀ n, x22 (ix2 (0 : Fin 1) n) = A.b8 n
  hb9 : ∀ n, x25 (ix2 (0 : Fin 1) n) = A.b9 n
  hb10 : ∀ n, x27 (ix2 (0 : Fin 1) n) = A.b10 n
  hb11 : ∀ n, x29 (ix2 (0 : Fin 1) n) = A.b11 n
  hb12 : ∀ n, x31 (ix2 (0 : Fin 1) n) = A.b12 n
  hws : ∀ k, x19 (ix2 (0 : Fin 1) k) = A.wsig k
  hbs : ∀ u : Fin 1, x20 (ix2 (0 : Fin 1) u) = A.bsig
  hwr : ∀ (j : Fin 3) k, x32 (ix2 j k) = A.wrgb j k
  hbr : ∀ j : Fin 3, x33 (ix2 (0 : Fin 1) j) = A.brgb j

end Cert.KNet

end
-- ==== Proof.KOut.lean ====
/-
  What the body leaves in a block of the packed output: at row `p` of the block, columns 0, 1, 2 hold the three colour
  channels of the network at that row of the encodings, column 3 its density.

  The block is written by four stores, one column each; every index of the block is in one of them (the generated
  cover), so reading the block at an index is reading the store that covers it. The loads of the body are whole-block
  loads (the identity) except the three rows of the colour weights, which are rows 0, 1, 2 of their block.
-/
import proofs.«102540_j48447231098895_2_alg».proof.Proof.FramePatchKernelIdeal
import proofs.«102540_j48447231098895_2_alg».proof.Proof.KPay

set_option maxHeartbeats 1000000
set_option maxRecDepth 16384

noncomputable section

namespace Cert.KNet

open Cert.KernelIdeal Cert.KernelIdeal.Gen Cert.KernelIdeal.GenP Idealize.ShloMosaic Idealize.ShloMosaic.ValueIdx

/-- The block the body leaves, as a function of the block index: colour channel `j` in column `j < 3`, the density in
    column 3, each of the row's encodings. -/
def blockSpec (A : Net.Acc) (x0 : Vec Ideal S2048x63 .bf16) (x1 : Vec Ideal S2048x27 .bf16) : S2048x4.Idx → Elt Ideal .f32 := fun y =>
  if h : (y 1).val < 3 then Net.rgb A (fun k => x0 (ix2 (y 0) k)) (fun k => x1 (ix2 (y 0) k)) ⟨(y 1).val, h⟩
  else Net.sig A (fun k => x0 (ix2 (y 0) k))

theorem hz2 : (![0, 0] : Fin 2 → Nat) = fun _ => 0 := funext fun a => by fin_cases a <;> rfl

/-- Column `j` of the block, as a one-column rectangle, sits at `(p, j)`. -/
theorem col_emb (j : Fin 4) (inb : ∀ a, (![0, j.val] : Fin 2 → Nat) a + S2048x1.size a ≤ S2048x4.size a) (p : Fin 2048) (u : Fin 1) :
    (Rect.unit (s := S2048x4) ![0, j.val] S2048x1.size inb).emb (ix2 p u) = ix2 p j := by
  funext a; apply Fin.ext
  match a with
  | ⟨0, _⟩ => show 0 + 1 * p.val = p.val; omega
  | ⟨1, _⟩ => show j.val + 1 * u.val = j.val; omega

/-- Row `j` of the colour weights, loaded as a `[1, 128]` piece. -/
theorem wrow_ld (x32 : Vec Ideal S3x128 .f32) (j : Fin 3) (inb : ∀ a, (![j.val, 0] : Fin 2 → Nat) a + S1x128.size a ≤ S3x128.size a)
    (k : Fin 128) : View.ld x32 (Rect.unit (s := S3x128) ![j.val, 0] S1x128.size inb) (ix2 (0 : Fin 1) k) = x32 (ix2 j k) := by
  show x32 _ = x32 _
  refine congrArg x32 (funext fun a => Fin.ext ?_)
  match a with
  | ⟨0, _⟩ => show j.val + 1 * 0 = j.val; omega
  | ⟨1, _⟩ => show 0 + 1 * k.val = k.val; omega

theorem out34_apply (A : Net.Acc) (x0 : Vec Ideal S2048x63 .bf16) (x1 : Vec Ideal S2048x27 .bf16) (x2 : Vec Ideal S63x256 .bf16) (x3 : Vec Ideal S1x256 .f32) (x4 : Vec Ideal S256x256 .bf16) (x5 : Vec Ideal S1x256 .f32) (x6 : Vec Ideal S256x256 .bf16) (x7 : Vec Ideal S1x256 .f32) (x8 : Vec Ideal S256x256 .bf16) (x9 : Vec Ideal S1x256 .f32) (x10 : Vec Ideal S256x256 .bf16) (x11 : Vec Ideal S1x256 .f32) (x12 : Vec Ideal S256x256 .bf16) (x13 : Vec Ideal S63x256 .bf16) (x14 : Vec Ideal S1x256 .f32) (x15 : Vec Ideal S256x256 .bf16) (x16 : Vec Ideal S1x256 .f32) (x17 : Vec Ideal S256x256 .bf16) (x18 : Vec Ideal S1x256 .f32) (x19 : Vec Ideal S1x256 .f32) (x20 : Vec Ideal S1x1 .f32) (x21 : Vec Ideal S256x256 .bf16) (x22 : Vec Ideal S1x256 .f32) (x23 : Vec Ideal S256x128 .bf16) (x24 : Vec Ideal S27x128 .bf16) (x25 : Vec Ideal S1x128 .f32) (x26 : Vec Ideal S128x128 .bf16) (x27 : Vec Ideal S1x128 .f32) (x28 : Vec Ideal S128x128 .bf16) (x29 : Vec Ideal S1x128 .f32) (x30 : Vec Ideal S128x128 .bf16) (x31 : Vec Ideal S1x128 .f32) (x32 : Vec Ideal S3x128 .f32) (x33 : Vec Ideal S1x3 .f32)
    (H : BlockReads A x2 x3 x4 x5 x6 x7 x8 x9 x10 x11 x12 x13 x14 x15 x16 x17 x18 x19 x20 x21 x22 x23 x24 x25 x26 x27 x28 x29 x30 x31 x32 x33) (y : S2048x4.Idx) :
    out0_34 x0 x1 x2 x3 x4 x5 x6 x7 x8 x9 x10 x11 x12 x13 x14 x15 x16 x17 x18 x19 x20 x21 x22 x23 x24 x25 x26 x27 x28 x29 x30 x31 x32 x33 y = blockSpec A x0 x1 y := by
  unfold out0_34
  simp only [View.ld_unit_zero (S := S2048x63) hz2, View.ld_unit_zero (S := S63x256) hz2, View.ld_unit_zero (S := S1x256) hz2,
    View.ld_unit_zero (S := S256x256) hz2, View.ld_unit_zero (S := S1x1) hz2, View.ld_unit_zero (S := S256x128) hz2,
    View.ld_unit_zero (S := S2048x27) hz2, View.ld_unit_zero (S := S27x128) hz2, View.ld_unit_zero (S := S1x128) hz2,
    View.ld_unit_zero (S := S128x128) hz2, View.ld_unit_zero (S := S1x3) hz2]
  refine View.canon_apply_of_pieces (blockSpec A x0 x1) _ ?_ y (cover0_34 _ _ _ _ y)
  have hv2 := fun p : Fin 2048 => pay2_row A (fun k => x0 (ix2 p k)) p x0 x2 x3 x4 x5 x6 x7 x8 (fun _ => rfl) H.hW0 H.hb0 H.hW1 H.hb1 H.hW2 H.hb2 H.hW3
  have hv3 := fun p : Fin 2048 => pay3_row A (fun k => x0 (ix2 p k)) p _ x9 x10 x11 x12 x0 x13 x14 x15 (hv2 p) (fun _ => rfl) H.hb3 H.hW4 H.hb4 H.hW5a H.hW5b H.hb5 H.hW6
  have hv6 := fun p : Fin 2048 => pay6_row A (fun k => x0 (ix2 p k)) p _ x16 x17 x18 (hv3 p) H.hb6 H.hW7 H.hb7
  have hv7 := fun p : Fin 2048 => pay7_row A (fun k => x0 (ix2 p k)) (fun k => x1 (ix2 p k)) p _ x21 x22 x23 x1 x24 x25 x26 x27 x28 (hv6 p) (fun _ => rfl)
    H.hW8 H.hb8 H.hW9a H.hW9b H.hb9 H.hW10 H.hb10 H.hW11
  have hv8 := fun p : Fin 2048 => pay8_row A (fun k => x0 (ix2 p k)) (fun k => x1 (ix2 p k)) p _ x29 x30 x31 (hv7 p) H.hb11 H.hW12 H.hb12
  intro pc hpc
  simp only [List.mem_cons, List.not_mem_nil, or_false] at hpc
  rcases hpc with rfl | rfl | rfl | rfl
  · -- column 2
    intro x
    obtain ⟨p, u, rfl⟩ : ∃ (p : Fin 2048) (u : Fin 1), x = ix2 p u := ⟨x 0, x 1, eq_ix2 x⟩
    show (k0_pay1 (F := Ideal) _ _ _ (ix2 p u) : Elt Ideal .f32) = blockSpec A x0 x1 (r0_17.emb (ix2 p u))
    rw [show r0_17.emb (ix2 p u) = ix2 p (2 : Fin 4) from col_emb 2 _ p u]
    refine (pay1_val A (fun k => x0 (ix2 p k)) (fun k => x1 (ix2 p k)) p _ _ _ (hv8 p) (fun k => (wrow_ld x32 2 _ k).trans (H.hwr 2 k)) ?_ u).trans ?_
    · show k0_pay9 (F := Ideal) x33 (ix2 (0 : Fin 1) (2 : Fin 3)) = A.brgb 2
      unfold k0_pay9; rw [shapeCast_self]; exact H.hbr 2
    · unfold blockSpec; rw [dif_pos (show ((ix2 p (2 : Fin 4) : S2048x4.Idx) 1).val < 3 by show (2 : Fin 4).val < 3; decide)]; rfl
  · -- column 1
    intro x
    obtain ⟨p, u, rfl⟩ : ∃ (p : Fin 2048) (u : Fin 1), x = ix2 p u := ⟨x 0, x 1, eq_ix2 x⟩
    show (k0_pay11 (F := Ideal) _ _ _ _ _ _ (ix2 p u) : Elt Ideal .f32) = blockSpec A x0 x1 (r0_15.emb (ix2 p u))
    rw [show r0_15.emb (ix2 p u) = ix2 p (1 : Fin 4) from col_emb 1 _ p u]
    refine (pay11_val A (fun k => x0 (ix2 p k)) (fun k => x1 (ix2 p k)) p _ x29 x30 x31 x33 _ (hv7 p) H.hb11 H.hW12 H.hb12 (fun k => (wrow_ld x32 1 _ k).trans (H.hwr 1 k)) (H.hbr 1) u).trans ?_
    unfold blockSpec; rw [dif_pos (show ((ix2 p (1 : Fin 4) : S2048x4.Idx) 1).val < 3 by show (1 : Fin 4).val < 3; decide)]; rfl
  · -- column 0
    intro x
    obtain ⟨p, u, rfl⟩ : ∃ (p : Fin 2048) (u : Fin 1), x = ix2 p u := ⟨x 0, x 1, eq_ix2 x⟩
    show (k0_pay10 (F := Ideal) _ _ _ _ _ _ (ix2 p u) : Elt Ideal .f32) = blockSpec A x0 x1 (r0_13.emb (ix2 p u))
    rw [show r0_13.emb (ix2 p u) = ix2 p (0 : Fin 4) from col_emb 0 _ p u]
    refine (pay10_val A (fun k => x0 (ix2 p k)) (fun k => x1 (ix2 p k)) p _ x29 x30 x31 x33 _ (hv7 p) H.hb11 H.hW12 H.hb12 (fun k => (wrow_ld x32 0 _ k).trans (H.hwr 0 k)) (H.hbr 0) u).trans ?_
    unfold blockSpec; rw [dif_pos (show ((ix2 p (0 : Fin 4) : S2048x4.Idx) 1).val < 3 by show (0 : Fin 4).val < 3; decide)]; rfl
  · -- column 3
    intro x
    obtain ⟨p, u, rfl⟩ : ∃ (p : Fin 2048) (u : Fin 1), x = ix2 p u := ⟨x 0, x 1, eq_ix2 x⟩
    show (k0_pay5 (F := Ideal) _ _ _ _ _ _ (ix2 p u) : Elt Ideal .f32) = blockSpec A x0 x1 (r0_5.emb (ix2 p u))
    rw [show r0_5.emb (ix2 p u) = ix2 p (3 : Fin 4) from col_emb 3 _ p u]
    refine (pay5_val A (fun k => x0 (ix2 p k)) p _ x16 x17 x18 x19 x20 (hv3 p) H.hb6 H.hW7 H.hb7 H.hws H.hbs u).trans ?_
    unfold blockSpec; rw [dif_neg (show ¬ ((ix2 p (3 : Fin 4) : S2048x4.Idx) 1).val < 3 by show ¬ (3 : Fin 4).val < 3; decide)]
end Cert.KNet

end
-- ==== Proof.KWinA.lean ====
/-
  What the kernel's weight and bias blocks hold, part one: the arrays the host prepares before the kernel runs.

  Before the kernel call the program transposes every weight matrix (stored `[out, in]`) to `[in, out]` and narrows it
  to the 16-bit format (the identity on the extended reals), cuts the two joined layers' matrices into their first 256
  input columns and the rest, and views every bias vector `[n]` as a one-row matrix `[1, n]`. Each lemma `host_…`
  states the prepared array as that term of the argument array; each lemma `read_…` reads it at an index: the prepared
  weight at `(k, n)` is the argument at `(n, k)` (at column `256 + k` for the second part of a joined layer), the
  prepared bias at `(0, n)` is the argument at `n`.
-/
import proofs.«102540_j48447231098895_2_alg».proof.Proof.FramePatchKernelIdeal
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.KNet

open Cert.KernelIdeal Cert.KernelIdeal.Gen Cert.KernelIdeal.GenP Idealize.ShloMosaic Idealize.ShloMosaic.ValueIdx
  Idealize.ShloMosaic.TcCoe Idealize.SL.Sem Idealize.ShloMosaic.StableHlo

variable (m : (ℓ : Loc nD τ sig) → Buf (Elt Ideal) ℓ)

/-- The narrowed position encoding is the argument, entry by entry. -/
theorem host_v0 (c : Dev nD) : (V m c main_v0 : S262144x63.Idx → Ideal .bf16)
    = truncf (F := Ideal) .bf16 (m ((c : Thread nD τ).loc main_arg0) : S262144x63.Idx → Ideal .f32) bitsLt_bf16_f32 := by
  show StableHlo.after hostOps0 (fun b => m (c, b)) (Proc.devRef .tc main_v0) = _
  after_results <;> rfl

/-- The narrowed direction encoding is the argument, entry by entry. -/
theorem host_v1 (c : Dev nD) : (V m c main_v1 : S262144x27.Idx → Ideal .bf16)
    = truncf (F := Ideal) .bf16 (m ((c : Thread nD τ).loc main_arg1) : S262144x27.Idx → Ideal .f32) bitsLt_bf16_f32 := by
  show StableHlo.after hostOps0 (fun b => m (c, b)) (Proc.devRef .tc main_v1) = _
  after_results <;> rfl

theorem read_v0 (c : Dev nD) (r : Fin 262144) (k : Fin 63) :
    (V m c main_v0 : S262144x63.Idx → Ideal .bf16) (ix2 r k) = (m ((c : Thread nD τ).loc main_arg0) : S262144x63.Idx → Ideal .f32) (ix2 r k) := by
  rw [host_v0, truncf_apply]

theorem read_v1 (c : Dev nD) (r : Fin 262144) (k : Fin 27) :
    (V m c main_v1 : S262144x27.Idx → Ideal .bf16) (ix2 r k) = (m ((c : Thread nD τ).loc main_arg1) : S262144x27.Idx → Ideal .f32) (ix2 r k) := by
  rw [host_v1, truncf_apply]

/-- Window 2's array: argument 2 transposed and narrowed. -/
theorem host_v3 (c : Dev nD) : (V m c main_v3 : S63x256.Idx → Ideal .bf16)
    = truncf (F := Ideal) .bf16 (transpose S63x256 [1, 0] (m ((c : Thread nD τ).loc main_arg2) : S256x63.Idx → Ideal .f32) transposes_S256x63_S63x256_1_0) bitsLt_bf16_f32 := by
  show StableHlo.after hostOps0 (fun b => m (c, b)) (Proc.devRef .tc main_v3) = _
  after_results <;> rfl

theorem read_v3 (c : Dev nD) (k : Fin 63) (n : Fin 256) :
    (V m c main_v3 : S63x256.Idx → Ideal .bf16) (ix2 k n) = (m ((c : Thread nD τ).loc main_arg2) : S256x63.Idx → Ideal .f32) (ix2 n k) := by
  rw [host_v3, truncf_apply, transpose_ix2_apply]

/-- Window 3's array: argument 3 as a one-row matrix. -/
theorem host_v36 (c : Dev nD) : (V m c main_v36 : S1x256.Idx → Ideal .f32)
    = shapeCast S1x256 (m ((c : Thread nD τ).loc main_arg3) : S256.Idx → Ideal .f32) shapeCasts_S256_S1x256 := by
  show StableHlo.after hostOps0 (fun b => m (c, b)) (Proc.devRef .tc main_v36) = _
  after_results <;> rfl

theorem read_v36 (c : Dev nD) (u : Fin 1) (n : Fin 256) :
    (V m c main_v36 : S1x256.Idx → Ideal .f32) (ix2 u n) = (m ((c : Thread nD τ).loc main_arg3) : S256.Idx → Ideal .f32) (ix1 n) := by
  rw [host_v36, shapeCast_a_1a_apply]

/-- Window 4's array: argument 4 transposed and narrowed. -/
theorem host_v5 (c : Dev nD) : (V m c main_v5 : S256x256.Idx → Ideal .bf16)
    = truncf (F := Ideal) .bf16 (transpose S256x256 [1, 0] (m ((c : Thread nD τ).loc main_arg4) : S256x256.Idx → Ideal .f32) transposes_S256x256_S256x256_1_0) bitsLt_bf16_f32 := by
  show StableHlo.after hostOps0 (fun b => m (c, b)) (Proc.devRef .tc main_v5) = _
  after_results <;> rfl

theorem read_v5 (c : Dev nD) (k : Fin 256) (n : Fin 256) :
    (V m c main_v5 : S256x256.Idx → Ideal .bf16) (ix2 k n) = (m ((c : Thread nD τ).loc main_arg4) : S256x256.Idx → Ideal .f32) (ix2 n k) := by
  rw [host_v5, truncf_apply, transpose_ix2_apply]

/-- Window 5's array: argument 5 as a one-row matrix. -/
theorem host_v37 (c : Dev nD) : (V m c main_v37 : S1x256.Idx → Ideal .f32)
    = shapeCast S1x256 (m ((c : Thread nD τ).loc main_arg5) : S256.Idx → Ideal .f32) shapeCasts_S256_S1x256 := by
  show StableHlo.after hostOps0 (fun b => m (c, b)) (Proc.devRef .tc main_v37) = _
  after_results <;> rfl

theorem read_v37 (c : Dev nD) (u : Fin 1) (n : Fin 256) :
    (V m c main_v37 : S1x256.Idx → Ideal .f32) (ix2 u n) = (m ((c : Thread nD τ).loc main_arg5) : S256.Idx → Ideal .f32) (ix1 n) := by
  rw [host_v37, shapeCast_a_1a_apply]

/-- Window 6's array: argument 6 transposed and narrowed. -/
theorem host_v7 (c : Dev nD) : (V m c main_v7 : S256x256.Idx → Ideal .bf16)
    = truncf (F := Ideal) .bf16 (transpose S256x256 [1, 0] (m ((c : Thread nD τ).loc main_arg6) : S256x256.Idx → Ideal .f32) transposes_S256x256_S256x256_1_0) bitsLt_bf16_f32 := by
  show StableHlo.after hostOps0 (fun b => m (c, b)) (Proc.devRef .tc main_v7) = _
  after_results <;> rfl

theorem read_v7 (c : Dev nD) (k : Fin 256) (n : Fin 256) :
    (V m c main_v7 : S256x256.Idx → Ideal .bf16) (ix2 k n) = (m ((c : Thread nD τ).loc main_arg6) : S256x256.Idx → Ideal .f32) (ix2 n k) := by
  rw [host_v7, truncf_apply, transpose_ix2_apply]

/-- Window 7's array: argument 7 as a one-row matrix. -/
theorem host_v38 (c : Dev nD) : (V m c main_v38 : S1x256.Idx → Ideal .f32)
    = shapeCast S1x256 (m ((c : Thread nD τ).loc main_arg7) : S256.Idx → Ideal .f32) shapeCasts_S256_S1x256 := by
  show StableHlo.after hostOps0 (fun b => m (c, b)) (Proc.devRef .tc main_v38) = _
  after_results <;> rfl

theorem read_v38 (c : Dev nD) (u : Fin 1) (n : Fin 256) :
    (V m c main_v38 : S1x256.Idx → Ideal .f32) (ix2 u n) = (m ((c : Thread nD τ).loc main_arg7) : S256.Idx → Ideal .f32) (ix1 n) := by
  rw [host_v38, shapeCast_a_1a_apply]

/-- Window 8's array: argument 8 transposed and narrowed. -/
theorem host_v9 (c : Dev nD) : (V m c main_v9 : S256x256.Idx → Ideal .bf16)
    = truncf (F := Ideal) .bf16 (transpose S256x256 [1, 0] (m ((c : Thread nD τ).loc main_arg8) : S256x256.Idx → Ideal .f32) transposes_S256x256_S256x256_1_0) bitsLt_bf16_f32 := by
  show StableHlo.after hostOps0 (fun b => m (c, b)) (Proc.devRef .tc main_v9) = _
  after_results <;> rfl

theorem read_v9 (c : Dev nD) (k : Fin 256) (n : Fin 256) :
    (V m c main_v9 : S256x256.Idx → Ideal .bf16) (ix2 k n) = (m ((c : Thread nD τ).loc main_arg8) : S256x256.Idx → Ideal .f32) (ix2 n k) := by
  rw [host_v9, truncf_apply, transpose_ix2_apply]

/-- Window 9's array: argument 9 as a one-row matrix. -/
theorem host_v39 (c : Dev nD) : (V m c main_v39 : S1x256.Idx → Ideal .f32)
    = shapeCast S1x256 (m ((c : Thread nD τ).loc main_arg9) : S256.Idx → Ideal .f32) shapeCasts_S256_S1x256 := by
  show StableHlo.after hostOps0 (fun b => m (c, b)) (Proc.devRef .tc main_v39) = _
  after_results <;> rfl

theorem read_v39 (c : Dev nD) (u : Fin 1) (n : Fin 256) :
    (V m c main_v39 : S1x256.Idx → Ideal .f32) (ix2 u n) = (m ((c : Thread nD τ).loc main_arg9) : S256.Idx → Ideal .f32) (ix1 n) := by
  rw [host_v39, shapeCast_a_1a_apply]

/-- Window 10's array: argument 10 transposed and narrowed. -/
theorem host_v11 (c : Dev nD) : (V m c main_v11 : S256x256.Idx → Ideal .bf16)
    = truncf (F := Ideal) .bf16 (transpose S256x256 [1, 0] (m ((c : Thread nD τ).loc main_arg10) : S256x256.Idx → Ideal .f32) transposes_S256x256_S256x256_1_0) bitsLt_bf16_f32 := by
  show StableHlo.after hostOps0 (fun b => m (c, b)) (Proc.devRef .tc main_v11) = _
  after_results <;> rfl

theorem read_v11 (c : Dev nD) (k : Fin 256) (n : Fin 256) :
    (V m c main_v11 : S256x256.Idx → Ideal .bf16) (ix2 k n) = (m ((c : Thread nD τ).loc main_arg10) : S256x256.Idx → Ideal .f32) (ix2 n k) := by
  rw [host_v11, truncf_apply, transpose_ix2_apply]

/-- Window 11's array: argument 11 as a one-row matrix. -/
theorem host_v40 (c : Dev nD) : (V m c main_v40 : S1x256.Idx → Ideal .f32)
    = shapeCast S1x256 (m ((c : Thread nD τ).loc main_arg11) : S256.Idx → Ideal .f32) shapeCasts_S256_S1x256 := by
  show StableHlo.after hostOps0 (fun b => m (c, b)) (Proc.devRef .tc main_v40) = _
  after_results <;> rfl

theorem read_v40 (c : Dev nD) (u : Fin 1) (n : Fin 256) :
    (V m c main_v40 : S1x256.Idx → Ideal .f32) (ix2 u n) = (m ((c : Thread nD τ).loc main_arg11) : S256.Idx → Ideal .f32) (ix1 n) := by
  rw [host_v40, shapeCast_a_1a_apply]

/-- Window 12's array: columns 0 … of argument 12, transposed and narrowed. -/
theorem host_v14 (c : Dev nD) : (V m c main_v14 : S256x256.Idx → Ideal .bf16)
    = truncf (F := Ideal) .bf16 (transpose S256x256 [1, 0]
        (extractStridedSlice S256x256 ![0, 0] (m ((c : Thread nD τ).loc main_arg12) : S256x319.Idx → Ideal .f32) slices_S256x319_S256x256_0_0) transposes_S256x256_S256x256_1_0) bitsLt_bf16_f32 := by
  show StableHlo.after hostOps0 (fun b => m (c, b)) (Proc.devRef .tc main_v14) = _
  after_results <;> rfl

theorem read_v14 (c : Dev nD) (k : Fin 256) (n : Fin 256) :
    (V m c main_v14 : S256x256.Idx → Ideal .bf16) (ix2 k n)
      = (m ((c : Thread nD τ).loc main_arg12) : S256x319.Idx → Ideal .f32) (ix2 n (⟨k.val, by omega⟩ : Fin 319)) := by
  rw [host_v14, truncf_apply, transpose_ix2_apply,
    slice2_axis1_apply 0 _ _ n k (⟨k.val, by omega⟩ : Fin 319) (Nat.zero_add _).symm]

/-- Window 13's array: columns 256 … of argument 12, transposed and narrowed. -/
theorem host_v17 (c : Dev nD) : (V m c main_v17 : S63x256.Idx → Ideal .bf16)
    = truncf (F := Ideal) .bf16 (transpose S63x256 [1, 0]
        (extractStridedSlice S256x63 ![0, 256] (m ((c : Thread nD τ).loc main_arg12) : S256x319.Idx → Ideal .f32) slices_S256x319_S256x63_0_256) transposes_S256x63_S63x256_1_0) bitsLt_bf16_f32 := by
  show StableHlo.after hostOps0 (fun b => m (c, b)) (Proc.devRef .tc main_v17) = _
  after_results <;> rfl

theorem read_v17 (c : Dev nD) (k : Fin 63) (n : Fin 256) :
    (V m c main_v17 : S63x256.Idx → Ideal .bf16) (ix2 k n)
      = (m ((c : Thread nD τ).loc main_arg12) : S256x319.Idx → Ideal .f32) (ix2 n (⟨256 + k.val, by omega⟩ : Fin 319)) := by
  rw [host_v17, truncf_apply, transpose_ix2_apply,
    slice2_axis1_apply 256 _ _ n k (⟨256 + k.val, by omega⟩ : Fin 319) rfl]

/-- Window 14's array: argument 13 as a one-row matrix. -/
theorem host_v41 (c : Dev nD) : (V m c main_v41 : S1x256.Idx → Ideal .f32)
    = shapeCast S1x256 (m ((c : Thread nD τ).loc main_arg13) : S256.Idx → Ideal .f32) shapeCasts_S256_S1x256 := by
  show StableHlo.after hostOps0 (fun b => m (c, b)) (Proc.devRef .tc main_v41) = _
  after_results <;> rfl

theorem read_v41 (c : Dev nD) (u : Fin 1) (n : Fin 256) :
    (V m c main_v41 : S1x256.Idx → Ideal .f32) (ix2 u n) = (m ((c : Thread nD τ).loc main_arg13) : S256.Idx → Ideal .f32) (ix1 n) := by
  rw [host_v41, shapeCast_a_1a_apply]

/-- Window 15's array: argument 14 transposed and narrowed. -/
theorem host_v19 (c : Dev nD) : (V m c main_v19 : S256x256.Idx → Ideal .bf16)
    = truncf (F := Ideal) .bf16 (transpose S256x256 [1, 0] (m ((c : Thread nD τ).loc main_arg14) : S256x256.Idx → Ideal .f32) transposes_S256x256_S256x256_1_0) bitsLt_bf16_f32 := by
  show StableHlo.after hostOps0 (fun b => m (c, b)) (Proc.devRef .tc main_v19) = _
  after_results <;> rfl

theorem read_v19 (c : Dev nD) (k : Fin 256) (n : Fin 256) :
    (V m c main_v19 : S256x256.Idx → Ideal .bf16) (ix2 k n) = (m ((c : Thread nD τ).loc main_arg14) : S256x256.Idx → Ideal .f32) (ix2 n k) := by
  rw [host_v19, truncf_apply, transpose_ix2_apply]

/-- Window 16's array: argument 15 as a one-row matrix. -/
theorem host_v42 (c : Dev nD) : (V m c main_v42 : S1x256.Idx → Ideal .f32)
    = shapeCast S1x256 (m ((c : Thread nD τ).loc main_arg15) : S256.Idx → Ideal .f32) shapeCasts_S256_S1x256 := by
  show StableHlo.after hostOps0 (fun b => m (c, b)) (Proc.devRef .tc main_v42) = _
  after_results <;> rfl

theorem read_v42 (c : Dev nD) (u : Fin 1) (n : Fin 256) :
    (V m c main_v42 : S1x256.Idx → Ideal .f32) (ix2 u n) = (m ((c : Thread nD τ).loc main_arg15) : S256.Idx → Ideal .f32) (ix1 n) := by
  rw [host_v42, shapeCast_a_1a_apply]

/-- Window 17's array: argument 16 transposed and narrowed. -/
theorem host_v21 (c : Dev nD) : (V m c main_v21 : S256x256.Idx → Ideal .bf16)
    = truncf (F := Ideal) .bf16 (transpose S256x256 [1, 0] (m ((c : Thread nD τ).loc main_arg16) : S256x256.Idx → Ideal .f32) transposes_S256x256_S256x256_1_0) bitsLt_bf16_f32 := by
  show StableHlo.after hostOps0 (fun b => m (c, b)) (Proc.devRef .tc main_v21) = _
  after_results <;> rfl

theorem read_v21 (c : Dev nD) (k : Fin 256) (n : Fin 256) :
    (V m c main_v21 : S256x256.Idx → Ideal .bf16) (ix2 k n) = (m ((c : Thread nD τ).loc main_arg16) : S256x256.Idx → Ideal .f32) (ix2 n k) := by
  rw [host_v21, truncf_apply, transpose_ix2_apply]

/-- Window 18's array: argument 17 as a one-row matrix. -/
theorem host_v43 (c : Dev nD) : (V m c main_v43 : S1x256.Idx → Ideal .f32)
    = shapeCast S1x256 (m ((c : Thread nD τ).loc main_arg17) : S256.Idx → Ideal .f32) shapeCasts_S256_S1x256 := by
  show StableHlo.after hostOps0 (fun b => m (c, b)) (Proc.devRef .tc main_v43) = _
  after_results <;> rfl

theorem read_v43 (c : Dev nD) (u : Fin 1) (n : Fin 256) :
    (V m c main_v43 : S1x256.Idx → Ideal .f32) (ix2 u n) = (m ((c : Thread nD τ).loc main_arg17) : S256.Idx → Ideal .f32) (ix1 n) := by
  rw [host_v43, shapeCast_a_1a_apply]

/-- Window 20's array: argument 19 as a one-row matrix. -/
theorem host_v44 (c : Dev nD) : (V m c main_v44 : S1x1.Idx → Ideal .f32)
    = shapeCast S1x1 (m ((c : Thread nD τ).loc main_arg19) : S1.Idx → Ideal .f32) shapeCasts_S1_S1x1 := by
  show StableHlo.after hostOps0 (fun b => m (c, b)) (Proc.devRef .tc main_v44) = _
  after_results <;> rfl

theorem read_v44 (c : Dev nD) (u : Fin 1) (n : Fin 1) :
    (V m c main_v44 : S1x1.Idx → Ideal .f32) (ix2 u n) = (m ((c : Thread nD τ).loc main_arg19) : S1.Idx → Ideal .f32) (ix1 n) := by
  rw [host_v44, shapeCast_a_1a_apply]

/-- Window 21's array: argument 20 transposed and narrowed. -/
theorem host_v23 (c : Dev nD) : (V m c main_v23 : S256x256.Idx → Ideal .bf16)
    = truncf (F := Ideal) .bf16 (transpose S256x256 [1, 0] (m ((c : Thread nD τ).loc main_arg20) : S256x256.Idx → Ideal .f32) transposes_S256x256_S256x256_1_0) bitsLt_bf16_f32 := by
  show StableHlo.after hostOps0 (fun b => m (c, b)) (Proc.devRef .tc main_v23) = _
  after_results <;> rfl

theorem read_v23 (c : Dev nD) (k : Fin 256) (n : Fin 256) :
    (V m c main_v23 : S256x256.Idx → Ideal .bf16) (ix2 k n) = (m ((c : Thread nD τ).loc main_arg20) : S256x256.Idx → Ideal .f32) (ix2 n k) := by
  rw [host_v23, truncf_apply, transpose_ix2_apply]

/-- Window 22's array: argument 21 as a one-row matrix. -/
theorem host_v45 (c : Dev nD) : (V m c main_v45 : S1x256.Idx → Ideal .f32)
    = shapeCast S1x256 (m ((c : Thread nD τ).loc main_arg21) : S256.Idx → Ideal .f32) shapeCasts_S256_S1x256 := by
  show StableHlo.after hostOps0 (fun b => m (c, b)) (Proc.devRef .tc main_v45) = _
  after_results <;> rfl

theorem read_v45 (c : Dev nD) (u : Fin 1) (n : Fin 256) :
    (V m c main_v45 : S1x256.Idx → Ideal .f32) (ix2 u n) = (m ((c : Thread nD τ).loc main_arg21) : S256.Idx → Ideal .f32) (ix1 n) := by
  rw [host_v45, shapeCast_a_1a_apply]

/-- Window 23's array: columns 0 … of argument 22, transposed and narrowed. -/
theorem host_v26 (c : Dev nD) : (V m c main_v26 : S256x128.Idx → Ideal .bf16)
    = truncf (F := Ideal) .bf16 (transpose S256x128 [1, 0]
        (extractStridedSlice S128x256 ![0, 0] (m ((c : Thread nD τ).loc main_arg22) : S128x283.Idx → Ideal .f32) slices_S128x283_S128x256_0_0) transposes_S128x256_S256x128_1_0) bitsLt_bf16_f32 := by
  show StableHlo.after hostOps0 (fun b => m (c, b)) (Proc.devRef .tc main_v26) = _
  after_results <;> rfl

theorem read_v26 (c : Dev nD) (k : Fin 256) (n : Fin 128) :
    (V m c main_v26 : S256x128.Idx → Ideal .bf16) (ix2 k n)
      = (m ((c : Thread nD τ).loc main_arg22) : S128x283.Idx → Ideal .f32) (ix2 n (⟨k.val, by omega⟩ : Fin 283)) := by
  rw [host_v26, truncf_apply, transpose_ix2_apply,
    slice2_axis1_apply 0 _ _ n k (⟨k.val, by omega⟩ : Fin 283) (Nat.zero_add _).symm]

/-- Window 24's array: columns 256 … of argument 22, transposed and narrowed. -/
theorem host_v29 (c : Dev nD) : (V m c main_v29 : S27x128.Idx → Ideal .bf16)
    = truncf (F := Ideal) .bf16 (transpose S27x128 [1, 0]
        (extractStridedSlice S128x27 ![0, 256] (m ((c : Thread nD τ).loc main_arg22) : S128x283.Idx → Ideal .f32) slices_S128x283_S128x27_0_256) transposes_S128x27_S27x128_1_0) bitsLt_bf16_f32 := by
  show StableHlo.after hostOps0 (fun b => m (c, b)) (Proc.devRef .tc main_v29) = _
  after_results <;> rfl

theorem read_v29 (c : Dev nD) (k : Fin 27) (n : Fin 128) :
    (V m c main_v29 : S27x128.Idx → Ideal .bf16) (ix2 k n)
      = (m ((c : Thread nD τ).loc main_arg22) : S128x283.Idx → Ideal .f32) (ix2 n (⟨256 + k.val, by omega⟩ : Fin 283)) := by
  rw [host_v29, truncf_apply, transpose_ix2_apply,
    slice2_axis1_apply 256 _ _ n k (⟨256 + k.val, by omega⟩ : Fin 283) rfl]

/-- Window 25's array: argument 23 as a one-row matrix. -/
theorem host_v46 (c : Dev nD) : (V m c main_v46 : S1x128.Idx → Ideal .f32)
    = shapeCast S1x128 (m ((c : Thread nD τ).loc main_arg23) : S128.Idx → Ideal .f32) shapeCasts_S128_S1x128 := by
  show StableHlo.after hostOps0 (fun b => m (c, b)) (Proc.devRef .tc main_v46) = _
  after_results <;> rfl

theorem read_v46 (c : Dev nD) (u : Fin 1) (n : Fin 128) :
    (V m c main_v46 : S1x128.Idx → Ideal .f32) (ix2 u n) = (m ((c : Thread nD τ).loc main_arg23) : S128.Idx → Ideal .f32) (ix1 n) := by
  rw [host_v46, shapeCast_a_1a_apply]

/-- Window 26's array: argument 24 transposed and narrowed. -/
theorem host_v31 (c : Dev nD) : (V m c main_v31 : S128x128.Idx → Ideal .bf16)
    = truncf (F := Ideal) .bf16 (transpose S128x128 [1, 0] (m ((c : Thread nD τ).loc main_arg24) : S128x128.Idx → Ideal .f32) transposes_S128x128_S128x128_1_0) bitsLt_bf16_f32 := by
  show StableHlo.after hostOps0 (fun b => m (c, b)) (Proc.devRef .tc main_v31) = _
  after_results <;> rfl

theorem read_v31 (c : Dev nD) (k : Fin 128) (n : Fin 128) :
    (V m c main_v31 : S128x128.Idx → Ideal .bf16) (ix2 k n) = (m ((c : Thread nD τ).loc main_arg24) : S128x128.Idx → Ideal .f32) (ix2 n k) := by
  rw [host_v31, truncf_apply, transpose_ix2_apply]

/-- Window 27's array: argument 25 as a one-row matrix. -/
theorem host_v47 (c : Dev nD) : (V m c main_v47 : S1x128.Idx → Ideal .f32)
    = shapeCast S1x128 (m ((c : Thread nD τ).loc main_arg25) : S128.Idx → Ideal .f32) shapeCasts_S128_S1x128 := by
  show StableHlo.after hostOps0 (fun b => m (c, b)) (Proc.devRef .tc main_v47) = _
  after_results <;> rfl

theorem read_v47 (c : Dev nD) (u : Fin 1) (n : Fin 128) :
    (V m c main_v47 : S1x128.Idx → Ideal .f32) (ix2 u n) = (m ((c : Thread nD τ).loc main_arg25) : S128.Idx → Ideal .f32) (ix1 n) := by
  rw [host_v47, shapeCast_a_1a_apply]

/-- Window 28's array: argument 26 transposed and narrowed. -/
theorem host_v33 (c : Dev nD) : (V m c main_v33 : S128x128.Idx → Ideal .bf16)
    = truncf (F := Ideal) .bf16 (transpose S128x128 [1, 0] (m ((c : Thread nD τ).loc main_arg26) : S128x128.Idx → Ideal .f32) transposes_S128x128_S128x128_1_0) bitsLt_bf16_f32 := by
  show StableHlo.after hostOps0 (fun b => m (c, b)) (Proc.devRef .tc main_v33) = _
  after_results <;> rfl

theorem read_v33 (c : Dev nD) (k : Fin 128) (n : Fin 128) :
    (V m c main_v33 : S128x128.Idx → Ideal .bf16) (ix2 k n) = (m ((c : Thread nD τ).loc main_arg26) : S128x128.Idx → Ideal .f32) (ix2 n k) := by
  rw [host_v33, truncf_apply, transpose_ix2_apply]

/-- Window 29's array: argument 27 as a one-row matrix. -/
theorem host_v48 (c : Dev nD) : (V m c main_v48 : S1x128.Idx → Ideal .f32)
    = shapeCast S1x128 (m ((c : Thread nD τ).loc main_arg27) : S128.Idx → Ideal .f32) shapeCasts_S128_S1x128 := by
  show StableHlo.after hostOps0 (fun b => m (c, b)) (Proc.devRef .tc main_v48) = _
  after_results <;> rfl

theorem read_v48 (c : Dev nD) (u : Fin 1) (n : Fin 128) :
    (V m c main_v48 : S1x128.Idx → Ideal .f32) (ix2 u n) = (m ((c : Thread nD τ).loc main_arg27) : S128.Idx → Ideal .f32) (ix1 n) := by
  rw [host_v48, shapeCast_a_1a_apply]

/-- Window 30's array: argument 28 transposed and narrowed. -/
theorem host_v35 (c : Dev nD) : (V m c main_v35 : S128x128.Idx → Ideal .bf16)
    = truncf (F := Ideal) .bf16 (transpose S128x128 [1, 0] (m ((c : Thread nD τ).loc main_arg28) : S128x128.Idx → Ideal .f32) transposes_S128x128_S128x128_1_0) bitsLt_bf16_f32 := by
  show StableHlo.after hostOps0 (fun b => m (c, b)) (Proc.devRef .tc main_v35) = _
  after_results <;> rfl

theorem read_v35 (c : Dev nD) (k : Fin 128) (n : Fin 128) :
    (V m c main_v35 : S128x128.Idx → Ideal .bf16) (ix2 k n) = (m ((c : Thread nD τ).loc main_arg28) : S128x128.Idx → Ideal .f32) (ix2 n k) := by
  rw [host_v35, truncf_apply, transpose_ix2_apply]

/-- Window 31's array: argument 29 as a one-row matrix. -/
theorem host_v49 (c : Dev nD) : (V m c main_v49 : S1x128.Idx → Ideal .f32)
    = shapeCast S1x128 (m ((c : Thread nD τ).loc main_arg29) : S128.Idx → Ideal .f32) shapeCasts_S128_S1x128 := by
  show StableHlo.after hostOps0 (fun b => m (c, b)) (Proc.devRef .tc main_v49) = _
  after_results <;> rfl

theorem read_v49 (c : Dev nD) (u : Fin 1) (n : Fin 128) :
    (V m c main_v49 : S1x128.Idx → Ideal .f32) (ix2 u n) = (m ((c : Thread nD τ).loc main_arg29) : S128.Idx → Ideal .f32) (ix1 n) := by
  rw [host_v49, shapeCast_a_1a_apply]

/-- Window 33's array: argument 31 as a one-row matrix. -/
theorem host_v50 (c : Dev nD) : (V m c main_v50 : S1x3.Idx → Ideal .f32)
    = shapeCast S1x3 (m ((c : Thread nD τ).loc main_arg31) : S3.Idx → Ideal .f32) shapeCasts_S3_S1x3 := by
  show StableHlo.after hostOps0 (fun b => m (c, b)) (Proc.devRef .tc main_v50) = _
  after_results <;> rfl

theorem read_v50 (c : Dev nD) (u : Fin 1) (n : Fin 3) :
    (V m c main_v50 : S1x3.Idx → Ideal .f32) (ix2 u n) = (m ((c : Thread nD τ).loc main_arg31) : S3.Idx → Ideal .f32) (ix1 n) := by
  rw [host_v50, shapeCast_a_1a_apply]

end Cert.KNet

end
-- ==== Proof.KWinB.lean ====
/-
  What the kernel's blocks hold, part two: each window's block at a grid point is read off its array (windows 0–17).

  The two encodings are cut into 128 blocks of 2048 rows: block `t` at row `p` is row `2048 t + p` of the array. Every
  other window's block is its whole array at every grid point (its block index is `(0, 0)` throughout). A block's
  coordinate in its array is always block index × block size + the coordinate inside the block; the block indices
  are decided once over the 128 grid points.
-/
import proofs.«102540_j48447231098895_2_alg».proof.Proof.FramePatchKernelIdeal
import Idealize.ShloMosaic.PureOps.Ideal
import Idealize.ShloMosaic.Lib.ValueIdx
import Idealize.ShloMosaic.Lib.Pipeline.Value

noncomputable section

namespace Cert.KNet

open Cert.KernelIdeal Cert.KernelIdeal.Gen Cert.KernelIdeal.GenP Idealize.ShloMosaic Idealize.ShloMosaic.ValueIdx
  Idealize.ShloMosaic.TcCoe Idealize.SL.Sem

variable (m : (ℓ : Loc nD τ sig) → Buf (Elt Ideal) ℓ)

/-! ## The block indices, decided over the grid -/

/-- The position encoding's block at point `t` is block `(t, 0)`. -/
theorem idx_0 : ∀ t : Fin cfg0.N, win0_0.index t 0 = t.val ∧ win0_0.index t 1 = 0 :=
  (by decide +kernel : ∀ t : Fin grid0.N, _)
/-- The direction encoding's block at point `t` is block `(t, 0)`. -/
theorem idx_1 : ∀ t : Fin cfg0.N, win0_1.index t 0 = t.val ∧ win0_1.index t 1 = 0 :=
  (by decide +kernel : ∀ t : Fin grid0.N, _)
theorem idx_2 : ∀ t : Fin cfg0.N, win0_2.index t 0 = 0 ∧ win0_2.index t 1 = 0 :=
  (by decide +kernel : ∀ t : Fin grid0.N, _)
theorem idx_3 : ∀ t : Fin cfg0.N, win0_3.index t 0 = 0 ∧ win0_3.index t 1 = 0 :=
  (by decide +kernel : ∀ t : Fin grid0.N, _)
theorem idx_4 : ∀ t : Fin cfg0.N, win0_4.index t 0 = 0 ∧ win0_4.index t 1 = 0 :=
  (by decide +kernel : ∀ t : Fin grid0.N, _)
theorem idx_5 : ∀ t : Fin cfg0.N, win0_5.index t 0 = 0 ∧ win0_5.index t 1 = 0 :=
  (by decide +kernel : ∀ t : Fin grid0.N, _)
theorem idx_6 : ∀ t : Fin cfg0.N, win0_6.index t 0 = 0 ∧ win0_6.index t 1 = 0 :=
  (by decide +kernel : ∀ t : Fin grid0.N, _)
theorem idx_7 : ∀ t : Fin cfg0.N, win0_7.index t 0 = 0 ∧ win0_7.index t 1 = 0 :=
  (by decide +kernel : ∀ t : Fin grid0.N, _)
theorem idx_8 : ∀ t : Fin cfg0.N, win0_8.index t 0 = 0 ∧ win0_8.index t 1 = 0 :=
  (by decide +kernel : ∀ t : Fin grid0.N, _)
theorem idx_9 : ∀ t : Fin cfg0.N, win0_9.index t 0 = 0 ∧ win0_9.index t 1 = 0 :=
  (by decide +kernel : ∀ t : Fin grid0.N, _)
theorem idx_10 : ∀ t : Fin cfg0.N, win0_10.index t 0 = 0 ∧ win0_10.index t 1 = 0 :=
  (by decide +kernel : ∀ t : Fin grid0.N, _)
theorem idx_11 : ∀ t : Fin cfg0.N, win0_11.index t 0 = 0 ∧ win0_11.index t 1 = 0 :=
  (by decide +kernel : ∀ t : Fin grid0.N, _)
theorem idx_12 : ∀ t : Fin cfg0.N, win0_12.index t 0 = 0 ∧ win0_12.index t 1 = 0 :=
  (by decide +kernel : ∀ t : Fin grid0.N, _)
theorem idx_13 : ∀ t : Fin cfg0.N, win0_13.index t 0 = 0 ∧ win0_13.index t 1 = 0 :=
  (by decide +kernel : ∀ t : Fin grid0.N, _)
theorem idx_14 : ∀ t : Fin cfg0.N, win0_14.index t 0 = 0 ∧ win0_14.index t 1 = 0 :=
  (by decide +kernel : ∀ t : Fin grid0.N, _)
theorem idx_15 : ∀ t : Fin cfg0.N, win0_15.index t 0 = 0 ∧ win0_15.index t 1 = 0 :=
  (by decide +kernel : ∀ t : Fin grid0.N, _)
theorem idx_16 : ∀ t : Fin cfg0.N, win0_16.index t 0 = 0 ∧ win0_16.index t 1 = 0 :=
  (by decide +kernel : ∀ t : Fin grid0.N, _)
theorem idx_17 : ∀ t : Fin cfg0.N, win0_17.index t 0 = 0 ∧ win0_17.index t 1 = 0 :=
  (by decide +kernel : ∀ t : Fin grid0.N, _)

/-! ## The blocks read off their arrays -/

/-- Row `p` of the position encoding's block at point `t` is row `r = 2048 t + p` of the narrowed array. -/
theorem iblk_0 (c : Dev nD) (t : Fin cfg0.N) (p : Fin 2048) (k : Fin 63) (r : Fin 262144)
    (hr : r.val = t.val * 2048 + p.val) :
    (iblk m c 0 t : Vec Ideal S2048x63 .bf16) (ix2 p k) = (V m c main_v0 : S262144x63.Idx → Ideal .bf16) (ix2 r k) := by
  have hi := idx_0 t
  unfold iblk
  rw [View.read_apply]
  show V m c main_v0 _ = V m c main_v0 _
  refine congrArg (V m c main_v0) (funext fun a => Fin.ext ?_)
  match a with
  | ⟨0, _⟩ => show win0_0.index t 0 * 2048 + 1 * p.val = r.val; rw [hi.1, hr]; omega
  | ⟨1, _⟩ => show win0_0.index t 1 * 63 + 1 * k.val = k.val; rw [hi.2]; omega

/-- Row `p` of the direction encoding's block at point `t` is row `r = 2048 t + p` of the narrowed array. -/
theorem iblk_1 (c : Dev nD) (t : Fin cfg0.N) (p : Fin 2048) (k : Fin 27) (r : Fin 262144)
    (hr : r.val = t.val * 2048 + p.val) :
    (iblk m c 1 t : Vec Ideal S2048x27 .bf16) (ix2 p k) = (V m c main_v1 : S262144x27.Idx → Ideal .bf16) (ix2 r k) := by
  have hi := idx_1 t
  unfold iblk
  rw [View.read_apply]
  show V m c main_v1 _ = V m c main_v1 _
  refine congrArg (V m c main_v1) (funext fun a => Fin.ext ?_)
  match a with
  | ⟨0, _⟩ => show win0_1.index t 0 * 2048 + 1 * p.val = r.val; rw [hi.1, hr]; omega
  | ⟨1, _⟩ => show win0_1.index t 1 * 27 + 1 * k.val = k.val; rw [hi.2]; omega

/-- Window 2's block is its whole array at every point. -/
theorem iblk_2 (c : Dev nD) (t : Fin cfg0.N) (y : S63x256.Idx) :
    (iblk m c 2 t : Vec Ideal S63x256 .bf16) y = (V m c main_v3 : S63x256.Idx → Ideal .bf16) y := by
  have hi := idx_2 t
  unfold iblk
  rw [View.read_apply]
  show V m c main_v3 _ = V m c main_v3 _
  refine congrArg (V m c main_v3) (funext fun a => Fin.ext ?_)
  match a with
  | ⟨0, _⟩ => show win0_2.index t 0 * 63 + 1 * (y 0).val = (y 0).val; rw [hi.1]; omega
  | ⟨1, _⟩ => show win0_2.index t 1 * 256 + 1 * (y 1).val = (y 1).val; rw [hi.2]; omega

/-- Window 3's block is its whole array at every point. -/
theorem iblk_3 (c : Dev nD) (t : Fin cfg0.N) (y : S1x256.Idx) :
    (iblk m c 3 t : Vec Ideal S1x256 .f32) y = (V m c main_v36 : S1x256.Idx → Ideal .f32) y := by
  have hi := idx_3 t
  unfold iblk
  rw [View.read_apply]
  show V m c main_v36 _ = V m c main_v36 _
  refine congrArg (V m c main_v36) (funext fun a => Fin.ext ?_)
  match a with
  | ⟨0, _⟩ => show win0_3.index t 0 * 1 + 1 * (y 0).val = (y 0).val; rw [hi.1]; omega
  | ⟨1, _⟩ => show win0_3.index t 1 * 256 + 1 * (y 1).val = (y 1).val; rw [hi.2]; omega

/-- Window 4's block is its whole array at every point. -/
theorem iblk_4 (c : Dev nD) (t : Fin cfg0.N) (y : S256x256.Idx) :
    (iblk m c 4 t : Vec Ideal S256x256 .bf16) y = (V m c main_v5 : S256x256.Idx → Ideal .bf16) y := by
  have hi := idx_4 t
  unfold iblk
  rw [View.read_apply]
  show V m c main_v5 _ = V m c main_v5 _
  refine congrArg (V m c main_v5) (funext fun a => Fin.ext ?_)
  match a with
  | ⟨0, _⟩ => show win0_4.index t 0 * 256 + 1 * (y 0).val = (y 0).val; rw [hi.1]; omega
  | ⟨1, _⟩ => show win0_4.index t 1 * 256 + 1 * (y 1).val = (y 1).val; rw [hi.2]; omega

/-- Window 5's block is its whole array at every point. -/
theorem iblk_5 (c : Dev nD) (t : Fin cfg0.N) (y : S1x256.Idx) :
    (iblk m c 5 t : Vec Ideal S1x256 .f32) y = (V m c main_v37 : S1x256.Idx → Ideal .f32) y := by
  have hi := idx_5 t
  unfold iblk
  rw [View.read_apply]
  show V m c main_v37 _ = V m c main_v37 _
  refine congrArg (V m c main_v37) (funext fun a => Fin.ext ?_)
  match a with
  | ⟨0, _⟩ => show win0_5.index t 0 * 1 + 1 * (y 0).val = (y 0).val; rw [hi.1]; omega
  | ⟨1, _⟩ => show win0_5.index t 1 * 256 + 1 * (y 1).val = (y 1).val; rw [hi.2]; omega

/-- Window 6's block is its whole array at every point. -/
theorem iblk_6 (c : Dev nD) (t : Fin cfg0.N) (y : S256x256.Idx) :
    (iblk m c 6 t : Vec Ideal S256x256 .bf16) y = (V m c main_v7 : S256x256.Idx → Ideal .bf16) y := by
  have hi := idx_6 t
  unfold iblk
  rw [View.read_apply]
  show V m c main_v7 _ = V m c main_v7 _
  refine congrArg (V m c main_v7) (funext fun a => Fin.ext ?_)
  match a with
  | ⟨0, _⟩ => show win0_6.index t 0 * 256 + 1 * (y 0).val = (y 0).val; rw [hi.1]; omega
  | ⟨1, _⟩ => show win0_6.index t 1 * 256 + 1 * (y 1).val = (y 1).val; rw [hi.2]; omega

/-- Window 7's block is its whole array at every point. -/
theorem iblk_7 (c : Dev nD) (t : Fin cfg0.N) (y : S1x256.Idx) :
    (iblk m c 7 t : Vec Ideal S1x256 .f32) y = (V m c main_v38 : S1x256.Idx → Ideal .f32) y := by
  have hi := idx_7 t
  unfold iblk
  rw [View.read_apply]
  show V m c main_v38 _ = V m c main_v38 _
  refine congrArg (V m c main_v38) (funext fun a => Fin.ext ?_)
  match a with
  | ⟨0, _⟩ => show win0_7.index t 0 * 1 + 1 * (y 0).val = (y 0).val; rw [hi.1]; omega
  | ⟨1, _⟩ => show win0_7.index t 1 * 256 + 1 * (y 1).val = (y 1).val; rw [hi.2]; omega

/-- Window 8's block is its whole array at every point. -/
theorem iblk_8 (c : Dev nD) (t : Fin cfg0.N) (y : S256x256.Idx) :
    (iblk m c 8 t : Vec Ideal S256x256 .bf16) y = (V m c main_v9 : S256x256.Idx → Ideal .bf16) y := by
  have hi := idx_8 t
  unfold iblk
  rw [View.read_apply]
  show V m c main_v9 _ = V m c main_v9 _
  refine congrArg (V m c main_v9) (funext fun a => Fin.ext ?_)
  match a with
  | ⟨0, _⟩ => show win0_8.index t 0 * 256 + 1 * (y 0).val = (y 0).val; rw [hi.1]; omega
  | ⟨1, _⟩ => show win0_8.index t 1 * 256 + 1 * (y 1).val = (y 1).val; rw [hi.2]; omega

/-- Window 9's block is its whole array at every point. -/
theorem iblk_9 (c : Dev nD) (t : Fin cfg0.N) (y : S1x256.Idx) :
    (iblk m c 9 t : Vec Ideal S1x256 .f32) y = (V m c main_v39 : S1x256.Idx → Ideal .f32) y := by
  have hi := idx_9 t
  unfold iblk
  rw [View.read_apply]
  show V m c main_v39 _ = V m c main_v39 _
  refine congrArg (V m c main_v39) (funext fun a => Fin.ext ?_)
  match a with
  | ⟨0, _⟩ => show win0_9.index t 0 * 1 + 1 * (y 0).val = (y 0).val; rw [hi.1]; omega
  | ⟨1, _⟩ => show win0_9.index t 1 * 256 + 1 * (y 1).val = (y 1).val; rw [hi.2]; omega

/-- Window 10's block is its whole array at every point. -/
theorem iblk_10 (c : Dev nD) (t : Fin cfg0.N) (y : S256x256.Idx) :
    (iblk m c 10 t : Vec Ideal S256x256 .bf16) y = (V m c main_v11 : S256x256.Idx → Ideal .bf16) y := by
  have hi := idx_10 t
  unfold iblk
  rw [View.read_apply]
  show V m c main_v11 _ = V m c main_v11 _
  refine congrArg (V m c main_v11) (funext fun a => Fin.ext ?_)
  match a with
  | ⟨0, _⟩ => show win0_10.index t 0 * 256 + 1 * (y 0).val = (y 0).val; rw [hi.1]; omega
  | ⟨1, _⟩ => show win0_10.index t 1 * 256 + 1 * (y 1).val = (y 1).val; rw [hi.2]; omega

/-- Window 11's block is its whole array at every point. -/
theorem iblk_11 (c : Dev nD) (t : Fin cfg0.N) (y : S1x256.Idx) :
    (iblk m c 11 t : Vec Ideal S1x256 .f32) y = (V m c main_v40 : S1x256.Idx → Ideal .f32) y := by
  have hi := idx_11 t
  unfold iblk
  rw [View.read_apply]
  show V m c main_v40 _ = V m c main_v40 _
  refine congrArg (V m c main_v40) (funext fun a => Fin.ext ?_)
  match a with
  | ⟨0, _⟩ => show win0_11.index t 0 * 1 + 1 * (y 0).val = (y 0).val; rw [hi.1]; omega
  | ⟨1, _⟩ => show win0_11.index t 1 * 256 + 1 * (y 1).val = (y 1).val; rw [hi.2]; omega

/-- Window 12's block is its whole array at every point. -/
theorem iblk_12 (c : Dev nD) (t : Fin cfg0.N) (y : S256x256.Idx) :
    (iblk m c 12 t : Vec Ideal S256x256 .bf16) y = (V m c main_v14 : S256x256.Idx → Ideal .bf16) y := by
  have hi := idx_12 t
  unfold iblk
  rw [View.read_apply]
  show V m c main_v14 _ = V m c main_v14 _
  refine congrArg (V m c main_v14) (funext fun a => Fin.ext ?_)
  match a with
  | ⟨0, _⟩ => show win0_12.index t 0 * 256 + 1 * (y 0).val = (y 0).val; rw [hi.1]; omega
  | ⟨1, _⟩ => show win0_12.index t 1 * 256 + 1 * (y 1).val = (y 1).val; rw [hi.2]; omega

/-- Window 13's block is its whole array at every point. -/
theorem iblk_13 (c : Dev nD) (t : Fin cfg0.N) (y : S63x256.Idx) :
    (iblk m c 13 t : Vec Ideal S63x256 .bf16) y = (V m c main_v17 : S63x256.Idx → Ideal .bf16) y := by
  have hi := idx_13 t
  unfold iblk
  rw [View.read_apply]
  show V m c main_v17 _ = V m c main_v17 _
  refine congrArg (V m c main_v17) (funext fun a => Fin.ext ?_)
  match a with
  | ⟨0, _⟩ => show win0_13.index t 0 * 63 + 1 * (y 0).val = (y 0).val; rw [hi.1]; omega
  | ⟨1, _⟩ => show win0_13.index t 1 * 256 + 1 * (y 1).val = (y 1).val; rw [hi.2]; omega

/-- Window 14's block is its whole array at every point. -/
theorem iblk_14 (c : Dev nD) (t : Fin cfg0.N) (y : S1x256.Idx) :
    (iblk m c 14 t : Vec Ideal S1x256 .f32) y = (V m c main_v41 : S1x256.Idx → Ideal .f32) y := by
  have hi := idx_14 t
  unfold iblk
  rw [View.read_apply]
  show V m c main_v41 _ = V m c main_v41 _
  refine congrArg (V m c main_v41) (funext fun a => Fin.ext ?_)
  match a with
  | ⟨0, _⟩ => show win0_14.index t 0 * 1 + 1 * (y 0).val = (y 0).val; rw [hi.1]; omega
  | ⟨1, _⟩ => show win0_14.index t 1 * 256 + 1 * (y 1).val = (y 1).val; rw [hi.2]; omega

/-- Window 15's block is its whole array at every point. -/
theorem iblk_15 (c : Dev nD) (t : Fin cfg0.N) (y : S256x256.Idx) :
    (iblk m c 15 t : Vec Ideal S256x256 .bf16) y = (V m c main_v19 : S256x256.Idx → Ideal .bf16) y := by
  have hi := idx_15 t
  unfold iblk
  rw [View.read_apply]
  show V m c main_v19 _ = V m c main_v19 _
  refine congrArg (V m c main_v19) (funext fun a => Fin.ext ?_)
  match a with
  | ⟨0, _⟩ => show win0_15.index t 0 * 256 + 1 * (y 0).val = (y 0).val; rw [hi.1]; omega
  | ⟨1, _⟩ => show win0_15.index t 1 * 256 + 1 * (y 1).val = (y 1).val; rw [hi.2]; omega

/-- Window 16's block is its whole array at every point. -/
theorem iblk_16 (c : Dev nD) (t : Fin cfg0.N) (y : S1x256.Idx) :
    (iblk m c 16 t : Vec Ideal S1x256 .f32) y = (V m c main_v42 : S1x256.Idx → Ideal .f32) y := by
  have hi := idx_16 t
  unfold iblk
  rw [View.read_apply]
  show V m c main_v42 _ = V m c main_v42 _
  refine congrArg (V m c main_v42) (funext fun a => Fin.ext ?_)
  match a with
  | ⟨0, _⟩ => show win0_16.index t 0 * 1 + 1 * (y 0).val = (y 0).val; rw [hi.1]; omega
  | ⟨1, _⟩ => show win0_16.index t 1 * 256 + 1 * (y 1).val = (y 1).val; rw [hi.2]; omega

/-- Window 17's block is its whole array at every point. -/
theorem iblk_17 (c : Dev nD) (t : Fin cfg0.N) (y : S256x256.Idx) :
    (iblk m c 17 t : Vec Ideal S256x256 .bf16) y = (V m c main_v21 : S256x256.Idx → Ideal .bf16) y := by
  have hi := idx_17 t
  unfold iblk
  rw [View.read_apply]
  show V m c main_v21 _ = V m c main_v21 _
  refine congrArg (V m c main_v21) (funext fun a => Fin.ext ?_)
  match a with
  | ⟨0, _⟩ => show win0_17.index t 0 * 256 + 1 * (y 0).val = (y 0).val; rw [hi.1]; omega
  | ⟨1, _⟩ => show win0_17.index t 1 * 256 + 1 * (y 1).val = (y 1).val; rw [hi.2]; omega

end Cert.KNet

end
-- ==== Proof.KWinC.lean ====
/-
  What the kernel's blocks hold, part three: windows 18–33, each of whose blocks is its whole array at every grid
  point (block index `(0, 0)` throughout, decided once over the 128 grid points; a block's coordinate in its array is
  block index × block size + the coordinate inside the block).
-/
import proofs.«102540_j48447231098895_2_alg».proof.Proof.FramePatchKernelIdeal
import Idealize.ShloMosaic.PureOps.Ideal
import Idealize.ShloMosaic.Lib.ValueIdx
import Idealize.ShloMosaic.Lib.Pipeline.Value

noncomputable section

namespace Cert.KNet

open Cert.KernelIdeal Cert.KernelIdeal.Gen Cert.KernelIdeal.GenP Idealize.ShloMosaic Idealize.ShloMosaic.ValueIdx
  Idealize.ShloMosaic.TcCoe Idealize.SL.Sem

variable (m : (ℓ : Loc nD τ sig) → Buf (Elt Ideal) ℓ)

/-! ## The block indices, decided over the grid -/

theorem idx_18 : ∀ t : Fin cfg0.N, win0_18.index t 0 = 0 ∧ win0_18.index t 1 = 0 :=
  (by decide +kernel : ∀ t : Fin grid0.N, _)
theorem idx_19 : ∀ t : Fin cfg0.N, win0_19.index t 0 = 0 ∧ win0_19.index t 1 = 0 :=
  (by decide +kernel : ∀ t : Fin grid0.N, _)
theorem idx_20 : ∀ t : Fin cfg0.N, win0_20.index t 0 = 0 ∧ win0_20.index t 1 = 0 :=
  (by decide +kernel : ∀ t : Fin grid0.N, _)
theorem idx_21 : ∀ t : Fin cfg0.N, win0_21.index t 0 = 0 ∧ win0_21.index t 1 = 0 :=
  (by decide +kernel : ∀ t : Fin grid0.N, _)
theorem idx_22 : ∀ t : Fin cfg0.N, win0_22.index t 0 = 0 ∧ win0_22.index t 1 = 0 :=
  (by decide +kernel : ∀ t : Fin grid0.N, _)
theorem idx_23 : ∀ t : Fin cfg0.N, win0_23.index t 0 = 0 ∧ win0_23.index t 1 = 0 :=
  (by decide +kernel : ∀ t : Fin grid0.N, _)
theorem idx_24 : ∀ t : Fin cfg0.N, win0_24.index t 0 = 0 ∧ win0_24.index t 1 = 0 :=
  (by decide +kernel : ∀ t : Fin grid0.N, _)
theorem idx_25 : ∀ t : Fin cfg0.N, win0_25.index t 0 = 0 ∧ win0_25.index t 1 = 0 :=
  (by decide +kernel : ∀ t : Fin grid0.N, _)
theorem idx_26 : ∀ t : Fin cfg0.N, win0_26.index t 0 = 0 ∧ win0_26.index t 1 = 0 :=
  (by decide +kernel : ∀ t : Fin grid0.N, _)
theorem idx_27 : ∀ t : Fin cfg0.N, win0_27.index t 0 = 0 ∧ win0_27.index t 1 = 0 :=
  (by decide +kernel : ∀ t : Fin grid0.N, _)
theorem idx_28 : ∀ t : Fin cfg0.N, win0_28.index t 0 = 0 ∧ win0_28.index t 1 = 0 :=
  (by decide +kernel : ∀ t : Fin grid0.N, _)
theorem idx_29 : ∀ t : Fin cfg0.N, win0_29.index t 0 = 0 ∧ win0_29.index t 1 = 0 :=
  (by decide +kernel : ∀ t : Fin grid0.N, _)
theorem idx_30 : ∀ t : Fin cfg0.N, win0_30.index t 0 = 0 ∧ win0_30.index t 1 = 0 :=
  (by decide +kernel : ∀ t : Fin grid0.N, _)
theorem idx_31 : ∀ t : Fin cfg0.N, win0_31.index t 0 = 0 ∧ win0_31.index t 1 = 0 :=
  (by decide +kernel : ∀ t : Fin grid0.N, _)
theorem idx_32 : ∀ t : Fin cfg0.N, win0_32.index t 0 = 0 ∧ win0_32.index t 1 = 0 :=
  (by decide +kernel : ∀ t : Fin grid0.N, _)
theorem idx_33 : ∀ t : Fin cfg0.N, win0_33.index t 0 = 0 ∧ win0_33.index t 1 = 0 :=
  (by decide +kernel : ∀ t : Fin grid0.N, _)

/-! ## The blocks read off their arrays -/

/-- Window 18's block is its whole array at every point. -/
theorem iblk_18 (c : Dev nD) (t : Fin cfg0.N) (y : S1x256.Idx) :
    (iblk m c 18 t : Vec Ideal S1x256 .f32) y = (V m c main_v43 : S1x256.Idx → Ideal .f32) y := by
  have hi := idx_18 t
  unfold iblk
  rw [View.read_apply]
  show V m c main_v43 _ = V m c main_v43 _
  refine congrArg (V m c main_v43) (funext fun a => Fin.ext ?_)
  match a with
  | ⟨0, _⟩ => show win0_18.index t 0 * 1 + 1 * (y 0).val = (y 0).val; rw [hi.1]; omega
  | ⟨1, _⟩ => show win0_18.index t 1 * 256 + 1 * (y 1).val = (y 1).val; rw [hi.2]; omega

/-- Window 19's block is its whole array at every point. -/
theorem iblk_19 (c : Dev nD) (t : Fin cfg0.N) (y : S1x256.Idx) :
    (iblk m c 19 t : Vec Ideal S1x256 .f32) y = (V m c main_arg18 : S1x256.Idx → Ideal .f32) y := by
  have hi := idx_19 t
  unfold iblk
  rw [View.read_apply]
  show V m c main_arg18 _ = V m c main_arg18 _
  refine congrArg (V m c main_arg18) (funext fun a => Fin.ext ?_)
  match a with
  | ⟨0, _⟩ => show win0_19.index t 0 * 1 + 1 * (y 0).val = (y 0).val; rw [hi.1]; omega
  | ⟨1, _⟩ => show win0_19.index t 1 * 256 + 1 * (y 1).val = (y 1).val; rw [hi.2]; omega

/-- Window 20's block is its whole array at every point. -/
theorem iblk_20 (c : Dev nD) (t : Fin cfg0.N) (y : S1x1.Idx) :
    (iblk m c 20 t : Vec Ideal S1x1 .f32) y = (V m c main_v44 : S1x1.Idx → Ideal .f32) y := by
  have hi := idx_20 t
  unfold iblk
  rw [View.read_apply]
  show V m c main_v44 _ = V m c main_v44 _
  refine congrArg (V m c main_v44) (funext fun a => Fin.ext ?_)
  match a with
  | ⟨0, _⟩ => show win0_20.index t 0 * 1 + 1 * (y 0).val = (y 0).val; rw [hi.1]; omega
  | ⟨1, _⟩ => show win0_20.index t 1 * 1 + 1 * (y 1).val = (y 1).val; rw [hi.2]; omega

/-- Window 21's block is its whole array at every point. -/
theorem iblk_21 (c : Dev nD) (t : Fin cfg0.N) (y : S256x256.Idx) :
    (iblk m c 21 t : Vec Ideal S256x256 .bf16) y = (V m c main_v23 : S256x256.Idx → Ideal .bf16) y := by
  have hi := idx_21 t
  unfold iblk
  rw [View.read_apply]
  show V m c main_v23 _ = V m c main_v23 _
  refine congrArg (V m c main_v23) (funext fun a => Fin.ext ?_)
  match a with
  | ⟨0, _⟩ => show win0_21.index t 0 * 256 + 1 * (y 0).val = (y 0).val; rw [hi.1]; omega
  | ⟨1, _⟩ => show win0_21.index t 1 * 256 + 1 * (y 1).val = (y 1).val; rw [hi.2]; omega

/-- Window 22's block is its whole array at every point. -/
theorem iblk_22 (c : Dev nD) (t : Fin cfg0.N) (y : S1x256.Idx) :
    (iblk m c 22 t : Vec Ideal S1x256 .f32) y = (V m c main_v45 : S1x256.Idx → Ideal .f32) y := by
  have hi := idx_22 t
  unfold iblk
  rw [View.read_apply]
  show V m c main_v45 _ = V m c main_v45 _
  refine congrArg (V m c main_v45) (funext fun a => Fin.ext ?_)
  match a with
  | ⟨0, _⟩ => show win0_22.index t 0 * 1 + 1 * (y 0).val = (y 0).val; rw [hi.1]; omega
  | ⟨1, _⟩ => show win0_22.index t 1 * 256 + 1 * (y 1).val = (y 1).val; rw [hi.2]; omega

/-- Window 23's block is its whole array at every point. -/
theorem iblk_23 (c : Dev nD) (t : Fin cfg0.N) (y : S256x128.Idx) :
    (iblk m c 23 t : Vec Ideal S256x128 .bf16) y = (V m c main_v26 : S256x128.Idx → Ideal .bf16) y := by
  have hi := idx_23 t
  unfold iblk
  rw [View.read_apply]
  show V m c main_v26 _ = V m c main_v26 _
  refine congrArg (V m c main_v26) (funext fun a => Fin.ext ?_)
  match a with
  | ⟨0, _⟩ => show win0_23.index t 0 * 256 + 1 * (y 0).val = (y 0).val; rw [hi.1]; omega
  | ⟨1, _⟩ => show win0_23.index t 1 * 128 + 1 * (y 1).val = (y 1).val; rw [hi.2]; omega

/-- Window 24's block is its whole array at every point. -/
theorem iblk_24 (c : Dev nD) (t : Fin cfg0.N) (y : S27x128.Idx) :
    (iblk m c 24 t : Vec Ideal S27x128 .bf16) y = (V m c main_v29 : S27x128.Idx → Ideal .bf16) y := by
  have hi := idx_24 t
  unfold iblk
  rw [View.read_apply]
  show V m c main_v29 _ = V m c main_v29 _
  refine congrArg (V m c main_v29) (funext fun a => Fin.ext ?_)
  match a with
  | ⟨0, _⟩ => show win0_24.index t 0 * 27 + 1 * (y 0).val = (y 0).val; rw [hi.1]; omega
  | ⟨1, _⟩ => show win0_24.index t 1 * 128 + 1 * (y 1).val = (y 1).val; rw [hi.2]; omega

/-- Window 25's block is its whole array at every point. -/
theorem iblk_25 (c : Dev nD) (t : Fin cfg0.N) (y : S1x128.Idx) :
    (iblk m c 25 t : Vec Ideal S1x128 .f32) y = (V m c main_v46 : S1x128.Idx → Ideal .f32) y := by
  have hi := idx_25 t
  unfold iblk
  rw [View.read_apply]
  show V m c main_v46 _ = V m c main_v46 _
  refine congrArg (V m c main_v46) (funext fun a => Fin.ext ?_)
  match a with
  | ⟨0, _⟩ => show win0_25.index t 0 * 1 + 1 * (y 0).val = (y 0).val; rw [hi.1]; omega
  | ⟨1, _⟩ => show win0_25.index t 1 * 128 + 1 * (y 1).val = (y 1).val; rw [hi.2]; omega

/-- Window 26's block is its whole array at every point. -/
theorem iblk_26 (c : Dev nD) (t : Fin cfg0.N) (y : S128x128.Idx) :
    (iblk m c 26 t : Vec Ideal S128x128 .bf16) y = (V m c main_v31 : S128x128.Idx → Ideal .bf16) y := by
  have hi := idx_26 t
  unfold iblk
  rw [View.read_apply]
  show V m c main_v31 _ = V m c main_v31 _
  refine congrArg (V m c main_v31) (funext fun a => Fin.ext ?_)
  match a with
  | ⟨0, _⟩ => show win0_26.index t 0 * 128 + 1 * (y 0).val = (y 0).val; rw [hi.1]; omega
  | ⟨1, _⟩ => show win0_26.index t 1 * 128 + 1 * (y 1).val = (y 1).val; rw [hi.2]; omega

/-- Window 27's block is its whole array at every point. -/
theorem iblk_27 (c : Dev nD) (t : Fin cfg0.N) (y : S1x128.Idx) :
    (iblk m c 27 t : Vec Ideal S1x128 .f32) y = (V m c main_v47 : S1x128.Idx → Ideal .f32) y := by
  have hi := idx_27 t
  unfold iblk
  rw [View.read_apply]
  show V m c main_v47 _ = V m c main_v47 _
  refine congrArg (V m c main_v47) (funext fun a => Fin.ext ?_)
  match a with
  | ⟨0, _⟩ => show win0_27.index t 0 * 1 + 1 * (y 0).val = (y 0).val; rw [hi.1]; omega
  | ⟨1, _⟩ => show win0_27.index t 1 * 128 + 1 * (y 1).val = (y 1).val; rw [hi.2]; omega

/-- Window 28's block is its whole array at every point. -/
theorem iblk_28 (c : Dev nD) (t : Fin cfg0.N) (y : S128x128.Idx) :
    (iblk m c 28 t : Vec Ideal S128x128 .bf16) y = (V m c main_v33 : S128x128.Idx → Ideal .bf16) y := by
  have hi := idx_28 t
  unfold iblk
  rw [View.read_apply]
  show V m c main_v33 _ = V m c main_v33 _
  refine congrArg (V m c main_v33) (funext fun a => Fin.ext ?_)
  match a with
  | ⟨0, _⟩ => show win0_28.index t 0 * 128 + 1 * (y 0).val = (y 0).val; rw [hi.1]; omega
  | ⟨1, _⟩ => show win0_28.index t 1 * 128 + 1 * (y 1).val = (y 1).val; rw [hi.2]; omega

/-- Window 29's block is its whole array at every point. -/
theorem iblk_29 (c : Dev nD) (t : Fin cfg0.N) (y : S1x128.Idx) :
    (iblk m c 29 t : Vec Ideal S1x128 .f32) y = (V m c main_v48 : S1x128.Idx → Ideal .f32) y := by
  have hi := idx_29 t
  unfold iblk
  rw [View.read_apply]
  show V m c main_v48 _ = V m c main_v48 _
  refine congrArg (V m c main_v48) (funext fun a => Fin.ext ?_)
  match a with
  | ⟨0, _⟩ => show win0_29.index t 0 * 1 + 1 * (y 0).val = (y 0).val; rw [hi.1]; omega
  | ⟨1, _⟩ => show win0_29.index t 1 * 128 + 1 * (y 1).val = (y 1).val; rw [hi.2]; omega

/-- Window 30's block is its whole array at every point. -/
theorem iblk_30 (c : Dev nD) (t : Fin cfg0.N) (y : S128x128.Idx) :
    (iblk m c 30 t : Vec Ideal S128x128 .bf16) y = (V m c main_v35 : S128x128.Idx → Ideal .bf16) y := by
  have hi := idx_30 t
  unfold iblk
  rw [View.read_apply]
  show V m c main_v35 _ = V m c main_v35 _
  refine congrArg (V m c main_v35) (funext fun a => Fin.ext ?_)
  match a with
  | ⟨0, _⟩ => show win0_30.index t 0 * 128 + 1 * (y 0).val = (y 0).val; rw [hi.1]; omega
  | ⟨1, _⟩ => show win0_30.index t 1 * 128 + 1 * (y 1).val = (y 1).val; rw [hi.2]; omega

/-- Window 31's block is its whole array at every point. -/
theorem iblk_31 (c : Dev nD) (t : Fin cfg0.N) (y : S1x128.Idx) :
    (iblk m c 31 t : Vec Ideal S1x128 .f32) y = (V m c main_v49 : S1x128.Idx → Ideal .f32) y := by
  have hi := idx_31 t
  unfold iblk
  rw [View.read_apply]
  show V m c main_v49 _ = V m c main_v49 _
  refine congrArg (V m c main_v49) (funext fun a => Fin.ext ?_)
  match a with
  | ⟨0, _⟩ => show win0_31.index t 0 * 1 + 1 * (y 0).val = (y 0).val; rw [hi.1]; omega
  | ⟨1, _⟩ => show win0_31.index t 1 * 128 + 1 * (y 1).val = (y 1).val; rw [hi.2]; omega

/-- Window 32's block is its whole array at every point. -/
theorem iblk_32 (c : Dev nD) (t : Fin cfg0.N) (y : S3x128.Idx) :
    (iblk m c 32 t : Vec Ideal S3x128 .f32) y = (V m c main_arg30 : S3x128.Idx → Ideal .f32) y := by
  have hi := idx_32 t
  unfold iblk
  rw [View.read_apply]
  show V m c main_arg30 _ = V m c main_arg30 _
  refine congrArg (V m c main_arg30) (funext fun a => Fin.ext ?_)
  match a with
  | ⟨0, _⟩ => show win0_32.index t 0 * 3 + 1 * (y 0).val = (y 0).val; rw [hi.1]; omega
  | ⟨1, _⟩ => show win0_32.index t 1 * 128 + 1 * (y 1).val = (y 1).val; rw [hi.2]; omega

/-- Window 33's block is its whole array at every point. -/
theorem iblk_33 (c : Dev nD) (t : Fin cfg0.N) (y : S1x3.Idx) :
    (iblk m c 33 t : Vec Ideal S1x3 .f32) y = (V m c main_v50 : S1x3.Idx → Ideal .f32) y := by
  have hi := idx_33 t
  unfold iblk
  rw [View.read_apply]
  show V m c main_v50 _ = V m c main_v50 _
  refine congrArg (V m c main_v50) (funext fun a => Fin.ext ?_)
  match a with
  | ⟨0, _⟩ => show win0_33.index t 0 * 1 + 1 * (y 0).val = (y 0).val; rw [hi.1]; omega
  | ⟨1, _⟩ => show win0_33.index t 1 * 3 + 1 * (y 1).val = (y 1).val; rw [hi.2]; omega

end Cert.KNet

end
-- ==== Proof.KWin.lean ====
/-
  What the kernel's blocks hold, part four: the blocks as the network reads them.

  With each block read off its array (parts two and three) and each prepared array read at an index (part one),
  every hypothesis of `BlockReads` follows: the loaded weight block at `(k, n)` is the network's weight from input
  feature `k` to output feature `n`, the loaded bias block at `(0, n)` is the network's bias; and row `p` of an
  encoding's block at grid point `t` is row `2048 t + p` of the argument array.
-/
import proofs.«102540_j48447231098895_2_alg».proof.Proof.FramePatchKernelIdeal
import proofs.«102540_j48447231098895_2_alg».proof.Proof.KWinA
import proofs.«102540_j48447231098895_2_alg».proof.Proof.KWinB
import proofs.«102540_j48447231098895_2_alg».proof.Proof.KWinC
import proofs.«102540_j48447231098895_2_alg».proof.Proof.KPay

noncomputable section

namespace Cert.KNet

open Cert.KernelIdeal Cert.KernelIdeal.Gen Cert.KernelIdeal.GenP Idealize.ShloMosaic Idealize.ShloMosaic.ValueIdx
  Idealize.ShloMosaic.TcCoe Idealize.SL.Sem

variable (m : (ℓ : Loc nD τ sig) → Buf (Elt Ideal) ℓ)

/-! ## The network's weights, and the blocks as the network reads them -/

/-- The network's weights read off the argument arrays of the program. -/
abbrev accM (c : Dev nD) : Net.Acc :=
  Net.accOf
    (m ((c : Thread nD τ).loc main_arg2) : Net.Mat 256 63) (m ((c : Thread nD τ).loc main_arg3) : Net.Vc 256)
    (m ((c : Thread nD τ).loc main_arg4) : Net.Mat 256 256) (m ((c : Thread nD τ).loc main_arg5) : Net.Vc 256)
    (m ((c : Thread nD τ).loc main_arg6) : Net.Mat 256 256) (m ((c : Thread nD τ).loc main_arg7) : Net.Vc 256)
    (m ((c : Thread nD τ).loc main_arg8) : Net.Mat 256 256) (m ((c : Thread nD τ).loc main_arg9) : Net.Vc 256)
    (m ((c : Thread nD τ).loc main_arg10) : Net.Mat 256 256) (m ((c : Thread nD τ).loc main_arg11) : Net.Vc 256)
    (m ((c : Thread nD τ).loc main_arg12) : Net.Mat 256 319) (m ((c : Thread nD τ).loc main_arg13) : Net.Vc 256)
    (m ((c : Thread nD τ).loc main_arg14) : Net.Mat 256 256) (m ((c : Thread nD τ).loc main_arg15) : Net.Vc 256)
    (m ((c : Thread nD τ).loc main_arg16) : Net.Mat 256 256) (m ((c : Thread nD τ).loc main_arg17) : Net.Vc 256)
    (m ((c : Thread nD τ).loc main_arg18) : Net.Mat 1 256) (m ((c : Thread nD τ).loc main_arg19) : Net.Vc 1)
    (m ((c : Thread nD τ).loc main_arg20) : Net.Mat 256 256) (m ((c : Thread nD τ).loc main_arg21) : Net.Vc 256)
    (m ((c : Thread nD τ).loc main_arg22) : Net.Mat 128 283) (m ((c : Thread nD τ).loc main_arg23) : Net.Vc 128)
    (m ((c : Thread nD τ).loc main_arg24) : Net.Mat 128 128) (m ((c : Thread nD τ).loc main_arg25) : Net.Vc 128)
    (m ((c : Thread nD τ).loc main_arg26) : Net.Mat 128 128) (m ((c : Thread nD τ).loc main_arg27) : Net.Vc 128)
    (m ((c : Thread nD τ).loc main_arg28) : Net.Mat 128 128) (m ((c : Thread nD τ).loc main_arg29) : Net.Vc 128)
    (m ((c : Thread nD τ).loc main_arg30) : Net.Mat 3 128) (m ((c : Thread nD τ).loc main_arg31) : Net.Vc 3)

/-- Every weight and bias block the kernel loads, at every grid point, holds the network's weights. -/
theorem blockReads (c : Dev nD) (t : Fin cfg0.N) :
    BlockReads (accM m c)
      (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t)
      (iblk m c 14 t) (iblk m c 15 t) (iblk m c 16 t) (iblk m c 17 t) (iblk m c 18 t) (iblk m c 19 t)
      (iblk m c 20 t) (iblk m c 21 t) (iblk m c 22 t) (iblk m c 23 t) (iblk m c 24 t) (iblk m c 25 t)
      (iblk m c 26 t) (iblk m c 27 t) (iblk m c 28 t) (iblk m c 29 t) (iblk m c 30 t) (iblk m c 31 t)
      (iblk m c 32 t) (iblk m c 33 t) where
  hW0 := fun k n => (iblk_2 m c t (ix2 k n)).trans (read_v3 m c k n)
  hW1 := fun k n => (iblk_4 m c t (ix2 k n)).trans (read_v5 m c k n)
  hW2 := fun k n => (iblk_6 m c t (ix2 k n)).trans (read_v7 m c k n)
  hW3 := fun k n => (iblk_8 m c t (ix2 k n)).trans (read_v9 m c k n)
  hW4 := fun k n => (iblk_10 m c t (ix2 k n)).trans (read_v11 m c k n)
  hW5a := fun k n => (iblk_12 m c t (ix2 k n)).trans (read_v14 m c k n)
  hW5b := fun k n => (iblk_13 m c t (ix2 k n)).trans (read_v17 m c k n)
  hW6 := fun k n => (iblk_15 m c t (ix2 k n)).trans (read_v19 m c k n)
  hW7 := fun k n => (iblk_17 m c t (ix2 k n)).trans (read_v21 m c k n)
  hW8 := fun k n => (iblk_21 m c t (ix2 k n)).trans (read_v23 m c k n)
  hW9a := fun k n => (iblk_23 m c t (ix2 k n)).trans (read_v26 m c k n)
  hW9b := fun k n => (iblk_24 m c t (ix2 k n)).trans (read_v29 m c k n)
  hW10 := fun k n => (iblk_26 m c t (ix2 k n)).trans (read_v31 m c k n)
  hW11 := fun k n => (iblk_28 m c t (ix2 k n)).trans (read_v33 m c k n)
  hW12 := fun k n => (iblk_30 m c t (ix2 k n)).trans (read_v35 m c k n)
  hb0 := fun n => (iblk_3 m c t (ix2 (0 : Fin 1) n)).trans (read_v36 m c 0 n)
  hb1 := fun n => (iblk_5 m c t (ix2 (0 : Fin 1) n)).trans (read_v37 m c 0 n)
  hb2 := fun n => (iblk_7 m c t (ix2 (0 : Fin 1) n)).trans (read_v38 m c 0 n)
  hb3 := fun n => (iblk_9 m c t (ix2 (0 : Fin 1) n)).trans (read_v39 m c 0 n)
  hb4 := fun n => (iblk_11 m c t (ix2 (0 : Fin 1) n)).trans (read_v40 m c 0 n)
  hb5 := fun n => (iblk_14 m c t (ix2 (0 : Fin 1) n)).trans (read_v41 m c 0 n)
  hb6 := fun n => (iblk_16 m c t (ix2 (0 : Fin 1) n)).trans (read_v42 m c 0 n)
  hb7 := fun n => (iblk_18 m c t (ix2 (0 : Fin 1) n)).trans (read_v43 m c 0 n)
  hb8 := fun n => (iblk_22 m c t (ix2 (0 : Fin 1) n)).trans (read_v45 m c 0 n)
  hb9 := fun n => (iblk_25 m c t (ix2 (0 : Fin 1) n)).trans (read_v46 m c 0 n)
  hb10 := fun n => (iblk_27 m c t (ix2 (0 : Fin 1) n)).trans (read_v47 m c 0 n)
  hb11 := fun n => (iblk_29 m c t (ix2 (0 : Fin 1) n)).trans (read_v48 m c 0 n)
  hb12 := fun n => (iblk_31 m c t (ix2 (0 : Fin 1) n)).trans (read_v49 m c 0 n)
  hws := fun k => (iblk_19 m c t (ix2 (0 : Fin 1) k)).trans (congrFun (V_main_arg18 m c) (ix2 (0 : Fin 1) k))
  hbs := fun u => (iblk_20 m c t (ix2 (0 : Fin 1) u)).trans ((read_v44 m c 0 u).trans (by rw [show u = (0 : Fin 1) from Subsingleton.elim _ _]; rfl))
  hwr := fun j k => (iblk_32 m c t (ix2 j k)).trans (congrFun (V_main_arg30 m c) (ix2 j k))
  hbr := fun j => (iblk_33 m c t (ix2 (0 : Fin 1) j)).trans (read_v50 m c 0 j)

/-- Row `p` of the position encoding's block at point `t` is row `2048 t + p` of the argument. -/
theorem xrow_read (c : Dev nD) (t : Fin cfg0.N) (p : Fin 2048) (k : Fin 63) :
    (iblk m c 0 t : Vec Ideal S2048x63 .bf16) (ix2 p k)
      = (m ((c : Thread nD τ).loc main_arg0) : S262144x63.Idx → Ideal .f32) (ix2 (⟨t.val * 2048 + p.val, by
          have := t.isLt; have := p.isLt; have h : cfg0.N = 128 := N_0; omega⟩ : Fin 262144) k) :=
  (iblk_0 m c t p k _ rfl).trans (read_v0 m c _ k)

/-- Row `p` of the direction encoding's block at point `t` is row `2048 t + p` of the argument. -/
theorem drow_read (c : Dev nD) (t : Fin cfg0.N) (p : Fin 2048) (k : Fin 27) :
    (iblk m c 1 t : Vec Ideal S2048x27 .bf16) (ix2 p k)
      = (m ((c : Thread nD τ).loc main_arg1) : S262144x27.Idx → Ideal .f32) (ix2 (⟨t.val * 2048 + p.val, by
          have := t.isLt; have := p.isLt; have h : cfg0.N = 128 := N_0; omega⟩ : Fin 262144) k) :=
  (iblk_1 m c t p k _ rfl).trans (read_v1 m c _ k)

end Cert.KNet

end
-- ==== Proof.KFinal.lean ====
/-
  The packed output array after the run, and the two results cut out of it.

  Grid point `t` writes back rows `2048 t … 2048 t + 2047` of the packed `[262144, 4]` array, and what it writes is the
  network at those rows of the encodings (the block lemma of the body, with each weight block read off its argument
  array and the point's block of an encoding read as those rows of it). The 128 points' blocks cover the array (row
  `r` is in the block of point `r / 2048`), so the array ends holding, at `(r, j)`, colour channel `j` of row `r` for
  `j < 3` and the density of row `r` for `j = 3`. The program's two results are the slices `[:, 0:3]` and `[:, 3:4]` of it.
-/
import proofs.«102540_j48447231098895_2_alg».proof.Proof.FramePatchKernelIdeal
import proofs.«102540_j48447231098895_2_alg».proof.Proof.KOut
import proofs.«102540_j48447231098895_2_alg».proof.Proof.KWin

set_option maxHeartbeats 2000000
set_option maxRecDepth 16384

noncomputable section

namespace Cert.KNet

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

/-- The position encodings and the direction encodings, as matrices of extended reals. -/
abbrev encX (c : Dev nD) : Net.Mat 262144 63 := m ((c : Thread nD τ).loc main_arg0)
abbrev encD (c : Dev nD) : Net.Mat 262144 27 := m ((c : Thread nD τ).loc main_arg1)

/-- What the packed array ends holding, index by index. -/
def outSpec (A : Net.Acc) (X : Net.Mat 262144 63) (D : Net.Mat 262144 27) : S262144x4.Idx → Elt Ideal .f32 := fun i =>
  if h : (i 1).val < 3 then Net.rgb A (Net.row X (i 0)) (Net.row D (i 0)) ⟨(i 1).val, h⟩ else Net.sig A (Net.row X (i 0))

/-- The output window's block index at point `t` is `(t, 0)`, decided over the 128 points. -/
theorem idx34 : ∀ t : Fin cfg0.N, win0_34.index t (0 : Fin 2) = t.val ∧ win0_34.index t (1 : Fin 2) = 0 :=
  (by decide +kernel : ∀ t : Fin grid0.N, win0_34.index t (0 : Fin 2) = t.val ∧ win0_34.index t (1 : Fin 2) = 0)

/-- WHAT POINT `t` WRITES BACK is block `t` of `outSpec`. -/
theorem flushed_eq (c : Dev nD) (t : Fin cfg0.N) :
    (dats m 0 c).flushed 34 t = ((cfg0.win 34).blk t).view.read (Elt Ideal) (outSpec (accM m c) (encX m c) (encD m c)) := by
  show (cfg0.win 34).cut (grid0.coords t) ((dats m 0 c).after 34 t) = _
  rw [after0_34]
  funext y
  show out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) y = outSpec (accM m c) (encX m c) (encD m c) (((cfg0.win 34).blk t).view.emb y)
  rw [out34_apply (accM m c) _ _ _ _ _ _ _ _ _ _ _ _ _ _ _ _ _ _ _ _ _ _ _ _ _ _ _ _ _ _ _ _ _ _ (blockReads m c t) y]
  have e0 : ((((cfg0.win 34).blk t).view.emb y) 0).val = t.val * 2048 + (y 0).val := by
    show win0_34.index t (0 : Fin 2) * 2048 + 1 * (y 0).val = _
    rw [(idx34 t).1]; omega
  have e1 : ((((cfg0.win 34).blk t).view.emb y) 1).val = (y 1).val := by
    show win0_34.index t (1 : Fin 2) * 4 + 1 * (y 1).val = _
    rw [(idx34 t).2]; omega
  have hx : (fun k => (iblk m c 0 t : Vec Ideal S2048x63 .bf16) (ix2 (y 0) k)) = Net.row (encX m c) ((((cfg0.win 34).blk t).view.emb y) 0) :=
    funext fun k => (xrow_read m c t (y 0) k).trans (congrArg (fun r => (encX m c) (ix2 r k)) (Fin.ext e0.symm))
  have hd : (fun k => (iblk m c 1 t : Vec Ideal S2048x27 .bf16) (ix2 (y 0) k)) = Net.row (encD m c) ((((cfg0.win 34).blk t).view.emb y) 0) :=
    funext fun k => (drow_read m c t (y 0) k).trans (congrArg (fun r => (encD m c) (ix2 r k)) (Fin.ext e0.symm))
  unfold blockSpec outSpec
  rw [hx, hd]
  by_cases h : (y 1).val < 3
  · rw [dif_pos h, dif_pos (show ((((cfg0.win 34).blk t).view.emb y) 1).val < 3 by rw [e1]; exact h)]
    exact congrArg _ (Fin.ext e1.symm)
  · rw [dif_neg h, dif_neg (show ¬ ((((cfg0.win 34).blk t).view.emb y) 1).val < 3 by rw [e1]; exact h)]

/-- An index of the packed array is in point `t`'s block iff each coordinate is in the block's range on its axis. -/
theorem mem_blk34 (t : Fin cfg0.N) (i : S262144x4.Idx) :
    i ∈ ((cfg0.win 34).blk t).view.set ↔ ∀ a : Fin 2, win0_34.index t a * S2048x4.size a ≤ (i a).val ∧ (i a).val < win0_34.index t a * S2048x4.size a + S2048x4.size a := by
  show i ∈ ((View.whole main_v51).slice (win0_34.rect t)).set ↔ _
  rw [View.set_slice_whole, Rect.mem_set_unit]
  exact Iff.rfl

/-- The blocks cover the array: row `r` is in the block of point `r / 2048`. -/
theorem cover34 (i : S262144x4.Idx) : ∃ t : Fin cfg0.N, (cfg0.win 34).flush t = true ∧ i ∈ ((cfg0.win 34).blk t).view.set := by
  have hi0 : (i 0).val < 262144 := (i 0).isLt
  have hi1 : (i 1).val < 4 := (i 1).isLt
  have hN : cfg0.N = 128 := N_0
  refine ⟨⟨(i 0).val / 2048, by rw [hN]; omega⟩, flush0_34 _, ?_⟩
  rw [mem_blk34]
  intro a
  match a with
  | ⟨0, _⟩ =>
    show win0_34.index _ (0 : Fin 2) * 2048 ≤ (i 0).val ∧ (i 0).val < win0_34.index _ (0 : Fin 2) * 2048 + 2048
    rw [(idx34 _).1]
    show (i 0).val / 2048 * 2048 ≤ (i 0).val ∧ (i 0).val < (i 0).val / 2048 * 2048 + 2048
    omega
  | ⟨1, _⟩ =>
    show win0_34.index _ (1 : Fin 2) * 4 ≤ (i 1).val ∧ (i 1).val < win0_34.index _ (1 : Fin 2) * 4 + 4
    rw [(idx34 _).2]
    omega

/-- THE PACKED ARRAY after the run. -/
theorem final34 (c : Dev nD) : (dats m 0 c).arrAt 34 cfg0.N = outSpec (accM m c) (encX m c) (encD m c) :=
  (dats m 0 c).arrAt_eq_of_cover 34 _ (fun t _ => flushed_eq m c t) (fun i => cover34 i)

/-- The colour result: channel `j` of row `r`. -/
def resRgb (c : Dev nD) : Buf (Elt Ideal) ((c : Thread nD τ).loc main_v52) := fun i =>
  Net.rgb (accM m c) (Net.row (encX m c) (i 0)) (Net.row (encD m c) (i 0)) (i 1)

/-- The density result of row `r`. -/
def resSig (c : Dev nD) : Buf (Elt Ideal) ((c : Thread nD τ).loc main_v53) := fun i =>
  Net.sig (accM m c) (Net.row (encX m c) (i 0))

/-- The first slice after the region. -/
theorem tail_rgb (c : Dev nD) :
    Pipeline.afterTail₀ cfgs (dats m) 0 (V0 m) [hostOps1] c main_v52 = resRgb m c := by
  unfold Pipeline.afterTail₀
  show StableHlo.after hostOps1 _ (Proc.devRef .tc main_v52) = _
  after_results
  rw [show Pipeline.withArrays (cfgs 0).spec c (V0 m c) (fun w => (dats m 0 c).arrAt w (cfgs 0).N) (Proc.devRef .tc main_v51) = _ from
    (Pipeline.withArrays_arr spec0 launch0.win.arr_inj c _ _ 34).trans (final34 m c)]
  funext i
  obtain ⟨r, j, rfl⟩ : ∃ (r : Fin 262144) (j : Fin 3), i = ix2 r j := ⟨i 0, i 1, eq_ix2 i⟩
  refine (slice2_axis1_apply 0 _ _ r j (⟨j.val, by omega⟩ : Fin 4) (by simp)).trans ?_
  unfold outSpec resRgb
  rw [dif_pos (show ((ix2 r (⟨j.val, by omega⟩ : Fin 4) : S262144x4.Idx) 1).val < 3 from j.isLt)]
  rfl

/-- The second slice after the region. -/
theorem tail_sig (c : Dev nD) :
    Pipeline.afterTail₀ cfgs (dats m) 0 (V0 m) [hostOps1] c main_v53 = resSig m c := by
  unfold Pipeline.afterTail₀
  show StableHlo.after hostOps1 _ (Proc.devRef .tc main_v53) = _
  after_results
  rw [show Pipeline.withArrays (cfgs 0).spec c (V0 m c) (fun w => (dats m 0 c).arrAt w (cfgs 0).N) (Proc.devRef .tc main_v51) = _ from
    (Pipeline.withArrays_arr spec0 launch0.win.arr_inj c _ _ 34).trans (final34 m c)]
  funext i
  obtain ⟨r, u, rfl⟩ : ∃ (r : Fin 262144) (u : Fin 1), i = ix2 r u := ⟨i 0, i 1, eq_ix2 i⟩
  refine (slice2_axis1_apply 3 _ _ r u (3 : Fin 4) (by simp)).trans ?_
  unfold outSpec resSig
  rw [dif_neg (show ¬ ((ix2 r (3 : Fin 4) : S262144x4.Idx) 1).val < 3 by show ¬ (3 : Fin 4).val < 3; decide)]
  rfl

/-- THE RUN of the idealized kernel program: both results at the network of the argument arrays, the arguments unchanged. -/
theorem krun : θ_run defs (onTc (τ := τ) (main (F := Ideal))) ⟨m, fun _ => 0, ρ⟩ (fun r => ∀ c : Dev nD,
      r.2.mem ((c.tc : Thread nD τ).loc main_v52) = resRgb m c
      ∧ r.2.mem ((c.tc : Thread nD τ).loc main_v53) = resSig m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun _ h c => ⟨((h c).2 main_v52 (Pipeline.mem_restRefs_of main_v52 (by decide) (by decide))).trans (tail_rgb m c),
      ((h c).2 main_v53 (Pipeline.mem_restRefs_of main_v53 (by decide) (by decide))).trans (tail_sig m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      ((h c).1 19).trans (((dats m 0 c).arrAt_in 19 rfl _).trans ((A_eq m c 19).trans (V_main_arg18 m c))),
      (((h c).2 main_arg19 (Pipeline.mem_restRefs_of main_arg19 (by decide) (by decide))).trans (W_main_arg19 m (dats m) c)),
      (((h c).2 main_arg20 (Pipeline.mem_restRefs_of main_arg20 (by decide) (by decide))).trans (W_main_arg20 m (dats m) c)),
      (((h c).2 main_arg21 (Pipeline.mem_restRefs_of main_arg21 (by decide) (by decide))).trans (W_main_arg21 m (dats m) c)),
      (((h c).2 main_arg22 (Pipeline.mem_restRefs_of main_arg22 (by decide) (by decide))).trans (W_main_arg22 m (dats m) c)),
      (((h c).2 main_arg23 (Pipeline.mem_restRefs_of main_arg23 (by decide) (by decide))).trans (W_main_arg23 m (dats m) c)),
      (((h c).2 main_arg24 (Pipeline.mem_restRefs_of main_arg24 (by decide) (by decide))).trans (W_main_arg24 m (dats m) c)),
      (((h c).2 main_arg25 (Pipeline.mem_restRefs_of main_arg25 (by decide) (by decide))).trans (W_main_arg25 m (dats m) c)),
      (((h c).2 main_arg26 (Pipeline.mem_restRefs_of main_arg26 (by decide) (by decide))).trans (W_main_arg26 m (dats m) c)),
      (((h c).2 main_arg27 (Pipeline.mem_restRefs_of main_arg27 (by decide) (by decide))).trans (W_main_arg27 m (dats m) c)),
      (((h c).2 main_arg28 (Pipeline.mem_restRefs_of main_arg28 (by decide) (by decide))).trans (W_main_arg28 m (dats m) c)),
      (((h c).2 main_arg29 (Pipeline.mem_restRefs_of main_arg29 (by decide) (by decide))).trans (W_main_arg29 m (dats m) c)),
      ((h c).1 32).trans (((dats m 0 c).arrAt_in 32 rfl _).trans ((A_eq m c 32).trans (V_main_arg30 m c))),
      (((h c).2 main_arg31 (Pipeline.mem_restRefs_of main_arg31 (by decide) (by decide))).trans (W_main_arg31 m (dats m) c))⟩) (run_main m ρ)

end Cert.KNet

end
-- ==== Proof.Ref.lean ====
/-
  The reference program computes the network of `Net`, row by row.

  Each dense layer of the reference is a transposition of the weight matrix, a contraction over the input features,
  two broadcasts of the bias, an addition and (for a rectified layer) a maximum with a broadcast zero. Read at the
  index `(r, n)` this is `max ((∑ k, h r k · W n k) + b n) 0`, where `h r` is row `r` of the previous layer: by induction
  along the layers it is the corresponding row function of `Net`. The two joined layers contract over 256 + 63 and
  256 + 27 columns; the sum splits into the part over the first 256 columns, which reads the first piece of the
  concatenation, and the part over the remaining columns, which reads the second piece.
  The density head is the overflow-free softplus (the reference's test `z ≠ z` is false on the extended reals, so its
  selection takes the second branch), and the colour head is `1 / (1 + e^(-z))`, the logistic function by definition.
-/
import proofs.«102540_j48447231098895_2_alg».proof.Proof.Gen.ReferenceIdeal.Read
import proofs.«102540_j48447231098895_2_alg».proof.Proof.Net

noncomputable section

namespace Cert.RefNet

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Two rank-2 indices with the same coordinates are equal. -/
macro "idx2" : tactic => `(tactic| (funext a; match a with | ⟨0, _⟩ => rfl | ⟨1, _⟩ => rfl))
/-- Two rank-1 indices with the same coordinate are equal. -/
macro "idx1" : tactic => `(tactic| (funext a; match a with | ⟨0, _⟩ => rfl))

/-- A rectified dense layer at one output feature: the contraction's summands, the bias and the zero are compared
    one by one. -/
theorem dense_relu {K : ℕ} (f g : Fin K → EReal) (b b' z : EReal) (hf : ∀ k, f k = g k) (hb : b = b') (hz : z = 0) :
    FloatOps.maximumf (F := Ideal) (φ := .f32) (FloatOps.addf (F := Ideal) (φ := .f32) (∑ k, f k) b) z
      = max ((∑ k, g k) + b') 0 := by
  subst hb hz
  rw [show f = g from funext hf]
  rfl

/-- A dense layer with no rectifier at one output feature. -/
theorem dense_lin {K : ℕ} (f g : Fin K → EReal) (b b' : EReal) (hf : ∀ k, f k = g k) (hb : b = b') :
    FloatOps.addf (F := Ideal) (φ := .f32) (∑ k, f k) b = (∑ k, g k) + b' := by
  subst hb
  rw [show f = g from funext hf]
  rfl

/-- The bit pattern of the single-precision one is the extended real `1`. -/
theorem ofBits_one_f32 : Ideal.ofBits .f32 0x3F800000#32 = 1 := by
  simp [Ideal.ofBits, Ideal.ieee, -EReal.coe_mul]; norm_num

/-- The reference's softplus of `z`, its three broadcast constants being zero: `z - 0 ≠ z - 0` is false, so the selection
    returns its second branch, `max z 0 + log1p (exp (-(max (z - 0) (-(z - 0)))))`, and `z - 0 = z`. -/
theorem softplus_eq (z c0 c2 c5 : EReal) (h0 : c0 = 0) (h2 : c2 = 0) (h5 : c5 = 0) :
    Scalar.select
        (FloatOps.cmpf (F := Ideal) (φ := .f32) .une (FloatOps.subf (F := Ideal) (φ := .f32) z c2)
          (FloatOps.subf (F := Ideal) (φ := .f32) z c2))
        (FloatOps.addf (F := Ideal) (φ := .f32) z c5)
        (FloatOps.addf (F := Ideal) (φ := .f32) (FloatOps.maximumf (F := Ideal) (φ := .f32) z c0)
          (FloatOps.hostUnary (F := Ideal) (φ := .f32) .log1p (FloatOps.hostUnary (F := Ideal) (φ := .f32) .exp
            (FloatOps.hostNegf (F := Ideal) (φ := .f32) (FloatOps.hostAbsf (F := Ideal) (φ := .f32)
              (FloatOps.subf (F := Ideal) (φ := .f32) z c2))))))
      = Net.softplus z := by
  subst h0 h2 h5
  show Scalar.select (Ideal.cmp .une (z - 0) (z - 0)) (z + 0)
    (max z 0 + Ideal.log1p (Ideal.exp (-(max (z - 0) (-(z - 0)))))) = _
  have hc : Ideal.cmp .une (z - 0) (z - 0) = 0#1 := by simp [Ideal.cmp]
  rw [hc, sub_zero]
  rfl

/-- The reference's `1 / (1 + exp (-z))`, its two broadcast constants being one, is the logistic function. -/
theorem logistic_eq (z c1 c2 : EReal) (h1 : c1 = 1) (h2 : c2 = 1) :
    FloatOps.hostDivf (F := Ideal) (φ := .f32) c2 (FloatOps.addf (F := Ideal) (φ := .f32) c1
      (FloatOps.hostUnary (F := Ideal) (φ := .f32) .exp (FloatOps.hostNegf (F := Ideal) (φ := .f32) z)))
      = Ideal.logistic z := by
  subst h1 h2
  rfl

/-- A rectified dense layer over two inputs side by side, at one output feature. -/
theorem dense_relu2 {K₁ K₂ : ℕ} (f₁ g₁ : Fin K₁ → EReal) (f₂ g₂ : Fin K₂ → EReal) (b b' z : EReal)
    (h₁ : ∀ k, f₁ k = g₁ k) (h₂ : ∀ k, f₂ k = g₂ k) (hb : b = b') (hz : z = 0) :
    FloatOps.maximumf (F := Ideal) (φ := .f32)
        (FloatOps.addf (F := Ideal) (φ := .f32) ((∑ k, f₁ k) + (∑ k, f₂ k)) b) z
      = max (((∑ k, g₁ k) + (∑ k, g₂ k)) + b') 0 := by
  subst hb hz
  rw [show f₁ = g₁ from funext h₁, show f₂ = g₂ from funext h₂]
  rfl

variable
  (x0 : (⟨S262144x63, .f32⟩ : BufTy).Contents (Elt Ideal)) (x1 : (⟨S262144x27, .f32⟩ : BufTy).Contents (Elt Ideal)) (x2 : (⟨S256x63, .f32⟩ : BufTy).Contents (Elt Ideal))
  (x3 : (⟨S256, .f32⟩ : BufTy).Contents (Elt Ideal)) (x4 : (⟨S256x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal)) (x8 : (⟨S256x256, .f32⟩ : BufTy).Contents (Elt Ideal))
  (x9 : (⟨S256, .f32⟩ : BufTy).Contents (Elt Ideal)) (x10 : (⟨S256x256, .f32⟩ : BufTy).Contents (Elt Ideal)) (x11 : (⟨S256, .f32⟩ : BufTy).Contents (Elt Ideal))
  (x12 : (⟨S256x319, .f32⟩ : BufTy).Contents (Elt Ideal)) (x13 : (⟨S256, .f32⟩ : BufTy).Contents (Elt Ideal)) (x14 : (⟨S256x256, .f32⟩ : BufTy).Contents (Elt Ideal))
  (x15 : (⟨S256, .f32⟩ : BufTy).Contents (Elt Ideal)) (x16 : (⟨S256x256, .f32⟩ : BufTy).Contents (Elt Ideal)) (x17 : (⟨S256, .f32⟩ : BufTy).Contents (Elt Ideal))
  (x18 : (⟨S1x256, .f32⟩ : BufTy).Contents (Elt Ideal)) (x19 : (⟨S1, .f32⟩ : BufTy).Contents (Elt Ideal)) (x20 : (⟨S256x256, .f32⟩ : BufTy).Contents (Elt Ideal))
  (x21 : (⟨S256, .f32⟩ : BufTy).Contents (Elt Ideal)) (x22 : (⟨S128x283, .f32⟩ : BufTy).Contents (Elt Ideal)) (x23 : (⟨S128, .f32⟩ : BufTy).Contents (Elt Ideal))
  (x24 : (⟨S128x128, .f32⟩ : BufTy).Contents (Elt Ideal)) (x25 : (⟨S128, .f32⟩ : BufTy).Contents (Elt Ideal)) (x26 : (⟨S128x128, .f32⟩ : BufTy).Contents (Elt Ideal))
  (x27 : (⟨S128, .f32⟩ : BufTy).Contents (Elt Ideal)) (x28 : (⟨S128x128, .f32⟩ : BufTy).Contents (Elt Ideal)) (x29 : (⟨S128, .f32⟩ : BufTy).Contents (Elt Ideal))
  (x30 : (⟨S3x128, .f32⟩ : BufTy).Contents (Elt Ideal)) (x31 : (⟨S3, .f32⟩ : BufTy).Contents (Elt Ideal))

local notation "AA" => Net.accOf x2 x3 x4 x5 x6 x7 x8 x9 x10 x11 x12 x13 x14 x15 x16 x17 x18 x19 x20 x21 x22 x23 x24 x25 x26 x27 x28 x29 x30 x31

/-- Layer 0 at row `r`, feature `n`: the contraction reads row `r` of the position encoding. -/
theorem ref_h0 (r : Fin 262144) (n : Fin 256) :
    val_main_v5 (F := Ideal) x0 x2 x3 (ix2 r n) = Net.h0 AA (Net.row x0 r) n := by
  rw [val_main_v5_apply, val_main_v4_apply, val_main_v1_apply, val_main_v3_apply, val_main_v2_apply,
    val_main_call0_v0_apply, val_main_call0_cst_apply]
  exact dense_relu _ _ _ _ _
    (fun k => by
      rw [val_main_v0_apply, show lidx_main_v1 (ix2 r n) k = ix2 r k from by idx2,
        show idx_main_v0 (ridx_main_v1 (ix2 r n) k) = ix2 n k from by idx2]
      rfl)
    (by rw [show idx_main_v2 (idx_main_v3 (ix2 r n)) = ix1 n from by idx1]; rfl)
    Ideal.ofBits_zero_f32

/-- Layer 1 at row `r`, feature `n`: the contraction reads row `r` of layer 0. -/
theorem ref_h1 (r : Fin 262144) (n : Fin 256) :
    val_main_v11 (F := Ideal) x0 x2 x3 x4 x5 (ix2 r n) = Net.h1 AA (Net.row x0 r) n := by
  rw [val_main_v11_apply, val_main_v10_apply, val_main_v7_apply, val_main_v9_apply, val_main_v8_apply,
    val_main_call1_v0_apply, val_main_call1_cst_apply]
  exact dense_relu _ _ _ _ _
    (fun k => by
      rw [val_main_v6_apply, show lidx_main_v7 (ix2 r n) k = ix2 r k from by idx2,
        show idx_main_v6 (ridx_main_v7 (ix2 r n) k) = ix2 n k from by idx2, ref_h0]
      rfl)
    (by rw [show idx_main_v8 (idx_main_v9 (ix2 r n)) = ix1 n from by idx1]; rfl)
    Ideal.ofBits_zero_f32

/-- Layer 2 at row `r`, feature `n`: the contraction reads row `r` of layer 1. -/
theorem ref_h2 (r : Fin 262144) (n : Fin 256) :
    val_main_v17 (F := Ideal) x0 x2 x3 x4 x5 x6 x7 (ix2 r n) = Net.h2 AA (Net.row x0 r) n := by
  rw [val_main_v17_apply, val_main_v16_apply, val_main_v13_apply, val_main_v15_apply, val_main_v14_apply,
    val_main_call2_v0_apply, val_main_call2_cst_apply]
  exact dense_relu _ _ _ _ _
    (fun k => by
      rw [val_main_v12_apply, show lidx_main_v13 (ix2 r n) k = ix2 r k from by idx2,
        show idx_main_v12 (ridx_main_v13 (ix2 r n) k) = ix2 n k from by idx2, ref_h1]
      rfl)
    (by rw [show idx_main_v14 (idx_main_v15 (ix2 r n)) = ix1 n from by idx1]; rfl)
    Ideal.ofBits_zero_f32

/-- Layer 3 at row `r`, feature `n`: the contraction reads row `r` of layer 2. -/
theorem ref_h3 (r : Fin 262144) (n : Fin 256) :
    val_main_v23 (F := Ideal) x0 x2 x3 x4 x5 x6 x7 x8 x9 (ix2 r n) = Net.h3 AA (Net.row x0 r) n := by
  rw [val_main_v23_apply, val_main_v22_apply, val_main_v19_apply, val_main_v21_apply, val_main_v20_apply,
    val_main_call3_v0_apply, val_main_call3_cst_apply]
  exact dense_relu _ _ _ _ _
    (fun k => by
      rw [val_main_v18_apply, show lidx_main_v19 (ix2 r n) k = ix2 r k from by idx2,
        show idx_main_v18 (ridx_main_v19 (ix2 r n) k) = ix2 n k from by idx2, ref_h2]
      rfl)
    (by rw [show idx_main_v20 (idx_main_v21 (ix2 r n)) = ix1 n from by idx1]; rfl)
    Ideal.ofBits_zero_f32

/-- Layer 4 at row `r`, feature `n`: the contraction reads row `r` of layer 3. -/
theorem ref_h4 (r : Fin 262144) (n : Fin 256) :
    val_main_v29 (F := Ideal) x0 x2 x3 x4 x5 x6 x7 x8 x9 x10 x11 (ix2 r n) = Net.h4 AA (Net.row x0 r) n := by
  rw [val_main_v29_apply, val_main_v28_apply, val_main_v25_apply, val_main_v27_apply, val_main_v26_apply,
    val_main_call4_v0_apply, val_main_call4_cst_apply]
  exact dense_relu _ _ _ _ _
    (fun k => by
      rw [val_main_v24_apply, show lidx_main_v25 (ix2 r n) k = ix2 r k from by idx2,
        show idx_main_v24 (ridx_main_v25 (ix2 r n) k) = ix2 n k from by idx2, ref_h3]
      rfl)
    (by rw [show idx_main_v26 (idx_main_v27 (ix2 r n)) = ix1 n from by idx1]; rfl)
    Ideal.ofBits_zero_f32

/-- The first joined array at a column below 256 is layer 4. -/
theorem v30_left (r : Fin 262144) (k : Fin 256) :
    val_main_v30 (F := Ideal) x0 x2 x3 x4 x5 x6 x7 x8 x9 x10 x11 (ix2 r (⟨k.val, by omega⟩ : Fin 319))
      = val_main_v29 (F := Ideal) x0 x2 x3 x4 x5 x6 x7 x8 x9 x10 x11 (ix2 r k) := by
  unfold val_main_v30
  exact concatenate_pair_apply_left 1 _ _ concatenates_S262144x256_S262144x63_S262144x319_d1 _ rfl (ix2 r k)
    (fun b => match b with | ⟨0, _⟩ => rfl | ⟨1, _⟩ => rfl)

/-- The first joined array at column `256 + k` is the position encoding at column `k`. -/
theorem v30_right (r : Fin 262144) (k : Fin 63) :
    val_main_v30 (F := Ideal) x0 x2 x3 x4 x5 x6 x7 x8 x9 x10 x11 (ix2 r (⟨256 + k.val, by omega⟩ : Fin 319)) = x0 (ix2 r k) := by
  unfold val_main_v30
  exact concatenate_pair_apply_right 1 _ _ concatenates_S262144x256_S262144x63_S262144x319_d1 _ rfl rfl (ix2 r k)
    (fun b hb => match b, hb with | ⟨0, _⟩, _ => rfl | ⟨1, _⟩, hb => absurd (Fin.ext rfl) hb)
    (by show k.val + 256 = 256 + k.val; omega)

/-- Layer 5 at row `r`, feature `n`: the contraction over 256 + 63 columns is the part over layer 4 plus the part over
    the position encoding. -/
theorem ref_h5 (r : Fin 262144) (n : Fin 256) :
    val_main_v36 (F := Ideal) x0 x2 x3 x4 x5 x6 x7 x8 x9 x10 x11 x12 x13 (ix2 r n) = Net.h5 AA (Net.row x0 r) n := by
  rw [val_main_v36_apply, val_main_v35_apply, val_main_v32_apply, val_main_v34_apply, val_main_v33_apply,
    val_main_call5_v0_apply, val_main_call5_cst_apply, Net.sum_split_319]
  exact dense_relu2 _ _ _ _ _ _ _
    (fun k => by
      rw [val_main_v31_apply,
        show lidx_main_v32 (ix2 r n) (⟨k.val, by omega⟩ : Fin 319) = ix2 r (⟨k.val, by omega⟩ : Fin 319) from by idx2,
        show idx_main_v31 (ridx_main_v32 (ix2 r n) (⟨k.val, by omega⟩ : Fin 319)) = ix2 n (⟨k.val, by omega⟩ : Fin 319) from by idx2,
        v30_left, ref_h4]
      rfl)
    (fun k => by
      rw [val_main_v31_apply,
        show lidx_main_v32 (ix2 r n) (⟨256 + k.val, by omega⟩ : Fin 319) = ix2 r (⟨256 + k.val, by omega⟩ : Fin 319) from by idx2,
        show idx_main_v31 (ridx_main_v32 (ix2 r n) (⟨256 + k.val, by omega⟩ : Fin 319)) = ix2 n (⟨256 + k.val, by omega⟩ : Fin 319) from by idx2,
        v30_right]
      rfl)
    (by rw [show idx_main_v33 (idx_main_v34 (ix2 r n)) = ix1 n from by idx1]; rfl)
    Ideal.ofBits_zero_f32

/-- Layer 6 at row `r`, feature `n`: the contraction reads row `r` of layer 5. -/
theorem ref_h6 (r : Fin 262144) (n : Fin 256) :
    val_main_v42 (F := Ideal) x0 x2 x3 x4 x5 x6 x7 x8 x9 x10 x11 x12 x13 x14 x15 (ix2 r n) = Net.h6 AA (Net.row x0 r) n := by
  rw [val_main_v42_apply, val_main_v41_apply, val_main_v38_apply, val_main_v40_apply, val_main_v39_apply,
    val_main_call6_v0_apply, val_main_call6_cst_apply]
  exact dense_relu _ _ _ _ _
    (fun k => by
      rw [val_main_v37_apply, show lidx_main_v38 (ix2 r n) k = ix2 r k from by idx2,
        show idx_main_v37 (ridx_main_v38 (ix2 r n) k) = ix2 n k from by idx2, ref_h5]
      rfl)
    (by rw [show idx_main_v39 (idx_main_v40 (ix2 r n)) = ix1 n from by idx1]; rfl)
    Ideal.ofBits_zero_f32

/-- Layer 7 at row `r`, feature `n`: the contraction reads row `r` of layer 6. -/
theorem ref_h7 (r : Fin 262144) (n : Fin 256) :
    val_main_v48 (F := Ideal) x0 x2 x3 x4 x5 x6 x7 x8 x9 x10 x11 x12 x13 x14 x15 x16 x17 (ix2 r n) = Net.h7 AA (Net.row x0 r) n := by
  rw [val_main_v48_apply, val_main_v47_apply, val_main_v44_apply, val_main_v46_apply, val_main_v45_apply,
    val_main_call7_v0_apply, val_main_call7_cst_apply]
  exact dense_relu _ _ _ _ _
    (fun k => by
      rw [val_main_v43_apply, show lidx_main_v44 (ix2 r n) k = ix2 r k from by idx2,
        show idx_main_v43 (ridx_main_v44 (ix2 r n) k) = ix2 n k from by idx2, ref_h6]
      rfl)
    (by rw [show idx_main_v45 (idx_main_v46 (ix2 r n)) = ix1 n from by idx1]; rfl)
    Ideal.ofBits_zero_f32

/-- The argument of the density's softplus at row `r`: one dot product with layer 7, plus the bias. -/
theorem ref_zsig (r : Fin 262144) :
    val_main_v53 (F := Ideal) x0 x2 x3 x4 x5 x6 x7 x8 x9 x10 x11 x12 x13 x14 x15 x16 x17 x18 x19 (ix2 r (0 : Fin 1))
      = Net.dotb (AA).wsig (AA).bsig (Net.h7 AA (Net.row x0 r)) := by
  rw [val_main_v53_apply, val_main_v50_apply, val_main_v52_apply, val_main_v51_apply]
  exact dense_lin _ _ _ _
    (fun k => by
      rw [val_main_v49_apply, show lidx_main_v50 (ix2 r (0 : Fin 1)) k = ix2 r k from by idx2,
        show idx_main_v49 (ridx_main_v50 (ix2 r (0 : Fin 1)) k) = ix2 (0 : Fin 1) k from by idx2, ref_h7]
      rfl)
    (by rw [show idx_main_v51 (idx_main_v52 (ix2 r (0 : Fin 1))) = ix1 (0 : Fin 1) from by idx1]; rfl)

/-- The density at row `r`. The reference's softplus compares `z - 0` with itself for inequality (false on the extended
    reals) and so returns `max z 0 + log1p (exp (-|z - 0|))`. -/
theorem ref_sig (r : Fin 262144) :
    val_main_v54 (F := Ideal) x0 x2 x3 x4 x5 x6 x7 x8 x9 x10 x11 x12 x13 x14 x15 x16 x17 x18 x19 (ix2 r (0 : Fin 1)) = Net.sig AA (Net.row x0 r) := by
  have h0 : (val_main_call8_v0 (F := Ideal) (ix2 r (0 : Fin 1)) : EReal) = 0 := by
    rw [val_main_call8_v0_apply]; exact Ideal.ofBits_zero_f32
  have h2 : (val_main_call8_v2 (F := Ideal) (ix2 r (0 : Fin 1)) : EReal) = 0 := by
    rw [val_main_call8_v2_apply]; exact Ideal.ofBits_zero_f32
  have h5 : (val_main_call8_v5 (F := Ideal) (ix2 r (0 : Fin 1)) : EReal) = 0 := by
    rw [val_main_call8_v5_apply]; exact Ideal.ofBits_zero_f32
  rw [val_main_v54_apply, val_main_call8_v4_apply, val_main_call8_v6_apply, val_main_call8_v11_apply,
    val_main_call8_v1_apply, val_main_call8_v10_apply, val_main_call8_v9_apply, val_main_call8_v8_apply,
    val_main_call8_v7_apply, val_main_call8_v3_apply, ref_zsig]
  exact softplus_eq _ _ _ _ h0 h2 h5

/-- Layer 8 (no rectifier) at row `r`, feature `n`: the contraction reads row `r` of layer 7. -/
theorem ref_h8 (r : Fin 262144) (n : Fin 256) :
    val_main_v59 (F := Ideal) x0 x2 x3 x4 x5 x6 x7 x8 x9 x10 x11 x12 x13 x14 x15 x16 x17 x20 x21 (ix2 r n) = Net.h8 AA (Net.row x0 r) n := by
  rw [val_main_v59_apply, val_main_v56_apply, val_main_v58_apply, val_main_v57_apply]
  exact dense_lin _ _ _ _
    (fun k => by
      rw [val_main_v55_apply, show lidx_main_v56 (ix2 r n) k = ix2 r k from by idx2,
        show idx_main_v55 (ridx_main_v56 (ix2 r n) k) = ix2 n k from by idx2, ref_h7]
      rfl)
    (by rw [show idx_main_v57 (idx_main_v58 (ix2 r n)) = ix1 n from by idx1]; rfl)

/-- The second joined array at a column below 256 is layer 8. -/
theorem v60_left (r : Fin 262144) (k : Fin 256) :
    val_main_v60 (F := Ideal) x0 x1 x2 x3 x4 x5 x6 x7 x8 x9 x10 x11 x12 x13 x14 x15 x16 x17 x20 x21 (ix2 r (⟨k.val, by omega⟩ : Fin 283))
      = val_main_v59 (F := Ideal) x0 x2 x3 x4 x5 x6 x7 x8 x9 x10 x11 x12 x13 x14 x15 x16 x17 x20 x21 (ix2 r k) := by
  unfold val_main_v60
  exact concatenate_pair_apply_left 1 _ _ concatenates_S262144x256_S262144x27_S262144x283_d1 _ rfl (ix2 r k)
    (fun b => match b with | ⟨0, _⟩ => rfl | ⟨1, _⟩ => rfl)

/-- The second joined array at column `256 + k` is the direction encoding at column `k`. -/
theorem v60_right (r : Fin 262144) (k : Fin 27) :
    val_main_v60 (F := Ideal) x0 x1 x2 x3 x4 x5 x6 x7 x8 x9 x10 x11 x12 x13 x14 x15 x16 x17 x20 x21 (ix2 r (⟨256 + k.val, by omega⟩ : Fin 283)) = x1 (ix2 r k) := by
  unfold val_main_v60
  exact concatenate_pair_apply_right 1 _ _ concatenates_S262144x256_S262144x27_S262144x283_d1 _ rfl rfl (ix2 r k)
    (fun b hb => match b, hb with | ⟨0, _⟩, _ => rfl | ⟨1, _⟩, hb => absurd (Fin.ext rfl) hb)
    (by show k.val + 256 = 256 + k.val; omega)

/-- Layer 9 at row `r`, feature `n`: the contraction over 256 + 27 columns is the part over layer 8 plus the part over
    the direction encoding. -/
theorem ref_h9 (r : Fin 262144) (n : Fin 128) :
    val_main_v66 (F := Ideal) x0 x1 x2 x3 x4 x5 x6 x7 x8 x9 x10 x11 x12 x13 x14 x15 x16 x17 x20 x21 x22 x23 (ix2 r n) = Net.h9 AA (Net.row x0 r) (Net.row x1 r) n := by
  rw [val_main_v66_apply, val_main_v65_apply, val_main_v62_apply, val_main_v64_apply, val_main_v63_apply,
    val_main_call9_v0_apply, val_main_call9_cst_apply, Net.sum_split_283]
  exact dense_relu2 _ _ _ _ _ _ _
    (fun k => by
      rw [val_main_v61_apply,
        show lidx_main_v62 (ix2 r n) (⟨k.val, by omega⟩ : Fin 283) = ix2 r (⟨k.val, by omega⟩ : Fin 283) from by idx2,
        show idx_main_v61 (ridx_main_v62 (ix2 r n) (⟨k.val, by omega⟩ : Fin 283)) = ix2 n (⟨k.val, by omega⟩ : Fin 283) from by idx2,
        v60_left, ref_h8]
      rfl)
    (fun k => by
      rw [val_main_v61_apply,
        show lidx_main_v62 (ix2 r n) (⟨256 + k.val, by omega⟩ : Fin 283) = ix2 r (⟨256 + k.val, by omega⟩ : Fin 283) from by idx2,
        show idx_main_v61 (ridx_main_v62 (ix2 r n) (⟨256 + k.val, by omega⟩ : Fin 283)) = ix2 n (⟨256 + k.val, by omega⟩ : Fin 283) from by idx2,
        v60_right]
      rfl)
    (by rw [show idx_main_v63 (idx_main_v64 (ix2 r n)) = ix1 n from by idx1]; rfl)
    Ideal.ofBits_zero_f32

/-- Layer 10 at row `r`, feature `n`: the contraction reads row `r` of layer 9. -/
theorem ref_h10 (r : Fin 262144) (n : Fin 128) :
    val_main_v72 (F := Ideal) x0 x1 x2 x3 x4 x5 x6 x7 x8 x9 x10 x11 x12 x13 x14 x15 x16 x17 x20 x21 x22 x23 x24 x25 (ix2 r n) = Net.h10 AA (Net.row x0 r) (Net.row x1 r) n := by
  rw [val_main_v72_apply, val_main_v71_apply, val_main_v68_apply, val_main_v70_apply, val_main_v69_apply,
    val_main_call10_v0_apply, val_main_call10_cst_apply]
  exact dense_relu _ _ _ _ _
    (fun k => by
      rw [val_main_v67_apply, show lidx_main_v68 (ix2 r n) k = ix2 r k from by idx2,
        show idx_main_v67 (ridx_main_v68 (ix2 r n) k) = ix2 n k from by idx2, ref_h9]
      rfl)
    (by rw [show idx_main_v69 (idx_main_v70 (ix2 r n)) = ix1 n from by idx1]; rfl)
    Ideal.ofBits_zero_f32

/-- Layer 11 at row `r`, feature `n`: the contraction reads row `r` of layer 10. -/
theorem ref_h11 (r : Fin 262144) (n : Fin 128) :
    val_main_v78 (F := Ideal) x0 x1 x2 x3 x4 x5 x6 x7 x8 x9 x10 x11 x12 x13 x14 x15 x16 x17 x20 x21 x22 x23 x24 x25 x26 x27 (ix2 r n) = Net.h11 AA (Net.row x0 r) (Net.row x1 r) n := by
  rw [val_main_v78_apply, val_main_v77_apply, val_main_v74_apply, val_main_v76_apply, val_main_v75_apply,
    val_main_call11_v0_apply, val_main_call11_cst_apply]
  exact dense_relu _ _ _ _ _
    (fun k => by
      rw [val_main_v73_apply, show lidx_main_v74 (ix2 r n) k = ix2 r k from by idx2,
        show idx_main_v73 (ridx_main_v74 (ix2 r n) k) = ix2 n k from by idx2, ref_h10]
      rfl)
    (by rw [show idx_main_v75 (idx_main_v76 (ix2 r n)) = ix1 n from by idx1]; rfl)
    Ideal.ofBits_zero_f32

/-- Layer 12 at row `r`, feature `n`: the contraction reads row `r` of layer 11. -/
theorem ref_h12 (r : Fin 262144) (n : Fin 128) :
    val_main_v84 (F := Ideal) x0 x1 x2 x3 x4 x5 x6 x7 x8 x9 x10 x11 x12 x13 x14 x15 x16 x17 x20 x21 x22 x23 x24 x25 x26 x27 x28 x29 (ix2 r n) = Net.h12 AA (Net.row x0 r) (Net.row x1 r) n := by
  rw [val_main_v84_apply, val_main_v83_apply, val_main_v80_apply, val_main_v82_apply, val_main_v81_apply,
    val_main_call12_v0_apply, val_main_call12_cst_apply]
  exact dense_relu _ _ _ _ _
    (fun k => by
      rw [val_main_v79_apply, show lidx_main_v80 (ix2 r n) k = ix2 r k from by idx2,
        show idx_main_v79 (ridx_main_v80 (ix2 r n) k) = ix2 n k from by idx2, ref_h11]
      rfl)
    (by rw [show idx_main_v81 (idx_main_v82 (ix2 r n)) = ix1 n from by idx1]; rfl)
    Ideal.ofBits_zero_f32

/-- The argument of colour channel `j`'s logistic function at row `r`: a dot product with layer 12, plus the bias. -/
theorem ref_zrgb (r : Fin 262144) (j : Fin 3) :
    val_main_v89 (F := Ideal) x0 x1 x2 x3 x4 x5 x6 x7 x8 x9 x10 x11 x12 x13 x14 x15 x16 x17 x20 x21 x22 x23 x24 x25 x26 x27 x28 x29 x30 x31 (ix2 r j)
      = Net.dotb ((AA).wrgb j) ((AA).brgb j) (Net.h12 AA (Net.row x0 r) (Net.row x1 r)) := by
  rw [val_main_v89_apply, val_main_v86_apply, val_main_v88_apply, val_main_v87_apply]
  exact dense_lin _ _ _ _
    (fun k => by
      rw [val_main_v85_apply, show lidx_main_v86 (ix2 r j) k = ix2 r k from by idx2,
        show idx_main_v85 (ridx_main_v86 (ix2 r j) k) = ix2 j k from by idx2, ref_h12]
      rfl)
    (by rw [show idx_main_v87 (idx_main_v88 (ix2 r j)) = ix1 j from by idx1]; rfl)

/-- Colour channel `j` at row `r`: the reference's `1 / (1 + exp (-z))` is the logistic function. -/
theorem ref_rgb (r : Fin 262144) (j : Fin 3) :
    val_main_v95 (F := Ideal) x0 x1 x2 x3 x4 x5 x6 x7 x8 x9 x10 x11 x12 x13 x14 x15 x16 x17 x20 x21 x22 x23 x24 x25 x26 x27 x28 x29 x30 x31 (ix2 r j) = Net.rgb AA (Net.row x0 r) (Net.row x1 r) j := by
  have h1 : (val_main_v92 (F := Ideal) (ix2 r j) : EReal) = 1 := by
    rw [val_main_v92_apply]; exact ofBits_one_f32
  have h2 : (val_main_v94 (F := Ideal) (ix2 r j) : EReal) = 1 := by
    rw [val_main_v94_apply]; exact ofBits_one_f32
  rw [val_main_v95_apply, val_main_v93_apply, val_main_v91_apply, val_main_v90_apply, ref_zrgb]
  exact logistic_eq _ _ _ h1 h2

end Cert.RefNet

end
-- ==== Proof.lean ====
/-
  The certificate of the fused radiance-field network against its plain reference.

  Both idealized programs compute, for every row of the position and direction encodings, the same network of
  `Proof/Net.lean` on the extended reals: eight rectified dense layers (the sixth reading the position encoding again),
  a softplus density head, and a colour branch of one plain and four rectified layers ending in three logistic outputs.
  The kernel program does it block by block, with each joined layer split into two partial products and the two small
  heads as lane sums, and packs the results into one array that two slices take apart (`Proof/KFinal.lean`); the
  reference does it on whole arrays with the joined layers as one product over a concatenated axis (`Proof/Ref.lean`).
  The two agree because a sum over a joined axis is the sum of the sums over its two parts; no input needs to be
  finite for that, so the precondition is not opened. Changes of float format are the identity at the exact values,
  the logistic function is by definition `1 / (1 + e^(-z))`, and the not-a-number branch of either softplus is never
  taken. The ideal pass rewrote nothing in the kernel, so the preservation conjunct is trivial. The three frames are
  the kernel programs' frame theorems and the reference's run with its results dropped.
-/
import proofs.«102540_j48447231098895_2_alg».proof.Defs
import proofs.«102540_j48447231098895_2_alg».proof.Proof.Gen.Kernel
import proofs.«102540_j48447231098895_2_alg».proof.Proof.Gen.Kernel.Skeleton
import proofs.«102540_j48447231098895_2_alg».proof.Proof.Gen.Kernel.Launch
import proofs.«102540_j48447231098895_2_alg».proof.Proof.Gen.Kernel.Points
import proofs.«102540_j48447231098895_2_alg».proof.Proof.FramePatchKernel
import proofs.«102540_j48447231098895_2_alg».proof.Proof.Gen.KernelIdeal
import proofs.«102540_j48447231098895_2_alg».proof.Proof.Gen.KernelIdeal.Skeleton
import proofs.«102540_j48447231098895_2_alg».proof.Proof.Gen.KernelIdeal.Launch
import proofs.«102540_j48447231098895_2_alg».proof.Proof.Gen.KernelIdeal.Points
import proofs.«102540_j48447231098895_2_alg».proof.Proof.FramePatchKernelIdeal
import proofs.«102540_j48447231098895_2_alg».proof.Proof.Gen.ReferenceIdeal
import proofs.«102540_j48447231098895_2_alg».proof.Proof.Gen.Pre_finite_inputs
import proofs.«102540_j48447231098895_2_alg».proof.Proof.Gen.ReferenceIdeal.Run
import proofs.«102540_j48447231098895_2_alg».proof.Proof.Gen.ReferenceIdeal.Read
import proofs.«102540_j48447231098895_2_alg».proof.Proof.KFinal
import proofs.«102540_j48447231098895_2_alg».proof.Proof.Ref
import Idealize.ShloMosaic.Adequacy
import Idealize.ShloMosaic.Init

set_option maxHeartbeats 2000000
set_option maxRecDepth 16384

noncomputable section

namespace Cert.Proof

open Idealize.ShloMosaic Idealize.SL.Sem

/-- From memories that agree on the arguments both idealized programs end with the same two results: the kernel
    program's are the network of its argument arrays (`KNet.krun`), the reference's composed terms are the same
    network of the same arrays (`RefNet.ref_rgb`, `RefNet.ref_sig`), row by row and channel by channel. -/
theorem algebraic : Cert.algebraic_KernelIdeal_ReferenceIdeal := by
  intro m ρ m' ρ' _ hagree
  refine ⟨fun c => Cert.KNet.resRgb m c, fun c => Cert.KNet.resSig m c, Cert.KNet.krun m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18, a19, a20, a21, a22, a23, a24, a25, a26, a27, a28, a29, a30, a31⟩ := hagree c
    rw [Cert.ReferenceIdeal.Read.val_main_v95_eq, a0, a1, a2, a3, a4, a5, a6, a7, a8, a9, a10, a11, a12, a13, a14, a15, a16, a17, a20, a21, a22, a23, a24, a25, a26, a27, a28, a29, a30, a31]
    funext i
    obtain ⟨r, j, rfl⟩ : ∃ (r : Fin 262144) (j : Fin 3), i = ValueIdx.ix2 r j := ⟨i 0, i 1, ValueIdx.eq_ix2 i⟩
    exact Cert.RefNet.ref_rgb _ _ _ _ _ _ _ _ _ _ _ _ _ _ _ _ _ _ _ _ _ _ _ _ _ _ _ _ _ _ _ _ r j
  · obtain ⟨a0, a1, a2, a3, a4, a5, a6, a7, a8, a9, a10, a11, a12, a13, a14, a15, a16, a17, a18, a19, a20, a21, a22, a23, a24, a25, a26, a27, a28, a29, a30, a31⟩ := hagree c
    rw [Cert.ReferenceIdeal.Read.val_main_v54_eq, a0, a2, a3, a4, a5, a6, a7, a8, a9, a10, a11, a12, a13, a14, a15, a16, a17, a18, a19]
    funext i
    obtain ⟨r, u, rfl⟩ : ∃ (r : Fin 262144) (u : Fin 1), i = ValueIdx.ix2 r u := ⟨i 0, i 1, ValueIdx.eq_ix2 i⟩
    have hu : u = 0 := Fin.ext (by omega)
    subst hu
    exact Cert.RefNet.ref_sig _ _ _ _ _ _ _ _ _ _ _ _ _ _ _ _ _ _ _ _ _ _ _ _ _ _ _ _ _ _ _ r

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  fun m ρ _ => (θ_run Cert.ReferenceIdeal.defs _ _).mono (fun _ h c => (h c).2.2) (Cert.ReferenceIdeal.Value.run (F := Ideal) m ρ),
  trivial,
  algebraic⟩

end Cert.Proof

end
